-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64x64 .f32) (main_arg6 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : IVec S2x1600000 32) (main_arg1 : FVec F S1600000 .f32) (main_arg2 : FVec F S100000x64 .f32) (main_arg3 : FVec F S3x64x64 .f32) (main_arg4 : FVec F S3x64 .f32) (main_arg5 : FVec F S3x64x64 .f32) (main_arg6 : FVec F S3x64 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_v13 main_v16
-- ==== Kernel.lean ====
abbrev S2x1600000 : Shape := ⟨2, ![2, 1600000]⟩
abbrev S1600000 : Shape := ⟨1, ![1600000]⟩
abbrev S100000x64 : Shape := ⟨2, ![100000, 64]⟩
abbrev S3x64x64 : Shape := ⟨3, ![3, 64, 64]⟩
abbrev S3x64 : Shape := ⟨2, ![3, 64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S6400x64 : Shape := ⟨2, ![6400, 64]⟩
abbrev S6400x1 : Shape := ⟨2, ![6400, 1]⟩
abbrev S10000x64 : Shape := ⟨2, ![10000, 64]⟩
abbrev S100000x128 : Shape := ⟨2, ![100000, 128]⟩

abbrev nBuf : Space → Nat
  | .hbm => 200
  | .vmem => 60
  | .smem => 0
  | _ => 0

abbrev hbmTy0_0 (i : Nat) : BufTy := match i % 128 with
  | 0 => ⟨S2x1600000, .i32⟩
  | 1 => ⟨S1600000, .f32⟩
  | 2 => ⟨S100000x64, .f32⟩
  | 3 => ⟨S3x64x64, .f32⟩
  | 4 => ⟨S3x64, .f32⟩
  | 5 => ⟨S3x64x64, .f32⟩
  | 6 => ⟨S3x64, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S100000, .f32⟩
  | 13 => ⟨S_, .f32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1600000, .f32⟩
  | 58 => ⟨S1600000x1, .f32⟩
  | 59 => ⟨S3x64x64, .f32⟩
  | 60 => ⟨S3x64x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1x64x64, .f32⟩
  | 80 => ⟨S64x64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S1x64, .f32⟩
  | 89 => ⟨S1600000x64, .f32⟩
  | 90 => ⟨S_, .f32⟩
  | 91 => ⟨S100000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S100000x64, .f32⟩
  | 101 => ⟨S1x64x64, .f32⟩
  | 102 => ⟨S64x64, .f32⟩
  | 103 => ⟨S1x64, .f32⟩
  | 104 => ⟨S64, .f32⟩
  | 105 => ⟨S1x64, .f32⟩
  | 106 => ⟨S100000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1x64x64, .f32⟩
  | 126 => ⟨S64x64, .f32⟩
  | 127 => ⟨S1x64, .f32⟩
  | _ => ⟨S2x1600000, .i32⟩

abbrev hbmTy0_1 (i : Nat) : BufTy := match i % 128 with
  | 0 => ⟨S64, .f32⟩
  | 1 => ⟨S1x64x64, .f32⟩
  | 2 => ⟨S64x64, .f32⟩
  | 3 => ⟨S1x64, .f32⟩
  | 4 => ⟨S64, .f32⟩
  | 5 => ⟨S1x64, .f32⟩
  | 6 => ⟨S1x64, .f32⟩
  | 7 => ⟨S1600000x64, .f32⟩
  | 8 => ⟨S_, .f32⟩
  | 9 => ⟨S100000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S100000x64, .f32⟩
  | 19 => ⟨S1x64x64, .f32⟩
  | 20 => ⟨S64x64, .f32⟩
  | 21 => ⟨S1x64, .f32⟩
  | 22 => ⟨S64, .f32⟩
  | 23 => ⟨S1x64, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S1x64x64, .f32⟩
  | 44 => ⟨S64x64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S1x64, .f32⟩
  | 53 => ⟨S1600000x64, .f32⟩
  | 54 => ⟨S_, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S100000x64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S100000x64, .f32⟩
  | 71 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x1, .f32⟩
  | .local _ .vmem, ⟨5, _⟩ => ⟨S6400x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S6400x64, .f32⟩
  | .local _ .vmem, ⟨11, _⟩ => ⟨S6400x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S6400x64, .f32⟩
  | .local _ .vmem, ⟨21, _⟩ => ⟨S6400x64, .f32⟩
  | .local _ .vmem, ⟨22, _⟩ => ⟨S6400x64, .f32⟩
  | .local _ .vmem, ⟨23, _⟩ => ⟨S6400x64, .f32⟩
  | .local _ .vmem, ⟨24, _⟩ => ⟨S6400x1, .f32⟩
  | .local _ .vmem, ⟨25, _⟩ => ⟨S6400x1, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S6400x64, .f32⟩
  | .local _ .vmem, ⟨31, _⟩ => ⟨S6400x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S6400x64, .f32⟩
  | .local _ .vmem, ⟨41, _⟩ => ⟨S6400x64, .f32⟩
  | .local _ .vmem, ⟨42, _⟩ => ⟨S6400x64, .f32⟩
  | .local _ .vmem, ⟨43, _⟩ => ⟨S6400x64, .f32⟩
  | .local _ .vmem, ⟨44, _⟩ => ⟨S6400x1, .f32⟩
  | .local _ .vmem, ⟨45, _⟩ => ⟨S6400x1, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S6400x64, .f32⟩
  | .local _ .vmem, ⟨51, _⟩ => ⟨S6400x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_19 : Ref sig .tc := ⟨.hbm, 116, rfl⟩
abbrev main_v86 : Ref sig .tc := ⟨.hbm, 117, rfl⟩
abbrev main_v87 : Ref sig .tc := ⟨.hbm, 118, rfl⟩
abbrev main_c_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_c_22 : Ref sig .tc := ⟨.hbm, 138, rfl⟩
abbrev main_v105 : Ref sig .tc := ⟨.hbm, 139, rfl⟩
abbrev main_v106 : Ref sig .tc := ⟨.hbm, 140, rfl⟩
abbrev main_c_23 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_24 : Ref sig .tc := ⟨.hbm, 153, rfl⟩
abbrev main_v118 : Ref sig .tc := ⟨.hbm, 154, rfl⟩
abbrev main_v119 : Ref sig .tc := ⟨.hbm, 155, rfl⟩
abbrev main_c_25 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_26 : Ref sig .tc := ⟨.hbm, 162, rfl⟩
abbrev main_v125 : Ref sig .tc := ⟨.hbm, 163, rfl⟩
abbrev main_v126 : Ref sig .tc := ⟨.hbm, 164, rfl⟩
abbrev main_c_27 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_28 : Ref sig .tc := ⟨.hbm, 182, rfl⟩
abbrev main_v143 : Ref sig .tc := ⟨.hbm, 183, rfl⟩
abbrev main_c_29 : Ref sig .tc := ⟨.hbm, 184, rfl⟩
abbrev main_v144 : Ref sig .tc := ⟨.hbm, 185, rfl⟩
abbrev main_v145 : Ref sig .tc := ⟨.hbm, 186, rfl⟩
abbrev main_c_30 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem7_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem4_1 : DmaSem sig := 59

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S6400x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  transposes_S3x64x64_S3x64x64_0_2_1 : S3x64x64.Transposes [0, 2, 1] S3x64x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  broadcasts_S6400x1_S6400x64 : S6400x1.Broadcasts S6400x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x128_d1 : Shape.Concatenates [S100000x64, S100000x64] S100000x128 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .f32 = 32 ∨ (Rect.block (s := S1600000x1) S6400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S1600000x64.size a
  hwx0_7 : ∀ i : grid0.Coords, EltTy.bits .f32 = 32 ∨ (Rect.block (s := S1600000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S1600000x64.size a
  hwx2_0 : ∀ i : grid2.Coords, EltTy.bits .f32 = 32 ∨ (Rect.block (s := S1600000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S1600000x64.size a
  hwx2_1 : ∀ i : grid2.Coords, EltTy.bits .f32 = 32 ∨ (Rect.block (s := S1600000x64) S6400x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x1.size a ≤ S1600000x1.size a
  hwx2_2 : ∀ i : grid2.Coords, EltTy.bits .f32 = 32 ∨ (Rect.block (s := S1600000x1) S6400x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x64.size a ≤ S1600000x64.size a
  hwx2_7 : ∀ i : grid2.Coords, EltTy.bits .f32 = 32 ∨ (Rect.block (s := S1600000x64) S6400x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S1600000x64.size a
  hwx4_0 : ∀ i : grid4.Coords, EltTy.bits .f32 = 32 ∨ (Rect.block (s := S1600000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x64.size a ≤ S1600000x64.size a
  hwx4_1 : ∀ i : grid4.Coords, EltTy.bits .f32 = 32 ∨ (Rect.block (s := S1600000x64) S6400x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x1.size a ≤ S1600000x1.size a
  hwx4_2 : ∀ i : grid4.Coords, EltTy.bits .f32 = 32 ∨ (Rect.block (s := S1600000x1) S6400x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S6400x64.size a ≤ S1600000x64.size a
  hwx4_7 : ∀ i : grid4.Coords, EltTy.bits .f32 = 32 ∨ (Rect.block (s := S1600000x64) S6400x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v46) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v72) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v85) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S6400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v94) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v103) S6400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v111) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v116) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v117) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v124) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S6400x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S6400x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v133) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v141) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v142) S6400x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v150) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v152) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v155) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v156) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x64 : Shape := ⟨2, ![100000, 64]⟩
abbrev S3x64x64 : Shape := ⟨3, ![3, 64, 64]⟩
abbrev S3x64 : Shape := ⟨2, ![3, 64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x128 : Shape := ⟨2, ![100000, 128]⟩

abbrev nBuf : Space → Nat
  | .hbm => 269
  | .vmem => 0
  | .smem => 0
  | _ => 0

abbrev hbmTy0_0 (i : Nat) : BufTy := match i % 128 with
  | 0 => ⟨S2x1600000, .i32⟩
  | 1 => ⟨S1600000, .f32⟩
  | 2 => ⟨S100000x64, .f32⟩
  | 3 => ⟨S3x64x64, .f32⟩
  | 4 => ⟨S3x64, .f32⟩
  | 5 => ⟨S3x64x64, .f32⟩
  | 6 => ⟨S3x64, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S100000, .f32⟩
  | 13 => ⟨S_, .f32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x1, .f32⟩
  | 77 => ⟨S1x64x64, .f32⟩
  | 78 => ⟨S64x64, .f32⟩
  | 79 => ⟨S64x64, .f32⟩
  | 80 => ⟨S1600000x64, .f32⟩
  | 81 => ⟨S1x64, .f32⟩
  | 82 => ⟨S64, .f32⟩
  | 83 => ⟨S1x64, .f32⟩
  | 84 => ⟨S1600000x64, .f32⟩
  | 85 => ⟨S1600000x64, .f32⟩
  | 86 => ⟨S1600000x64, .f32⟩
  | 87 => ⟨S1x64x64, .f32⟩
  | 88 => ⟨S64x64, .f32⟩
  | 89 => ⟨S64x64, .f32⟩
  | 90 => ⟨S1600000x64, .f32⟩
  | 91 => ⟨S1x64, .f32⟩
  | 92 => ⟨S64, .f32⟩
  | 93 => ⟨S1x64, .f32⟩
  | 94 => ⟨S1600000x64, .f32⟩
  | 95 => ⟨S1600000x64, .f32⟩
  | 96 => ⟨S1600000x64, .f32⟩
  | 97 => ⟨S1600000x64, .f32⟩
  | 98 => ⟨S1600000x64, .f32⟩
  | 99 => ⟨S_, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S100000x64, .f32⟩
  | 110 => ⟨S1x64x64, .f32⟩
  | 111 => ⟨S64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S100000x64, .f32⟩
  | 123 => ⟨S100000x64, .i1⟩
  | 124 => ⟨S_, .f32⟩
  | 125 => ⟨S100000x64, .f32⟩
  | 126 => ⟨S100000x64, .f32⟩
  | 127 => ⟨S100000x64, .f32⟩
  | _ => ⟨S2x1600000, .i32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x1, .f32⟩
  | 19 => ⟨S1x64x64, .f32⟩
  | 20 => ⟨S64x64, .f32⟩
  | 21 => ⟨S64x64, .f32⟩
  | 22 => ⟨S1600000x64, .f32⟩
  | 23 => ⟨S1x64, .f32⟩
  | 24 => ⟨S64, .f32⟩
  | 25 => ⟨S1x64, .f32⟩
  | 26 => ⟨S1600000x64, .f32⟩
  | 27 => ⟨S1600000x64, .f32⟩
  | 28 => ⟨S1600000x64, .f32⟩
  | 29 => ⟨S1x64x64, .f32⟩
  | 30 => ⟨S64x64, .f32⟩
  | 31 => ⟨S64x64, .f32⟩
  | 32 => ⟨S1600000x64, .f32⟩
  | 33 => ⟨S1x64, .f32⟩
  | 34 => ⟨S64, .f32⟩
  | 35 => ⟨S1x64, .f32⟩
  | 36 => ⟨S1600000x64, .f32⟩
  | 37 => ⟨S1600000x64, .f32⟩
  | 38 => ⟨S1600000x64, .f32⟩
  | 39 => ⟨S1600000x64, .f32⟩
  | 40 => ⟨S1600000x64, .f32⟩
  | 41 => ⟨S_, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S100000x64, .f32⟩
  | 52 => ⟨S1x64x64, .f32⟩
  | 53 => ⟨S64x64, .f32⟩
  | 54 => ⟨S64x64, .f32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S100000x64, .f32⟩
  | 65 => ⟨S100000x64, .i1⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S1600000x1, .f32⟩
  | 89 => ⟨S1x64x64, .f32⟩
  | 90 => ⟨S64x64, .f32⟩
  | 91 => ⟨S64x64, .f32⟩
  | 92 => ⟨S1600000x64, .f32⟩
  | 93 => ⟨S1x64, .f32⟩
  | 94 => ⟨S64, .f32⟩
  | 95 => ⟨S1x64, .f32⟩
  | 96 => ⟨S1600000x64, .f32⟩
  | 97 => ⟨S1600000x64, .f32⟩
  | 98 => ⟨S1600000x64, .f32⟩
  | 99 => ⟨S1x64x64, .f32⟩
  | 100 => ⟨S64x64, .f32⟩
  | 101 => ⟨S64x64, .f32⟩
  | 102 => ⟨S1600000x64, .f32⟩
  | 103 => ⟨S1x64, .f32⟩
  | 104 => ⟨S64, .f32⟩
  | 105 => ⟨S1x64, .f32⟩
  | 106 => ⟨S1600000x64, .f32⟩
  | 107 => ⟨S1600000x64, .f32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S100000x64, .f32⟩
  | 122 => ⟨S1x64x64, .f32⟩
  | 123 => ⟨S64x64, .f32⟩
  | 124 => ⟨S64x64, .f32⟩
  | 125 => ⟨S100000x64, .f32⟩
  | 126 => ⟨S1x64, .f32⟩
  | 127 => ⟨S64, .f32⟩
  | _ => ⟨S2x1600000, .i32⟩

abbrev hbmTy0_2 (i : Nat) : BufTy := match i % 128 with
  | 0 => ⟨S1x64, .f32⟩
  | 1 => ⟨S100000x64, .f32⟩
  | 2 => ⟨S100000x64, .f32⟩
  | 3 => ⟨S100000x64, .f32⟩
  | 4 => ⟨S_, .f32⟩
  | 5 => ⟨S_, .f32⟩
  | 6 => ⟨S100000x64, .f32⟩
  | 7 => ⟨S100000x64, .i1⟩
  | 8 => ⟨S_, .f32⟩
  | 9 => ⟨S100000x64, .f32⟩
  | 10 => ⟨S100000x64, .f32⟩
  | 11 => ⟨S100000x64, .f32⟩
  | 12 => ⟨S100000x128, .f32⟩
  | _ => ⟨S2x1600000, .i32⟩

abbrev hbmTy (i : Nat) : BufTy := match i / 128 with
  | 0 => hbmTy0_0 i
  | 1 => hbmTy0_1 i
  | 2 => hbmTy0_2 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_c_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v92 : Ref sig .tc := ⟨.hbm, 127, rfl⟩
abbrev main_c_18 : Ref sig .tc := ⟨.hbm, 128, rfl⟩
abbrev main_v93 : Ref sig .tc := ⟨.hbm, 129, rfl⟩
abbrev main_v94 : Ref sig .tc := ⟨.hbm, 130, rfl⟩
abbrev main_c_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_20 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_22 : Ref sig .tc := ⟨.hbm, 169, rfl⟩
abbrev main_v130 : Ref sig .tc := ⟨.hbm, 170, rfl⟩
abbrev main_c_23 : Ref sig .tc := ⟨.hbm, 171, rfl⟩
abbrev main_v131 : Ref sig .tc := ⟨.hbm, 172, rfl⟩
abbrev main_v132 : Ref sig .tc := ⟨.hbm, 173, rfl⟩
abbrev main_c_24 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_25 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_v148 : Ref sig .tc := ⟨.hbm, 197, rfl⟩
abbrev main_c_26 : Ref sig .tc := ⟨.hbm, 198, rfl⟩
abbrev main_v149 : Ref sig .tc := ⟨.hbm, 199, rfl⟩
abbrev main_v150 : Ref sig .tc := ⟨.hbm, 200, rfl⟩
abbrev main_c_27 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_28 : Ref sig .tc := ⟨.hbm, 207, rfl⟩
abbrev main_v156 : Ref sig .tc := ⟨.hbm, 208, rfl⟩
abbrev main_v157 : Ref sig .tc := ⟨.hbm, 209, rfl⟩
abbrev main_c_29 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_30 : Ref sig .tc := ⟨.hbm, 239, rfl⟩
abbrev main_v186 : Ref sig .tc := ⟨.hbm, 240, rfl⟩
abbrev main_c_31 : Ref sig .tc := ⟨.hbm, 241, rfl⟩
abbrev main_v187 : Ref sig .tc := ⟨.hbm, 242, rfl⟩
abbrev main_v188 : Ref sig .tc := ⟨.hbm, 243, rfl⟩
abbrev main_c_32 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_33 : Ref sig .tc := ⟨.hbm, 260, rfl⟩
abbrev main_call3_cst : Ref sig .tc := ⟨.hbm, 261, rfl⟩
abbrev main_call3_v0 : Ref sig .tc := ⟨.hbm, 262, rfl⟩
abbrev main_call3_v1 : Ref sig .tc := ⟨.hbm, 263, rfl⟩
abbrev main_call3_v2 : Ref sig .tc := ⟨.hbm, 264, rfl⟩
abbrev main_call3_v3 : Ref sig .tc := ⟨.hbm, 265, rfl⟩
abbrev main_call3_v4 : Ref sig .tc := ⟨.hbm, 266, rfl⟩
abbrev main_v204 : Ref sig .tc := ⟨.hbm, 267, rfl⟩
abbrev main_v205 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x128_d1 : Shape.Concatenates [S100000x64, S100000x64] S100000x128 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its computed result named.

  Every weakly fair execution of the program ends, nothing faulting, with the result buffer holding what the last
  host stretch leaves there — the fold of the host stretches and the six regions' write-backs from the launch
  memory, read at the result buffer — and with the seven argument arrays as launched. The run is the launch of the
  program's fifteen segments; only the last step differs from the frame's: the final thread state holds every
  unscoped buffer at the fold's contents, and here the result buffer is read off it beside the arguments.
-/
import proofs.«174210_j74363063763024_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the fold's contents, the arguments as launched. -/
theorem run_out : θ_run defs (onTc (τ := τ) (main (F := F))) ⟨m, fun _ => 0, ρ⟩ (fun r => ∀ c : Dev nD,
      r.2.mem ((c.tc : Thread nD τ).loc main_v157) = W15 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v157 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.KRun

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.Spec.lean ====
/-
  The two dense stages of one message-passing layer, as whole-array functions on extended reals, over any number of rows.

  An edge's message is its normalisation coefficient times the sum of two affine maps: one of the source row, one of
  the entrywise product of the source and target rows,
      msg[e, c] = nrm[e] * ((Σₖ xj[e,k] * w1[k,c] + b1[c]) + (Σₖ (xj[e,k] * xi[e,k]) * w2[k,c] + b2[c])).
  A node's update adds an affine map of its own row to its aggregated messages and applies the leaky rectifier,
      upd[n, c] = leaky (agg[n,c] + (Σₖ x[n,k] * w1[k,c] + b1[c])),   leaky y = y for y > 0, slope * y otherwise.
  The coefficient arrives as a one-column matrix and each bias as a one-row matrix. The zero and the slope are kept
  as the 32-bit words the programs write; the rectifier's two spellings of its test, y > 0 and y ≥ 0, agree
  because slope * 0 = 0.
-/
import proofs.«174210_j74363063763024_1_alg».proof.Proof.LibDenseSpec
import Idealize.ShloMosaic.PureOps.Ideal.Laws
import Idealize.ShloMosaic.Lib.ValueIdx

noncomputable section

namespace Cert.EdgeConv

open Idealize.ShloMosaic Idealize.ShloMosaic.ValueIdx Cert.Gcn

variable {R : ℕ}

/-- The rectifier's zero, as the word both programs write. -/
abbrev zeroW : EReal := Ideal.ofBits .f32 0x00000000#32
/-- The rectifier's slope, as the word both programs write (the single-precision value nearest 0.01). -/
abbrev slopeW : EReal := Ideal.ofBits .f32 0x3C23D70A#32

/-- The leaky rectifier with the strict test. -/
def leaky (y : EReal) : EReal := Scalar.select (Ideal.cmp .ogt y zeroW) y (slopeW * y)

/-- The rectifier with the non-strict test is the same function: at zero both give zero. -/
theorem leaky_ge (y : EReal) : Scalar.select (Ideal.cmp .oge y zeroW) y (slopeW * y) = leaky y := by
  have hz : zeroW = 0 := Ideal.ofBits_zero_f32
  unfold leaky
  rw [hz]
  by_cases h : (0 : EReal) < y
  · have h1 : Ideal.cmp .ogt y 0 = 1#1 := by simp [Ideal.cmp, h]
    have h2 : Ideal.cmp .oge y 0 = 1#1 := by simp [Ideal.cmp, le_of_lt h]
    rw [h1, h2]
  · by_cases h0 : y = 0
    · subst h0
      have h1 : Ideal.cmp .ogt (0 : EReal) 0 = 0#1 := by simp [Ideal.cmp]
      have h2 : Ideal.cmp .oge (0 : EReal) 0 = 1#1 := by simp [Ideal.cmp]
      rw [h1, h2, select_one, select_zero, mul_zero]
    · have hle : ¬ (0 : EReal) ≤ y := fun hle => h (lt_of_le_of_ne hle (Ne.symm h0))
      have h1 : Ideal.cmp .ogt y 0 = 0#1 := by simp [Ideal.cmp, h]
      have h2 : Ideal.cmp .oge y 0 = 0#1 := by simp [Ideal.cmp, hle]
      rw [h1, h2]

/-- The entrywise product of two matrices. -/
def had (a b : FVec Ideal ⟨2, ![R, 64]⟩ .f32) : FVec Ideal ⟨2, ![R, 64]⟩ .f32 := fun j => a j * b j

/-- The messages of `R` edges. -/
def msg (xj xi : FVec Ideal ⟨2, ![R, 64]⟩ .f32) (nrm : FVec Ideal ⟨2, ![R, 1]⟩ .f32)
    (w1 : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) : FVec Ideal ⟨2, ![R, 64]⟩ .f32 :=
  fun i => nrm (ix2 (i 0) (0 : Fin 1))
    * ((linear xj w1 i + b1 (ix2 (0 : Fin 1) (i 1))) + (linear (had xj xi) w2 i + b2 (ix2 (0 : Fin 1) (i 1))))

/-- The update of `R` nodes. -/
def upd (agg x : FVec Ideal ⟨2, ![R, 64]⟩ .f32) (w1 : FVec Ideal ⟨2, ![64, 64]⟩ .f32) (b1 : FVec Ideal ⟨2, ![1, 64]⟩ .f32) :
    FVec Ideal ⟨2, ![R, 64]⟩ .f32 :=
  fun i => leaky (agg i + (linear x w1 i + b1 (ix2 (0 : Fin 1) (i 1))))

theorem msg_ix2 (xj xi : FVec Ideal ⟨2, ![R, 64]⟩ .f32) (nrm : FVec Ideal ⟨2, ![R, 1]⟩ .f32)
    (w1 : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32) (r : Fin R) (c : Fin 64) :
    msg xj xi nrm w1 b1 w2 b2 (ix2 r c)
      = nrm (ix2 r (0 : Fin 1))
        * ((linear xj w1 (ix2 r c) + b1 (ix2 (0 : Fin 1) c)) + (linear (had xj xi) w2 (ix2 r c) + b2 (ix2 (0 : Fin 1) c))) := rfl

theorem upd_ix2 (agg x : FVec Ideal ⟨2, ![R, 64]⟩ .f32) (w1 : FVec Ideal ⟨2, ![64, 64]⟩ .f32) (b1 : FVec Ideal ⟨2, ![1, 64]⟩ .f32)
    (r : Fin R) (c : Fin 64) :
    upd agg x w1 b1 (ix2 r c) = leaky (agg (ix2 r c) + (linear x w1 (ix2 r c) + b1 (ix2 (0 : Fin 1) c))) := rfl

end Cert.EdgeConv

end
-- ==== Proof.KSpec.lean ====
/-
  The kernel program's value, as named stage functions of the argument arrays, at the ideal values, in the program's
  own spelling of its host operations.

  Edge ids: row 0 of the id table holds each edge's source, row 1 its target; an id is wrapped (a negative id has the
  node count added) and made a one-column matrix before it indexes a gather or a scatter. The normalisation
  coefficient of an edge is d[source] * d[target] * weight, with d = 1 / sqrt (max deg 1) where the in-degree is positive
  and 0 elsewhere. A layer gathers the source and target rows of the node features, forms the messages (the
  specification's `msg`, which the first kernel of the layer computes), adds each message into its target's row, and
  updates every node (the specification's `upd`, the second kernel). The weight matrices reach the kernels transposed
  once for all layers, then sliced per layer; a bias row is sliced and re-cast to one row. The result is the input
  features and the third layer's features side by side.
-/
import proofs.«174210_j74363063763024_1_alg».proof.KernelIdeal
import proofs.«174210_j74363063763024_1_alg».proof.Proof.Spec

noncomputable section

namespace Cert.KernelIdeal.KSpec

open Idealize.ShloMosaic Cert.KernelIdeal
variable [Facts]
open Facts₀ Facts

/-- The edges' source ids. -/
def frm (a0 : IVec S2x1600000 32) : IVec S1600000 32 :=
  shapeCast S1600000 (extractStridedSlice S1x1600000 ![0, 0] a0 slices_S2x1600000_S1x1600000_0_0) shapeCasts_S1x1600000_S1600000
/-- The edges' target ids. -/
def dst (a0 : IVec S2x1600000 32) : IVec S1600000 32 :=
  shapeCast S1600000 (extractStridedSlice S1x1600000 ![1, 0] a0 slices_S2x1600000_S1x1600000_1_0) shapeCasts_S1x1600000_S1600000
/-- An id vector wrapped and made a column. -/
def col (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The in-degree of every node: ones added at the targets. -/
def deg (a0 : IVec S2x1600000 32) : FVec Ideal S100000 .f32 :=
  Host.scatterAdd scatter_S100000_S1600000x1_S1600000_n_0_0_1
    (broadcastInDim S100000 ![] bcast_S_S100000 (constant (F := Ideal) S_ .f32 0x00000000#32)) (col (dst a0))
    (broadcastInDim S1600000 ![] bcast_S_S1600000 (constant (F := Ideal) S_ .f32 0x3F800000#32))
/-- 1 / sqrt (max deg 1) where the degree is positive, 0 elsewhere. -/
def dis (a0 : IVec S2x1600000 32) : FVec Ideal S100000 .f32 :=
  select (cmpf (F := Ideal) .ogt (deg a0) (broadcastInDim S100000 ![] bcast_S_S100000 (constant (F := Ideal) S_ .f32 0x00000000#32)))
    (Host.divf (F := Ideal) (broadcastInDim S100000 ![] bcast_S_S100000 (constant (F := Ideal) S_ .f32 0x3F800000#32))
      (Host.sqrt (F := Ideal) (maximumf (F := Ideal) (deg a0) (broadcastInDim S100000 ![] bcast_S_S100000 (constant (F := Ideal) S_ .f32 0x3F800000#32)))))
    (broadcastInDim S100000 ![] bcast_S_S100000 (id (constant (F := Ideal) S_ .f32 0x00000000#32)))
/-- The edges' normalisation coefficients. -/
def nrm (a0 : IVec S2x1600000 32) (a1 : FVec Ideal S1600000 .f32) : FVec Ideal S1600000 .f32 :=
  mulf (F := Ideal) (mulf (F := Ideal) (Host.gather gather_S100000_S1600000x1_S1600000_n_0_n_n_0_1_1 (dis a0) (col (frm a0)))
    (Host.gather gather_S100000_S1600000x1_S1600000_n_0_n_n_0_1_1 (dis a0) (col (dst a0)))) a1
/-- The rows of a node matrix at the edges' ids. -/
def gat (x : FVec Ideal S100000x64 .f32) (v : IVec S1600000 32) : FVec Ideal S1600000x64 .f32 :=
  Host.gather gather_S100000x64_S1600000x1_S1600000x64_1_0_n_n_0_1_164 x (col v)
/-- Every edge row added into the row of its id, from zeros. -/
def sct (u : FVec Ideal S1600000x64 .f32) (v : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (col v) u

/-- A weight stack with each of its three matrices transposed. -/
def trW (W : FVec Ideal S3x64x64 .f32) : FVec Ideal S3x64x64 .f32 :=
  transpose S3x64x64 [0, 2, 1] W transposes_S3x64x64_S3x64x64_0_2_1

/-- The coefficients as a one-column matrix. -/
def nrmCol (a0 : IVec S2x1600000 32) (a1 : FVec Ideal S1600000 .f32) : FVec Ideal S1600000x1 .f32 :=
  shapeCast S1600000x1 (nrm a0 a1) shapeCasts_S1600000_S1600000x1

/-- Layer 0's slice of a weight stack whose matrices were transposed. -/
def wT0 (W : FVec Ideal S3x64x64 .f32) : FVec Ideal S64x64 .f32 :=
  shapeCast S64x64 (extractStridedSlice S1x64x64 ![0, 0, 0] (trW W) slices_S3x64x64_S1x64x64_0_0_0) shapeCasts_S1x64x64_S64x64
/-- Layer 0's bias, as one row. -/
def bRow0 (b : FVec Ideal S3x64 .f32) : FVec Ideal S1x64 .f32 :=
  shapeCast S1x64 (shapeCast S64 (extractStridedSlice S1x64 ![0, 0] b slices_S3x64_S1x64_0_0) shapeCasts_S1x64_S64) shapeCasts_S64_S1x64
/-- Layer 0: the messages along the edges, added into their targets, then the node update. -/
def layer0 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  Cert.EdgeConv.upd (R := 100000)
    (sct (Cert.EdgeConv.msg (R := 1600000) (gat x (frm a0)) (gat x (dst a0)) (nrmCol a0 a1) (wT0 a3) (bRow0 a4) (wT0 a5) (bRow0 a6)) (dst a0))
    x (wT0 a3) (bRow0 a4)

/-- Layer 1's slice of a weight stack whose matrices were transposed. -/
def wT1 (W : FVec Ideal S3x64x64 .f32) : FVec Ideal S64x64 .f32 :=
  shapeCast S64x64 (extractStridedSlice S1x64x64 ![1, 0, 0] (trW W) slices_S3x64x64_S1x64x64_1_0_0) shapeCasts_S1x64x64_S64x64
/-- Layer 1's bias, as one row. -/
def bRow1 (b : FVec Ideal S3x64 .f32) : FVec Ideal S1x64 .f32 :=
  shapeCast S1x64 (shapeCast S64 (extractStridedSlice S1x64 ![1, 0] b slices_S3x64_S1x64_1_0) shapeCasts_S1x64_S64) shapeCasts_S64_S1x64
/-- Layer 1: the messages along the edges, added into their targets, then the node update. -/
def layer1 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  Cert.EdgeConv.upd (R := 100000)
    (sct (Cert.EdgeConv.msg (R := 1600000) (gat x (frm a0)) (gat x (dst a0)) (nrmCol a0 a1) (wT1 a3) (bRow1 a4) (wT1 a5) (bRow1 a6)) (dst a0))
    x (wT1 a3) (bRow1 a4)

/-- Layer 2's slice of a weight stack whose matrices were transposed. -/
def wT2 (W : FVec Ideal S3x64x64 .f32) : FVec Ideal S64x64 .f32 :=
  shapeCast S64x64 (extractStridedSlice S1x64x64 ![2, 0, 0] (trW W) slices_S3x64x64_S1x64x64_2_0_0) shapeCasts_S1x64x64_S64x64
/-- Layer 2's bias, as one row. -/
def bRow2 (b : FVec Ideal S3x64 .f32) : FVec Ideal S1x64 .f32 :=
  shapeCast S1x64 (shapeCast S64 (extractStridedSlice S1x64 ![2, 0] b slices_S3x64_S1x64_2_0) shapeCasts_S1x64_S64) shapeCasts_S64_S1x64
/-- Layer 2: the messages along the edges, added into their targets, then the node update. -/
def layer2 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  Cert.EdgeConv.upd (R := 100000)
    (sct (Cert.EdgeConv.msg (R := 1600000) (gat x (frm a0)) (gat x (dst a0)) (nrmCol a0 a1) (wT2 a3) (bRow2 a4) (wT2 a5) (bRow2 a6)) (dst a0))
    x (wT2 a3) (bRow2 a4)

/-- The program's second result: the input features and the third layer's, side by side. -/
def out (a0 : IVec S2x1600000 32) (a1 : FVec Ideal S1600000 .f32) (a2 : FVec Ideal S100000x64 .f32) (a3 : FVec Ideal S3x64x64 .f32)
    (a4 : FVec Ideal S3x64 .f32) (a5 : FVec Ideal S3x64x64 .f32) (a6 : FVec Ideal S3x64 .f32) : FVec Ideal S100000x128 .f32 :=
  concatenate S100000x128 1 [⟨S100000x64, a2⟩, ⟨S100000x64, layer2 (layer1 (layer0 a2 a0 a1 a3 a4 a5 a6) a0 a1 a3 a4 a5 a6) a0 a1 a3 a4 a5 a6⟩]
    concatenates_S100000x64_S100000x64_S100000x128_d1

end Cert.KernelIdeal.KSpec

end
-- ==== Proof.KPrefix.lean ====
/-
  The kernel program's buffers when its first region is entered, as stage functions of the launch arrays.

  Three host stretches come before the first region. The first slices the id table into the source and target ids
  and counts every node's in-degree; the second (the outlined select) sets d = 1 / sqrt (max deg 1) where the degree
  is positive and 0 elsewhere; the third forms the edges' coefficients d[source] * d[target] * weight as a column,
  transposes the two weight stacks, gathers the source and target rows of the input features and slices the first
  layer's weights and biases. Each stretch is read from an arbitrary entry valuation, one buffer at a time, and the
  reads are then composed from the launch memory.
-/
import proofs.«174210_j74363063763024_1_alg».proof.Proof.Gen.KernelIdeal.Frame
import proofs.«174210_j74363063763024_1_alg».proof.Proof.KSpec
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

/-! ## The first stretch, from any entry contents -/

theorem s0_v1 (V : Valuation τ sig (Elt Ideal)) : after hostOps0 V (Proc.devRef .tc main_v1) = KSpec.frm (V (Proc.devRef .tc main_arg0)) := by
  dsimp only [hostOps0]
  after_results_simp
  try rfl

theorem s0_v3 (V : Valuation τ sig (Elt Ideal)) : after hostOps0 V (Proc.devRef .tc main_v3) = KSpec.dst (V (Proc.devRef .tc main_arg0)) := by
  dsimp only [hostOps0]
  after_results_simp
  try rfl

theorem s0_v14 (V : Valuation τ sig (Elt Ideal)) : after hostOps0 V (Proc.devRef .tc main_v14) = cmpf (F := Ideal) .ogt (KSpec.deg (V (Proc.devRef .tc main_arg0))) (broadcastInDim S100000 ![] bcast_S_S100000 (constant (F := Ideal) S_ .f32 0x00000000#32)) := by
  dsimp only [hostOps0]
  after_results_simp
  try rfl

theorem s0_v19 (V : Valuation τ sig (Elt Ideal)) : after hostOps0 V (Proc.devRef .tc main_v19) = Host.divf (F := Ideal) (broadcastInDim S100000 ![] bcast_S_S100000 (constant (F := Ideal) S_ .f32 0x3F800000#32)) (Host.sqrt (F := Ideal) (maximumf (F := Ideal) (KSpec.deg (V (Proc.devRef .tc main_arg0))) (broadcastInDim S100000 ![] bcast_S_S100000 (constant (F := Ideal) S_ .f32 0x3F800000#32)))) := by
  dsimp only [hostOps0]
  after_results_simp
  try rfl

theorem s0_cst_5 (V : Valuation τ sig (Elt Ideal)) : after hostOps0 V (Proc.devRef .tc main_cst_5) = constant (F := Ideal) S_ .f32 0x00000000#32 := by
  dsimp only [hostOps0]
  after_results_simp
  try rfl

theorem s0_arg1 (V : Valuation τ sig (Elt Ideal)) : after hostOps0 V (Proc.devRef .tc main_arg1) = V (Proc.devRef .tc main_arg1) := by
  dsimp only [hostOps0]
  after_results_simp

theorem s0_arg2 (V : Valuation τ sig (Elt Ideal)) : after hostOps0 V (Proc.devRef .tc main_arg2) = V (Proc.devRef .tc main_arg2) := by
  dsimp only [hostOps0]
  after_results_simp

theorem s0_arg3 (V : Valuation τ sig (Elt Ideal)) : after hostOps0 V (Proc.devRef .tc main_arg3) = V (Proc.devRef .tc main_arg3) := by
  dsimp only [hostOps0]
  after_results_simp

theorem s0_arg4 (V : Valuation τ sig (Elt Ideal)) : after hostOps0 V (Proc.devRef .tc main_arg4) = V (Proc.devRef .tc main_arg4) := by
  dsimp only [hostOps0]
  after_results_simp

theorem s0_arg5 (V : Valuation τ sig (Elt Ideal)) : after hostOps0 V (Proc.devRef .tc main_arg5) = V (Proc.devRef .tc main_arg5) := by
  dsimp only [hostOps0]
  after_results_simp

theorem s0_arg6 (V : Valuation τ sig (Elt Ideal)) : after hostOps0 V (Proc.devRef .tc main_arg6) = V (Proc.devRef .tc main_arg6) := by
  dsimp only [hostOps0]
  after_results_simp

/-! ## The outlined select, from any entry contents -/

set_option maxRecDepth 200000 in
theorem s1_v20 (V : Valuation τ sig (Elt Ideal)) : after hostOps0_1 V (Proc.devRef .tc main_v20)
    = select (V (Proc.devRef .tc main_v14) : IVec S100000 1) (V (Proc.devRef .tc main_v19) : FVec Ideal S100000 .f32)
        (broadcastInDim S100000 ![] bcast_S_S100000 (id (V (Proc.devRef .tc main_cst_5) : FVec Ideal S_ .f32))) := by
  dsimp only [hostOps0_1]
  after_results_simp
  try rfl

theorem s1_v1 (V : Valuation τ sig (Elt Ideal)) : after hostOps0_1 V (Proc.devRef .tc main_v1) = V (Proc.devRef .tc main_v1) := by
  dsimp only [hostOps0_1]
  after_results_simp

theorem s1_v3 (V : Valuation τ sig (Elt Ideal)) : after hostOps0_1 V (Proc.devRef .tc main_v3) = V (Proc.devRef .tc main_v3) := by
  dsimp only [hostOps0_1]
  after_results_simp

theorem s1_arg1 (V : Valuation τ sig (Elt Ideal)) : after hostOps0_1 V (Proc.devRef .tc main_arg1) = V (Proc.devRef .tc main_arg1) := by
  dsimp only [hostOps0_1]
  after_results_simp

theorem s1_arg2 (V : Valuation τ sig (Elt Ideal)) : after hostOps0_1 V (Proc.devRef .tc main_arg2) = V (Proc.devRef .tc main_arg2) := by
  dsimp only [hostOps0_1]
  after_results_simp

theorem s1_arg3 (V : Valuation τ sig (Elt Ideal)) : after hostOps0_1 V (Proc.devRef .tc main_arg3) = V (Proc.devRef .tc main_arg3) := by
  dsimp only [hostOps0_1]
  after_results_simp

theorem s1_arg4 (V : Valuation τ sig (Elt Ideal)) : after hostOps0_1 V (Proc.devRef .tc main_arg4) = V (Proc.devRef .tc main_arg4) := by
  dsimp only [hostOps0_1]
  after_results_simp

theorem s1_arg5 (V : Valuation τ sig (Elt Ideal)) : after hostOps0_1 V (Proc.devRef .tc main_arg5) = V (Proc.devRef .tc main_arg5) := by
  dsimp only [hostOps0_1]
  after_results_simp

theorem s1_arg6 (V : Valuation τ sig (Elt Ideal)) : after hostOps0_1 V (Proc.devRef .tc main_arg6) = V (Proc.devRef .tc main_arg6) := by
  dsimp only [hostOps0_1]
  after_results_simp

/-! ## The third stretch, from any entry contents -/

/-- The coefficient column from the degree factors, the two id vectors and the edge weights. -/
def coefOf (d : FVec Ideal S100000 .f32) (f t : IVec S1600000 32) (w : FVec Ideal S1600000 .f32) : FVec Ideal S1600000x1 .f32 :=
  shapeCast S1600000x1 (mulf (F := Ideal) (mulf (F := Ideal) (Host.gather gather_S100000_S1600000x1_S1600000_n_0_n_n_0_1_1 d (KSpec.col f)) (Host.gather gather_S100000_S1600000x1_S1600000_n_0_n_n_0_1_1 d (KSpec.col t))) w)
    shapeCasts_S1600000_S1600000x1

theorem s2_v37 (V : Valuation τ sig (Elt Ideal)) : after hostOps0_2 V (Proc.devRef .tc main_v37)
    = coefOf (V (Proc.devRef .tc main_v20)) (V (Proc.devRef .tc main_v1)) (V (Proc.devRef .tc main_v3)) (V (Proc.devRef .tc main_arg1)) := by
  dsimp only [hostOps0_2]
  after_results_simp
  try rfl

theorem s2_v38 (V : Valuation τ sig (Elt Ideal)) : after hostOps0_2 V (Proc.devRef .tc main_v38) = KSpec.trW (V (Proc.devRef .tc main_arg3)) := by
  dsimp only [hostOps0_2]
  after_results_simp
  try rfl

theorem s2_v39 (V : Valuation τ sig (Elt Ideal)) : after hostOps0_2 V (Proc.devRef .tc main_v39) = KSpec.trW (V (Proc.devRef .tc main_arg5)) := by
  dsimp only [hostOps0_2]
  after_results_simp
  try rfl

theorem s2_v46 (V : Valuation τ sig (Elt Ideal)) : after hostOps0_2 V (Proc.devRef .tc main_v46) = KSpec.gat (V (Proc.devRef .tc main_arg2)) (V (Proc.devRef .tc main_v1)) := by
  dsimp only [hostOps0_2]
  after_results_simp
  try rfl

theorem s2_v53 (V : Valuation τ sig (Elt Ideal)) : after hostOps0_2 V (Proc.devRef .tc main_v53) = KSpec.gat (V (Proc.devRef .tc main_arg2)) (V (Proc.devRef .tc main_v3)) := by
  dsimp only [hostOps0_2]
  after_results_simp
  try rfl

theorem s2_v55 (V : Valuation τ sig (Elt Ideal)) : after hostOps0_2 V (Proc.devRef .tc main_v55) = KSpec.wT0 (V (Proc.devRef .tc main_arg3)) := by
  dsimp only [hostOps0_2]
  after_results_simp
  try rfl

theorem s2_v62 (V : Valuation τ sig (Elt Ideal)) : after hostOps0_2 V (Proc.devRef .tc main_v62) = KSpec.bRow0 (V (Proc.devRef .tc main_arg4)) := by
  dsimp only [hostOps0_2]
  after_results_simp
  try rfl

theorem s2_v59 (V : Valuation τ sig (Elt Ideal)) : after hostOps0_2 V (Proc.devRef .tc main_v59) = KSpec.wT0 (V (Proc.devRef .tc main_arg5)) := by
  dsimp only [hostOps0_2]
  after_results_simp
  try rfl

theorem s2_v63 (V : Valuation τ sig (Elt Ideal)) : after hostOps0_2 V (Proc.devRef .tc main_v63) = KSpec.bRow0 (V (Proc.devRef .tc main_arg6)) := by
  dsimp only [hostOps0_2]
  after_results_simp
  try rfl

theorem s2_v1 (V : Valuation τ sig (Elt Ideal)) : after hostOps0_2 V (Proc.devRef .tc main_v1) = V (Proc.devRef .tc main_v1) := by
  dsimp only [hostOps0_2]
  after_results_simp

theorem s2_v3 (V : Valuation τ sig (Elt Ideal)) : after hostOps0_2 V (Proc.devRef .tc main_v3) = V (Proc.devRef .tc main_v3) := by
  dsimp only [hostOps0_2]
  after_results_simp

theorem s2_arg2 (V : Valuation τ sig (Elt Ideal)) : after hostOps0_2 V (Proc.devRef .tc main_arg2) = V (Proc.devRef .tc main_arg2) := by
  dsimp only [hostOps0_2]
  after_results_simp

theorem s2_arg4 (V : Valuation τ sig (Elt Ideal)) : after hostOps0_2 V (Proc.devRef .tc main_arg4) = V (Proc.devRef .tc main_arg4) := by
  dsimp only [hostOps0_2]
  after_results_simp

theorem s2_arg6 (V : Valuation τ sig (Elt Ideal)) : after hostOps0_2 V (Proc.devRef .tc main_arg6) = V (Proc.devRef .tc main_arg6) := by
  dsimp only [hostOps0_2]
  after_results_simp

/-! ## Composed from the launch memory -/

variable (m : (ℓ : Loc nD τ sig) → Buf (Elt Ideal) ℓ) (ρ : Dev nD → PrngReg) (c : Dev nD)

theorem W0_arg (b : Ref sig .tc) : W0 m ρ c (Proc.devRef .tc b) = m ((c : Thread nD τ).loc b) := rfl

theorem W1_v1 : W1 m ρ c (Proc.devRef .tc main_v1) = KSpec.frm (m ((c : Thread nD τ).loc main_arg0)) := s0_v1 (W0 m ρ c)

theorem W1_v3 : W1 m ρ c (Proc.devRef .tc main_v3) = KSpec.dst (m ((c : Thread nD τ).loc main_arg0)) := s0_v3 (W0 m ρ c)

theorem W1_v14 : W1 m ρ c (Proc.devRef .tc main_v14) = cmpf (F := Ideal) .ogt (KSpec.deg (m ((c : Thread nD τ).loc main_arg0))) (broadcastInDim S100000 ![] bcast_S_S100000 (constant (F := Ideal) S_ .f32 0x00000000#32)) := s0_v14 (W0 m ρ c)

theorem W1_v19 : W1 m ρ c (Proc.devRef .tc main_v19) = Host.divf (F := Ideal) (broadcastInDim S100000 ![] bcast_S_S100000 (constant (F := Ideal) S_ .f32 0x3F800000#32)) (Host.sqrt (F := Ideal) (maximumf (F := Ideal) (KSpec.deg (m ((c : Thread nD τ).loc main_arg0))) (broadcastInDim S100000 ![] bcast_S_S100000 (constant (F := Ideal) S_ .f32 0x3F800000#32)))) := s0_v19 (W0 m ρ c)

theorem W1_cst_5 : W1 m ρ c (Proc.devRef .tc main_cst_5) = constant (F := Ideal) S_ .f32 0x00000000#32 := s0_cst_5 (W0 m ρ c)

theorem W1_arg1 : W1 m ρ c (Proc.devRef .tc main_arg1) = (m ((c : Thread nD τ).loc main_arg1)) := s0_arg1 (W0 m ρ c)

theorem W1_arg2 : W1 m ρ c (Proc.devRef .tc main_arg2) = (m ((c : Thread nD τ).loc main_arg2)) := s0_arg2 (W0 m ρ c)

theorem W1_arg3 : W1 m ρ c (Proc.devRef .tc main_arg3) = (m ((c : Thread nD τ).loc main_arg3)) := s0_arg3 (W0 m ρ c)

theorem W1_arg4 : W1 m ρ c (Proc.devRef .tc main_arg4) = (m ((c : Thread nD τ).loc main_arg4)) := s0_arg4 (W0 m ρ c)

theorem W1_arg5 : W1 m ρ c (Proc.devRef .tc main_arg5) = (m ((c : Thread nD τ).loc main_arg5)) := s0_arg5 (W0 m ρ c)

theorem W1_arg6 : W1 m ρ c (Proc.devRef .tc main_arg6) = (m ((c : Thread nD τ).loc main_arg6)) := s0_arg6 (W0 m ρ c)

theorem W2_v20 : W2 m ρ c (Proc.devRef .tc main_v20) = KSpec.dis (m ((c : Thread nD τ).loc main_arg0)) := by
  refine (s1_v20 (W1 m ρ c)).trans ?_
  rw [W1_v14, W1_v19, W1_cst_5]
  rfl

theorem W2_v1 : W2 m ρ c (Proc.devRef .tc main_v1) = KSpec.frm (m ((c : Thread nD τ).loc main_arg0)) := (s1_v1 (W1 m ρ c)).trans (W1_v1 m ρ c)

theorem W2_v3 : W2 m ρ c (Proc.devRef .tc main_v3) = KSpec.dst (m ((c : Thread nD τ).loc main_arg0)) := (s1_v3 (W1 m ρ c)).trans (W1_v3 m ρ c)

theorem W2_arg1 : W2 m ρ c (Proc.devRef .tc main_arg1) = (m ((c : Thread nD τ).loc main_arg1)) := (s1_arg1 (W1 m ρ c)).trans (W1_arg1 m ρ c)

theorem W2_arg2 : W2 m ρ c (Proc.devRef .tc main_arg2) = (m ((c : Thread nD τ).loc main_arg2)) := (s1_arg2 (W1 m ρ c)).trans (W1_arg2 m ρ c)

theorem W2_arg3 : W2 m ρ c (Proc.devRef .tc main_arg3) = (m ((c : Thread nD τ).loc main_arg3)) := (s1_arg3 (W1 m ρ c)).trans (W1_arg3 m ρ c)

theorem W2_arg4 : W2 m ρ c (Proc.devRef .tc main_arg4) = (m ((c : Thread nD τ).loc main_arg4)) := (s1_arg4 (W1 m ρ c)).trans (W1_arg4 m ρ c)

theorem W2_arg5 : W2 m ρ c (Proc.devRef .tc main_arg5) = (m ((c : Thread nD τ).loc main_arg5)) := (s1_arg5 (W1 m ρ c)).trans (W1_arg5 m ρ c)

theorem W2_arg6 : W2 m ρ c (Proc.devRef .tc main_arg6) = (m ((c : Thread nD τ).loc main_arg6)) := (s1_arg6 (W1 m ρ c)).trans (W1_arg6 m ρ c)

theorem W3_v37 : W3 m ρ c (Proc.devRef .tc main_v37) = KSpec.nrmCol (m ((c : Thread nD τ).loc main_arg0)) (m ((c : Thread nD τ).loc main_arg1)) := by
  refine (s2_v37 (W2 m ρ c)).trans ?_
  rw [W2_v20, W2_v1, W2_v3, W2_arg1]
  rfl

theorem W3_v38 : W3 m ρ c (Proc.devRef .tc main_v38) = KSpec.trW (m ((c : Thread nD τ).loc main_arg3)) := by
  refine (s2_v38 (W2 m ρ c)).trans ?_
  rw [W2_arg3]

theorem W3_v39 : W3 m ρ c (Proc.devRef .tc main_v39) = KSpec.trW (m ((c : Thread nD τ).loc main_arg5)) := by
  refine (s2_v39 (W2 m ρ c)).trans ?_
  rw [W2_arg5]

theorem W3_v46 : W3 m ρ c (Proc.devRef .tc main_v46) = KSpec.gat (m ((c : Thread nD τ).loc main_arg2)) (KSpec.frm (m ((c : Thread nD τ).loc main_arg0))) := by
  refine (s2_v46 (W2 m ρ c)).trans ?_
  rw [W2_arg2, W2_v1]

theorem W3_v53 : W3 m ρ c (Proc.devRef .tc main_v53) = KSpec.gat (m ((c : Thread nD τ).loc main_arg2)) (KSpec.dst (m ((c : Thread nD τ).loc main_arg0))) := by
  refine (s2_v53 (W2 m ρ c)).trans ?_
  rw [W2_arg2, W2_v3]

theorem W3_v55 : W3 m ρ c (Proc.devRef .tc main_v55) = KSpec.wT0 (m ((c : Thread nD τ).loc main_arg3)) := by
  refine (s2_v55 (W2 m ρ c)).trans ?_
  rw [W2_arg3]

theorem W3_v62 : W3 m ρ c (Proc.devRef .tc main_v62) = KSpec.bRow0 (m ((c : Thread nD τ).loc main_arg4)) := by
  refine (s2_v62 (W2 m ρ c)).trans ?_
  rw [W2_arg4]

theorem W3_v59 : W3 m ρ c (Proc.devRef .tc main_v59) = KSpec.wT0 (m ((c : Thread nD τ).loc main_arg5)) := by
  refine (s2_v59 (W2 m ρ c)).trans ?_
  rw [W2_arg5]

theorem W3_v63 : W3 m ρ c (Proc.devRef .tc main_v63) = KSpec.bRow0 (m ((c : Thread nD τ).loc main_arg6)) := by
  refine (s2_v63 (W2 m ρ c)).trans ?_
  rw [W2_arg6]

theorem W3_v1 : W3 m ρ c (Proc.devRef .tc main_v1) = KSpec.frm (m ((c : Thread nD τ).loc main_arg0)) := (s2_v1 (W2 m ρ c)).trans (W2_v1 m ρ c)

theorem W3_v3 : W3 m ρ c (Proc.devRef .tc main_v3) = KSpec.dst (m ((c : Thread nD τ).loc main_arg0)) := (s2_v3 (W2 m ρ c)).trans (W2_v3 m ρ c)

theorem W3_arg2 : W3 m ρ c (Proc.devRef .tc main_arg2) = (m ((c : Thread nD τ).loc main_arg2)) := (s2_arg2 (W2 m ρ c)).trans (W2_arg2 m ρ c)

theorem W3_arg4 : W3 m ρ c (Proc.devRef .tc main_arg4) = (m ((c : Thread nD τ).loc main_arg4)) := (s2_arg4 (W2 m ρ c)).trans (W2_arg4 m ρ c)

theorem W3_arg6 : W3 m ρ c (Proc.devRef .tc main_arg6) = (m ((c : Thread nD τ).loc main_arg6)) := (s2_arg6 (W2 m ρ c)).trans (W2_arg6 m ρ c)

end Cert.KernelIdeal.KChain

end
-- ==== Proof.KChain.lean ====
/-
  The kernel program's result buffer is the stage functions' composition of the launch arrays.

  The program is fifteen segments: host stretches and six kernel regions. Reading the buffers at every boundary:
  the edge ids, the coefficient column, the transposed weight stacks and the arguments the later stretches use are
  written once before the first region and kept by everything after it (no later operation writes them, and a
  region writes only its output array); each layer's first region leaves the edges' messages of the gathered rows,
  the stretch after it adds them into their targets' rows, the second region leaves the updated node features, and
  the next layer gathers from those. The regions' output arrays are taken as the specification's functions of their
  input arrays (the hypotheses `hf0 … hf5`, proved region by region elsewhere). The last stretch sets the input
  features beside the third layer's.
-/
import proofs.«174210_j74363063763024_1_alg».proof.Proof.Gen.KernelIdeal.Frame
import proofs.«174210_j74363063763024_1_alg».proof.Proof.KSpec
import proofs.«174210_j74363063763024_1_alg».proof.Proof.KPrefix
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Idealize.ShloMosaic.Pipeline (Dat)

/-- A region's entry contents, as the generated proof data take them. -/
abbrev Entry := (c : Dev nD) → (b : Ref sig .tc) → Buf (Elt Ideal) ((c : Thread nD τ).loc b)

variable (m : (ℓ : Loc nD τ sig) → Buf (Elt Ideal) ℓ) (ρ : Dev nD → PrngReg) (c : Dev nD)

/-- What every boundary from the first region's entry on keeps: the ids, the coefficient column, the transposed
    weight stacks, and the three arguments still to be read. -/
structure Keeps (W : Valuation τ sig (Elt Ideal)) : Prop where
  v1 : W (Proc.devRef .tc main_v1) = KSpec.frm (m ((c : Thread nD τ).loc main_arg0))
  v3 : W (Proc.devRef .tc main_v3) = KSpec.dst (m ((c : Thread nD τ).loc main_arg0))
  v37 : W (Proc.devRef .tc main_v37) = KSpec.nrmCol (m ((c : Thread nD τ).loc main_arg0)) (m ((c : Thread nD τ).loc main_arg1))
  v38 : W (Proc.devRef .tc main_v38) = KSpec.trW (m ((c : Thread nD τ).loc main_arg3))
  v39 : W (Proc.devRef .tc main_v39) = KSpec.trW (m ((c : Thread nD τ).loc main_arg5))
  arg2 : W (Proc.devRef .tc main_arg2) = (m ((c : Thread nD τ).loc main_arg2))
  arg4 : W (Proc.devRef .tc main_arg4) = (m ((c : Thread nD τ).loc main_arg4))
  arg6 : W (Proc.devRef .tc main_arg6) = (m ((c : Thread nD τ).loc main_arg6))

/-! ## At the first region's entry -/

theorem keeps3 : Keeps m c (W3 m ρ c) :=
  ⟨W3_v1 m ρ c, W3_v3 m ρ c, W3_v37 m ρ c, W3_v38 m ρ c, W3_v39 m ρ c, W3_arg2 m ρ c, W3_arg4 m ρ c, W3_arg6 m ρ c⟩

/-! ## Layer 0 -/

/-- The layer's messages, as its first region leaves them. -/
theorem W4_v64 (hf0 : ∀ (V : Entry) (c : Dev nD), (dat0 (F := Ideal) V c).arrAt 7 cfg0.N = Cert.EdgeConv.msg (R := 1600000) (V c main_v46) (V c main_v53) (V c main_v37) (V c main_v55) (V c main_v62) (V c main_v59) (V c main_v63)) : W4 m ρ c (Proc.devRef .tc main_v64) = Cert.EdgeConv.msg (R := 1600000) (KSpec.gat (m ((c : Thread nD τ).loc main_arg2)) (KSpec.frm (m ((c : Thread nD τ).loc main_arg0)))) (KSpec.gat (m ((c : Thread nD τ).loc main_arg2)) (KSpec.dst (m ((c : Thread nD τ).loc main_arg0)))) (KSpec.nrmCol (m ((c : Thread nD τ).loc main_arg0)) (m ((c : Thread nD τ).loc main_arg1))) (KSpec.wT0 (m ((c : Thread nD τ).loc main_arg3))) (KSpec.bRow0 (m ((c : Thread nD τ).loc main_arg4))) (KSpec.wT0 (m ((c : Thread nD τ).loc main_arg5))) (KSpec.bRow0 (m ((c : Thread nD τ).loc main_arg6))) := by
  refine (W4_arr m ρ c 7).trans ((hf0 (V3 m ρ) c).trans ?_)
  show Cert.EdgeConv.msg (R := 1600000) (W3 m ρ c (Proc.devRef .tc main_v46)) (W3 m ρ c (Proc.devRef .tc main_v53)) (W3 m ρ c (Proc.devRef .tc main_v37)) (W3 m ρ c (Proc.devRef .tc main_v55)) (W3 m ρ c (Proc.devRef .tc main_v62)) (W3 m ρ c (Proc.devRef .tc main_v59)) (W3 m ρ c (Proc.devRef .tc main_v63)) = _
  rw [W3_v46 m ρ c, W3_v53 m ρ c, W3_v37 m ρ c, W3_v55 m ρ c, W3_v62 m ρ c, W3_v59 m ρ c, W3_v63 m ρ c]

theorem keeps4 (h : Keeps m c (W3 m ρ c)) : Keeps m c (W4 m ρ c) :=
  ⟨(W4_of_ne m ρ c main_v1 (by decide)).trans h.v1,
   (W4_of_ne m ρ c main_v3 (by decide)).trans h.v3,
   ((W4_arr m ρ c 2).trans (((dat0 (V3 m ρ) c).arrAt_in 2 rfl _).trans (A_eq0 (V3 m ρ) c 2))).trans h.v37,
   (W4_of_ne m ρ c main_v38 (by decide)).trans h.v38,
   (W4_of_ne m ρ c main_v39 (by decide)).trans h.v39,
   (W4_of_ne m ρ c main_arg2 (by decide)).trans h.arg2,
   (W4_of_ne m ρ c main_arg4 (by decide)).trans h.arg4,
   (W4_of_ne m ρ c main_arg6 (by decide)).trans h.arg6⟩

theorem W5_v72 (h : Keeps m c (W4 m ρ c)) (hmsg : W4 m ρ c (Proc.devRef .tc main_v64) = Cert.EdgeConv.msg (R := 1600000) (KSpec.gat (m ((c : Thread nD τ).loc main_arg2)) (KSpec.frm (m ((c : Thread nD τ).loc main_arg0)))) (KSpec.gat (m ((c : Thread nD τ).loc main_arg2)) (KSpec.dst (m ((c : Thread nD τ).loc main_arg0)))) (KSpec.nrmCol (m ((c : Thread nD τ).loc main_arg0)) (m ((c : Thread nD τ).loc main_arg1))) (KSpec.wT0 (m ((c : Thread nD τ).loc main_arg3))) (KSpec.bRow0 (m ((c : Thread nD τ).loc main_arg4))) (KSpec.wT0 (m ((c : Thread nD τ).loc main_arg5))) (KSpec.bRow0 (m ((c : Thread nD τ).loc main_arg6)))) : W5 m ρ c (Proc.devRef .tc main_v72) = KSpec.sct (Cert.EdgeConv.msg (R := 1600000) (KSpec.gat (m ((c : Thread nD τ).loc main_arg2)) (KSpec.frm (m ((c : Thread nD τ).loc main_arg0)))) (KSpec.gat (m ((c : Thread nD τ).loc main_arg2)) (KSpec.dst (m ((c : Thread nD τ).loc main_arg0)))) (KSpec.nrmCol (m ((c : Thread nD τ).loc main_arg0)) (m ((c : Thread nD τ).loc main_arg1))) (KSpec.wT0 (m ((c : Thread nD τ).loc main_arg3))) (KSpec.bRow0 (m ((c : Thread nD τ).loc main_arg4))) (KSpec.wT0 (m ((c : Thread nD τ).loc main_arg5))) (KSpec.bRow0 (m ((c : Thread nD τ).loc main_arg6)))) (KSpec.dst (m ((c : Thread nD τ).loc main_arg0))) := by
  have e : W5 m ρ c (Proc.devRef .tc main_v72) = KSpec.sct (W4 m ρ c (Proc.devRef .tc main_v64)) (W4 m ρ c (Proc.devRef .tc main_v3)) := by
    dsimp only [W5, hostOps1]
    after_results_simp
    try rfl
  rw [e, hmsg, h.v3]
  try rfl

theorem W5_v74 (h : Keeps m c (W4 m ρ c)) : W5 m ρ c (Proc.devRef .tc main_v74) = KSpec.wT0 (m ((c : Thread nD τ).loc main_arg3)) := by
  have e : W5 m ρ c (Proc.devRef .tc main_v74) = shapeCast S64x64 (extractStridedSlice S1x64x64 ![0, 0, 0] (W4 m ρ c (Proc.devRef .tc main_v38)) slices_S3x64x64_S1x64x64_0_0_0) shapeCasts_S1x64x64_S64x64 := by
    dsimp only [W5, hostOps1]
    after_results_simp
    try rfl
  rw [e, h.v38]
  try rfl

theorem W5_v77 (h : Keeps m c (W4 m ρ c)) : W5 m ρ c (Proc.devRef .tc main_v77) = KSpec.bRow0 (m ((c : Thread nD τ).loc main_arg4)) := by
  have e : W5 m ρ c (Proc.devRef .tc main_v77) = shapeCast S1x64 (shapeCast S64 (extractStridedSlice S1x64 ![0, 0] (W4 m ρ c (Proc.devRef .tc main_arg4)) slices_S3x64_S1x64_0_0) shapeCasts_S1x64_S64) shapeCasts_S64_S1x64 := by
    dsimp only [W5, hostOps1]
    after_results_simp
    try rfl
  rw [e, h.arg4]
  try rfl

theorem keeps5 (h : Keeps m c (W4 m ρ c)) : Keeps m c (W5 m ρ c) :=
  ⟨(show W5 m ρ c (Proc.devRef .tc main_v1) = W4 m ρ c (Proc.devRef .tc main_v1) by dsimp only [W5, hostOps1]; after_results_simp).trans h.v1,
   (show W5 m ρ c (Proc.devRef .tc main_v3) = W4 m ρ c (Proc.devRef .tc main_v3) by dsimp only [W5, hostOps1]; after_results_simp).trans h.v3,
   (show W5 m ρ c (Proc.devRef .tc main_v37) = W4 m ρ c (Proc.devRef .tc main_v37) by dsimp only [W5, hostOps1]; after_results_simp).trans h.v37,
   (show W5 m ρ c (Proc.devRef .tc main_v38) = W4 m ρ c (Proc.devRef .tc main_v38) by dsimp only [W5, hostOps1]; after_results_simp).trans h.v38,
   (show W5 m ρ c (Proc.devRef .tc main_v39) = W4 m ρ c (Proc.devRef .tc main_v39) by dsimp only [W5, hostOps1]; after_results_simp).trans h.v39,
   (show W5 m ρ c (Proc.devRef .tc main_arg2) = W4 m ρ c (Proc.devRef .tc main_arg2) by dsimp only [W5, hostOps1]; after_results_simp).trans h.arg2,
   (show W5 m ρ c (Proc.devRef .tc main_arg4) = W4 m ρ c (Proc.devRef .tc main_arg4) by dsimp only [W5, hostOps1]; after_results_simp).trans h.arg4,
   (show W5 m ρ c (Proc.devRef .tc main_arg6) = W4 m ρ c (Proc.devRef .tc main_arg6) by dsimp only [W5, hostOps1]; after_results_simp).trans h.arg6⟩

/-- The layer's updated node features, as its second region leaves them. -/
theorem W6_v78 (hf1 : ∀ (V : Entry) (c : Dev nD), (dat1 (F := Ideal) V c).arrAt 4 cfg1.N = Cert.EdgeConv.upd (R := 100000) (V c main_v72) (V c main_arg2) (V c main_v74) (V c main_v77)) (h : Keeps m c (W4 m ρ c)) (hmsg : W4 m ρ c (Proc.devRef .tc main_v64) = Cert.EdgeConv.msg (R := 1600000) (KSpec.gat (m ((c : Thread nD τ).loc main_arg2)) (KSpec.frm (m ((c : Thread nD τ).loc main_arg0)))) (KSpec.gat (m ((c : Thread nD τ).loc main_arg2)) (KSpec.dst (m ((c : Thread nD τ).loc main_arg0)))) (KSpec.nrmCol (m ((c : Thread nD τ).loc main_arg0)) (m ((c : Thread nD τ).loc main_arg1))) (KSpec.wT0 (m ((c : Thread nD τ).loc main_arg3))) (KSpec.bRow0 (m ((c : Thread nD τ).loc main_arg4))) (KSpec.wT0 (m ((c : Thread nD τ).loc main_arg5))) (KSpec.bRow0 (m ((c : Thread nD τ).loc main_arg6)))) :
    W6 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W6_arr m ρ c 4).trans ((hf1 (V5 m ρ) c).trans ?_)
  show Cert.EdgeConv.upd (R := 100000) (W5 m ρ c (Proc.devRef .tc main_v72)) (W5 m ρ c (Proc.devRef .tc main_arg2)) (W5 m ρ c (Proc.devRef .tc main_v74)) (W5 m ρ c (Proc.devRef .tc main_v77)) = _
  rw [W5_v72 m ρ c h hmsg, (keeps5 m ρ c h).arg2, W5_v74 m ρ c h, W5_v77 m ρ c h]
  try rfl

theorem keeps6 (h : Keeps m c (W5 m ρ c)) : Keeps m c (W6 m ρ c) :=
  ⟨(W6_of_ne m ρ c main_v1 (by decide)).trans h.v1,
   (W6_of_ne m ρ c main_v3 (by decide)).trans h.v3,
   (W6_of_ne m ρ c main_v37 (by decide)).trans h.v37,
   (W6_of_ne m ρ c main_v38 (by decide)).trans h.v38,
   (W6_of_ne m ρ c main_v39 (by decide)).trans h.v39,
   ((W6_arr m ρ c 1).trans (((dat1 (V5 m ρ) c).arrAt_in 1 rfl _).trans (A_eq1 (V5 m ρ) c 1))).trans h.arg2,
   (W6_of_ne m ρ c main_arg4 (by decide)).trans h.arg4,
   (W6_of_ne m ρ c main_arg6 (by decide)).trans h.arg6⟩

/-! ## Layer 1 -/

/-- The layer's input features, as the previous layer left them. -/
theorem W7_v78 (hx : W6 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W7 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (show W7 m ρ c (Proc.devRef .tc main_v78) = W6 m ρ c (Proc.devRef .tc main_v78) by dsimp only [W7, hostOps2]; after_results_simp).trans hx

theorem W7_v85 (h : Keeps m c (W6 m ρ c)) (hx : W6 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W7 m ρ c (Proc.devRef .tc main_v85) = KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0))) := by
  have e : W7 m ρ c (Proc.devRef .tc main_v85) = KSpec.gat (W6 m ρ c (Proc.devRef .tc main_v78)) (W6 m ρ c (Proc.devRef .tc main_v1)) := by
    dsimp only [W7, hostOps2]
    after_results_simp
    try rfl
  rw [e, hx, h.v1]
  try rfl

theorem W7_v92 (h : Keeps m c (W6 m ρ c)) (hx : W6 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W7 m ρ c (Proc.devRef .tc main_v92) = KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0))) := by
  have e : W7 m ρ c (Proc.devRef .tc main_v92) = KSpec.gat (W6 m ρ c (Proc.devRef .tc main_v78)) (W6 m ρ c (Proc.devRef .tc main_v3)) := by
    dsimp only [W7, hostOps2]
    after_results_simp
    try rfl
  rw [e, hx, h.v3]
  try rfl

theorem W7_v94 (h : Keeps m c (W6 m ρ c)) : W7 m ρ c (Proc.devRef .tc main_v94) = KSpec.wT1 (m ((c : Thread nD τ).loc main_arg3)) := by
  have e : W7 m ρ c (Proc.devRef .tc main_v94) = shapeCast S64x64 (extractStridedSlice S1x64x64 ![1, 0, 0] (W6 m ρ c (Proc.devRef .tc main_v38)) slices_S3x64x64_S1x64x64_1_0_0) shapeCasts_S1x64x64_S64x64 := by
    dsimp only [W7, hostOps2]
    after_results_simp
    try rfl
  rw [e, h.v38]
  try rfl

theorem W7_v101 (h : Keeps m c (W6 m ρ c)) : W7 m ρ c (Proc.devRef .tc main_v101) = KSpec.bRow1 (m ((c : Thread nD τ).loc main_arg4)) := by
  have e : W7 m ρ c (Proc.devRef .tc main_v101) = shapeCast S1x64 (shapeCast S64 (extractStridedSlice S1x64 ![1, 0] (W6 m ρ c (Proc.devRef .tc main_arg4)) slices_S3x64_S1x64_1_0) shapeCasts_S1x64_S64) shapeCasts_S64_S1x64 := by
    dsimp only [W7, hostOps2]
    after_results_simp
    try rfl
  rw [e, h.arg4]
  try rfl

theorem W7_v98 (h : Keeps m c (W6 m ρ c)) : W7 m ρ c (Proc.devRef .tc main_v98) = KSpec.wT1 (m ((c : Thread nD τ).loc main_arg5)) := by
  have e : W7 m ρ c (Proc.devRef .tc main_v98) = shapeCast S64x64 (extractStridedSlice S1x64x64 ![1, 0, 0] (W6 m ρ c (Proc.devRef .tc main_v39)) slices_S3x64x64_S1x64x64_1_0_0) shapeCasts_S1x64x64_S64x64 := by
    dsimp only [W7, hostOps2]
    after_results_simp
    try rfl
  rw [e, h.v39]
  try rfl

theorem W7_v102 (h : Keeps m c (W6 m ρ c)) : W7 m ρ c (Proc.devRef .tc main_v102) = KSpec.bRow1 (m ((c : Thread nD τ).loc main_arg6)) := by
  have e : W7 m ρ c (Proc.devRef .tc main_v102) = shapeCast S1x64 (shapeCast S64 (extractStridedSlice S1x64 ![1, 0] (W6 m ρ c (Proc.devRef .tc main_arg6)) slices_S3x64_S1x64_1_0) shapeCasts_S1x64_S64) shapeCasts_S64_S1x64 := by
    dsimp only [W7, hostOps2]
    after_results_simp
    try rfl
  rw [e, h.arg6]
  try rfl

theorem keeps7 (h : Keeps m c (W6 m ρ c)) : Keeps m c (W7 m ρ c) :=
  ⟨(show W7 m ρ c (Proc.devRef .tc main_v1) = W6 m ρ c (Proc.devRef .tc main_v1) by dsimp only [W7, hostOps2]; after_results_simp).trans h.v1,
   (show W7 m ρ c (Proc.devRef .tc main_v3) = W6 m ρ c (Proc.devRef .tc main_v3) by dsimp only [W7, hostOps2]; after_results_simp).trans h.v3,
   (show W7 m ρ c (Proc.devRef .tc main_v37) = W6 m ρ c (Proc.devRef .tc main_v37) by dsimp only [W7, hostOps2]; after_results_simp).trans h.v37,
   (show W7 m ρ c (Proc.devRef .tc main_v38) = W6 m ρ c (Proc.devRef .tc main_v38) by dsimp only [W7, hostOps2]; after_results_simp).trans h.v38,
   (show W7 m ρ c (Proc.devRef .tc main_v39) = W6 m ρ c (Proc.devRef .tc main_v39) by dsimp only [W7, hostOps2]; after_results_simp).trans h.v39,
   (show W7 m ρ c (Proc.devRef .tc main_arg2) = W6 m ρ c (Proc.devRef .tc main_arg2) by dsimp only [W7, hostOps2]; after_results_simp).trans h.arg2,
   (show W7 m ρ c (Proc.devRef .tc main_arg4) = W6 m ρ c (Proc.devRef .tc main_arg4) by dsimp only [W7, hostOps2]; after_results_simp).trans h.arg4,
   (show W7 m ρ c (Proc.devRef .tc main_arg6) = W6 m ρ c (Proc.devRef .tc main_arg6) by dsimp only [W7, hostOps2]; after_results_simp).trans h.arg6⟩

/-- The layer's messages, as its first region leaves them. -/
theorem W8_v103 (hf2 : ∀ (V : Entry) (c : Dev nD), (dat2 (F := Ideal) V c).arrAt 7 cfg2.N = Cert.EdgeConv.msg (R := 1600000) (V c main_v85) (V c main_v92) (V c main_v37) (V c main_v94) (V c main_v101) (V c main_v98) (V c main_v102)) (h : Keeps m c (W6 m ρ c)) (hx : W6 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W8 m ρ c (Proc.devRef .tc main_v103) = Cert.EdgeConv.msg (R := 1600000) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT1 (m ((c : Thread nD τ).loc main_arg3))) (KSpec.bRow1 (m ((c : Thread nD τ).loc main_arg4))) (KSpec.wT1 (m ((c : Thread nD τ).loc main_arg5))) (KSpec.bRow1 (m ((c : Thread nD τ).loc main_arg6))) := by
  refine (W8_arr m ρ c 7).trans ((hf2 (V7 m ρ) c).trans ?_)
  show Cert.EdgeConv.msg (R := 1600000) (W7 m ρ c (Proc.devRef .tc main_v85)) (W7 m ρ c (Proc.devRef .tc main_v92)) (W7 m ρ c (Proc.devRef .tc main_v37)) (W7 m ρ c (Proc.devRef .tc main_v94)) (W7 m ρ c (Proc.devRef .tc main_v101)) (W7 m ρ c (Proc.devRef .tc main_v98)) (W7 m ρ c (Proc.devRef .tc main_v102)) = _
  rw [W7_v85 m ρ c h hx, W7_v92 m ρ c h hx, (keeps7 m ρ c h).v37, W7_v94 m ρ c h, W7_v101 m ρ c h, W7_v98 m ρ c h, W7_v102 m ρ c h]

theorem keeps8 (h : Keeps m c (W7 m ρ c)) : Keeps m c (W8 m ρ c) :=
  ⟨(W8_of_ne m ρ c main_v1 (by decide)).trans h.v1,
   (W8_of_ne m ρ c main_v3 (by decide)).trans h.v3,
   ((W8_arr m ρ c 2).trans (((dat2 (V7 m ρ) c).arrAt_in 2 rfl _).trans (A_eq2 (V7 m ρ) c 2))).trans h.v37,
   (W8_of_ne m ρ c main_v38 (by decide)).trans h.v38,
   (W8_of_ne m ρ c main_v39 (by decide)).trans h.v39,
   (W8_of_ne m ρ c main_arg2 (by decide)).trans h.arg2,
   (W8_of_ne m ρ c main_arg4 (by decide)).trans h.arg4,
   (W8_of_ne m ρ c main_arg6 (by decide)).trans h.arg6⟩

theorem W8_v78 (hx : W7 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W8 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (W8_of_ne m ρ c main_v78 (by decide)).trans hx

theorem W9_v111 (h : Keeps m c (W8 m ρ c)) (hmsg : W8 m ρ c (Proc.devRef .tc main_v103) = Cert.EdgeConv.msg (R := 1600000) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT1 (m ((c : Thread nD τ).loc main_arg3))) (KSpec.bRow1 (m ((c : Thread nD τ).loc main_arg4))) (KSpec.wT1 (m ((c : Thread nD τ).loc main_arg5))) (KSpec.bRow1 (m ((c : Thread nD τ).loc main_arg6)))) : W9 m ρ c (Proc.devRef .tc main_v111) = KSpec.sct (Cert.EdgeConv.msg (R := 1600000) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT1 (m ((c : Thread nD τ).loc main_arg3))) (KSpec.bRow1 (m ((c : Thread nD τ).loc main_arg4))) (KSpec.wT1 (m ((c : Thread nD τ).loc main_arg5))) (KSpec.bRow1 (m ((c : Thread nD τ).loc main_arg6)))) (KSpec.dst (m ((c : Thread nD τ).loc main_arg0))) := by
  have e : W9 m ρ c (Proc.devRef .tc main_v111) = KSpec.sct (W8 m ρ c (Proc.devRef .tc main_v103)) (W8 m ρ c (Proc.devRef .tc main_v3)) := by
    dsimp only [W9, hostOps3]
    after_results_simp
    try rfl
  rw [e, hmsg, h.v3]
  try rfl

theorem W9_v113 (h : Keeps m c (W8 m ρ c)) : W9 m ρ c (Proc.devRef .tc main_v113) = KSpec.wT1 (m ((c : Thread nD τ).loc main_arg3)) := by
  have e : W9 m ρ c (Proc.devRef .tc main_v113) = shapeCast S64x64 (extractStridedSlice S1x64x64 ![1, 0, 0] (W8 m ρ c (Proc.devRef .tc main_v38)) slices_S3x64x64_S1x64x64_1_0_0) shapeCasts_S1x64x64_S64x64 := by
    dsimp only [W9, hostOps3]
    after_results_simp
    try rfl
  rw [e, h.v38]
  try rfl

theorem W9_v116 (h : Keeps m c (W8 m ρ c)) : W9 m ρ c (Proc.devRef .tc main_v116) = KSpec.bRow1 (m ((c : Thread nD τ).loc main_arg4)) := by
  have e : W9 m ρ c (Proc.devRef .tc main_v116) = shapeCast S1x64 (shapeCast S64 (extractStridedSlice S1x64 ![1, 0] (W8 m ρ c (Proc.devRef .tc main_arg4)) slices_S3x64_S1x64_1_0) shapeCasts_S1x64_S64) shapeCasts_S64_S1x64 := by
    dsimp only [W9, hostOps3]
    after_results_simp
    try rfl
  rw [e, h.arg4]
  try rfl

theorem keeps9 (h : Keeps m c (W8 m ρ c)) : Keeps m c (W9 m ρ c) :=
  ⟨(show W9 m ρ c (Proc.devRef .tc main_v1) = W8 m ρ c (Proc.devRef .tc main_v1) by dsimp only [W9, hostOps3]; after_results_simp).trans h.v1,
   (show W9 m ρ c (Proc.devRef .tc main_v3) = W8 m ρ c (Proc.devRef .tc main_v3) by dsimp only [W9, hostOps3]; after_results_simp).trans h.v3,
   (show W9 m ρ c (Proc.devRef .tc main_v37) = W8 m ρ c (Proc.devRef .tc main_v37) by dsimp only [W9, hostOps3]; after_results_simp).trans h.v37,
   (show W9 m ρ c (Proc.devRef .tc main_v38) = W8 m ρ c (Proc.devRef .tc main_v38) by dsimp only [W9, hostOps3]; after_results_simp).trans h.v38,
   (show W9 m ρ c (Proc.devRef .tc main_v39) = W8 m ρ c (Proc.devRef .tc main_v39) by dsimp only [W9, hostOps3]; after_results_simp).trans h.v39,
   (show W9 m ρ c (Proc.devRef .tc main_arg2) = W8 m ρ c (Proc.devRef .tc main_arg2) by dsimp only [W9, hostOps3]; after_results_simp).trans h.arg2,
   (show W9 m ρ c (Proc.devRef .tc main_arg4) = W8 m ρ c (Proc.devRef .tc main_arg4) by dsimp only [W9, hostOps3]; after_results_simp).trans h.arg4,
   (show W9 m ρ c (Proc.devRef .tc main_arg6) = W8 m ρ c (Proc.devRef .tc main_arg6) by dsimp only [W9, hostOps3]; after_results_simp).trans h.arg6⟩

theorem W9_v78 (hx : W8 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W9 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (show W9 m ρ c (Proc.devRef .tc main_v78) = W8 m ρ c (Proc.devRef .tc main_v78) by dsimp only [W9, hostOps3]; after_results_simp).trans hx

/-- The layer's updated node features, as its second region leaves them. -/
theorem W10_v117 (hf3 : ∀ (V : Entry) (c : Dev nD), (dat3 (F := Ideal) V c).arrAt 4 cfg3.N = Cert.EdgeConv.upd (R := 100000) (V c main_v111) (V c main_v78) (V c main_v113) (V c main_v116)) (h : Keeps m c (W8 m ρ c)) (hmsg : W8 m ρ c (Proc.devRef .tc main_v103) = Cert.EdgeConv.msg (R := 1600000) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT1 (m ((c : Thread nD τ).loc main_arg3))) (KSpec.bRow1 (m ((c : Thread nD τ).loc main_arg4))) (KSpec.wT1 (m ((c : Thread nD τ).loc main_arg5))) (KSpec.bRow1 (m ((c : Thread nD τ).loc main_arg6)))) (hx : W8 m ρ c (Proc.devRef .tc main_v78) = (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) :
    W10 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W10_arr m ρ c 4).trans ((hf3 (V9 m ρ) c).trans ?_)
  show Cert.EdgeConv.upd (R := 100000) (W9 m ρ c (Proc.devRef .tc main_v111)) (W9 m ρ c (Proc.devRef .tc main_v78)) (W9 m ρ c (Proc.devRef .tc main_v113)) (W9 m ρ c (Proc.devRef .tc main_v116)) = _
  rw [W9_v111 m ρ c h hmsg, W9_v78 m ρ c hx, W9_v113 m ρ c h, W9_v116 m ρ c h]
  try rfl

theorem keeps10 (h : Keeps m c (W9 m ρ c)) : Keeps m c (W10 m ρ c) :=
  ⟨(W10_of_ne m ρ c main_v1 (by decide)).trans h.v1,
   (W10_of_ne m ρ c main_v3 (by decide)).trans h.v3,
   (W10_of_ne m ρ c main_v37 (by decide)).trans h.v37,
   (W10_of_ne m ρ c main_v38 (by decide)).trans h.v38,
   (W10_of_ne m ρ c main_v39 (by decide)).trans h.v39,
   (W10_of_ne m ρ c main_arg2 (by decide)).trans h.arg2,
   (W10_of_ne m ρ c main_arg4 (by decide)).trans h.arg4,
   (W10_of_ne m ρ c main_arg6 (by decide)).trans h.arg6⟩

/-! ## Layer 2 -/

/-- The layer's input features, as the previous layer left them. -/
theorem W11_v117 (hx : W10 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W11 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (show W11 m ρ c (Proc.devRef .tc main_v117) = W10 m ρ c (Proc.devRef .tc main_v117) by dsimp only [W11, hostOps4]; after_results_simp).trans hx

theorem W11_v124 (h : Keeps m c (W10 m ρ c)) (hx : W10 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W11 m ρ c (Proc.devRef .tc main_v124) = KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0))) := by
  have e : W11 m ρ c (Proc.devRef .tc main_v124) = KSpec.gat (W10 m ρ c (Proc.devRef .tc main_v117)) (W10 m ρ c (Proc.devRef .tc main_v1)) := by
    dsimp only [W11, hostOps4]
    after_results_simp
    try rfl
  rw [e, hx, h.v1]
  try rfl

theorem W11_v131 (h : Keeps m c (W10 m ρ c)) (hx : W10 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W11 m ρ c (Proc.devRef .tc main_v131) = KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0))) := by
  have e : W11 m ρ c (Proc.devRef .tc main_v131) = KSpec.gat (W10 m ρ c (Proc.devRef .tc main_v117)) (W10 m ρ c (Proc.devRef .tc main_v3)) := by
    dsimp only [W11, hostOps4]
    after_results_simp
    try rfl
  rw [e, hx, h.v3]
  try rfl

theorem W11_v133 (h : Keeps m c (W10 m ρ c)) : W11 m ρ c (Proc.devRef .tc main_v133) = KSpec.wT2 (m ((c : Thread nD τ).loc main_arg3)) := by
  have e : W11 m ρ c (Proc.devRef .tc main_v133) = shapeCast S64x64 (extractStridedSlice S1x64x64 ![2, 0, 0] (W10 m ρ c (Proc.devRef .tc main_v38)) slices_S3x64x64_S1x64x64_2_0_0) shapeCasts_S1x64x64_S64x64 := by
    dsimp only [W11, hostOps4]
    after_results_simp
    try rfl
  rw [e, h.v38]
  try rfl

theorem W11_v140 (h : Keeps m c (W10 m ρ c)) : W11 m ρ c (Proc.devRef .tc main_v140) = KSpec.bRow2 (m ((c : Thread nD τ).loc main_arg4)) := by
  have e : W11 m ρ c (Proc.devRef .tc main_v140) = shapeCast S1x64 (shapeCast S64 (extractStridedSlice S1x64 ![2, 0] (W10 m ρ c (Proc.devRef .tc main_arg4)) slices_S3x64_S1x64_2_0) shapeCasts_S1x64_S64) shapeCasts_S64_S1x64 := by
    dsimp only [W11, hostOps4]
    after_results_simp
    try rfl
  rw [e, h.arg4]
  try rfl

theorem W11_v137 (h : Keeps m c (W10 m ρ c)) : W11 m ρ c (Proc.devRef .tc main_v137) = KSpec.wT2 (m ((c : Thread nD τ).loc main_arg5)) := by
  have e : W11 m ρ c (Proc.devRef .tc main_v137) = shapeCast S64x64 (extractStridedSlice S1x64x64 ![2, 0, 0] (W10 m ρ c (Proc.devRef .tc main_v39)) slices_S3x64x64_S1x64x64_2_0_0) shapeCasts_S1x64x64_S64x64 := by
    dsimp only [W11, hostOps4]
    after_results_simp
    try rfl
  rw [e, h.v39]
  try rfl

theorem W11_v141 (h : Keeps m c (W10 m ρ c)) : W11 m ρ c (Proc.devRef .tc main_v141) = KSpec.bRow2 (m ((c : Thread nD τ).loc main_arg6)) := by
  have e : W11 m ρ c (Proc.devRef .tc main_v141) = shapeCast S1x64 (shapeCast S64 (extractStridedSlice S1x64 ![2, 0] (W10 m ρ c (Proc.devRef .tc main_arg6)) slices_S3x64_S1x64_2_0) shapeCasts_S1x64_S64) shapeCasts_S64_S1x64 := by
    dsimp only [W11, hostOps4]
    after_results_simp
    try rfl
  rw [e, h.arg6]
  try rfl

theorem keeps11 (h : Keeps m c (W10 m ρ c)) : Keeps m c (W11 m ρ c) :=
  ⟨(show W11 m ρ c (Proc.devRef .tc main_v1) = W10 m ρ c (Proc.devRef .tc main_v1) by dsimp only [W11, hostOps4]; after_results_simp).trans h.v1,
   (show W11 m ρ c (Proc.devRef .tc main_v3) = W10 m ρ c (Proc.devRef .tc main_v3) by dsimp only [W11, hostOps4]; after_results_simp).trans h.v3,
   (show W11 m ρ c (Proc.devRef .tc main_v37) = W10 m ρ c (Proc.devRef .tc main_v37) by dsimp only [W11, hostOps4]; after_results_simp).trans h.v37,
   (show W11 m ρ c (Proc.devRef .tc main_v38) = W10 m ρ c (Proc.devRef .tc main_v38) by dsimp only [W11, hostOps4]; after_results_simp).trans h.v38,
   (show W11 m ρ c (Proc.devRef .tc main_v39) = W10 m ρ c (Proc.devRef .tc main_v39) by dsimp only [W11, hostOps4]; after_results_simp).trans h.v39,
   (show W11 m ρ c (Proc.devRef .tc main_arg2) = W10 m ρ c (Proc.devRef .tc main_arg2) by dsimp only [W11, hostOps4]; after_results_simp).trans h.arg2,
   (show W11 m ρ c (Proc.devRef .tc main_arg4) = W10 m ρ c (Proc.devRef .tc main_arg4) by dsimp only [W11, hostOps4]; after_results_simp).trans h.arg4,
   (show W11 m ρ c (Proc.devRef .tc main_arg6) = W10 m ρ c (Proc.devRef .tc main_arg6) by dsimp only [W11, hostOps4]; after_results_simp).trans h.arg6⟩

/-- The layer's messages, as its first region leaves them. -/
theorem W12_v142 (hf4 : ∀ (V : Entry) (c : Dev nD), (dat4 (F := Ideal) V c).arrAt 7 cfg4.N = Cert.EdgeConv.msg (R := 1600000) (V c main_v124) (V c main_v131) (V c main_v37) (V c main_v133) (V c main_v140) (V c main_v137) (V c main_v141)) (h : Keeps m c (W10 m ρ c)) (hx : W10 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W12 m ρ c (Proc.devRef .tc main_v142) = Cert.EdgeConv.msg (R := 1600000) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT2 (m ((c : Thread nD τ).loc main_arg3))) (KSpec.bRow2 (m ((c : Thread nD τ).loc main_arg4))) (KSpec.wT2 (m ((c : Thread nD τ).loc main_arg5))) (KSpec.bRow2 (m ((c : Thread nD τ).loc main_arg6))) := by
  refine (W12_arr m ρ c 7).trans ((hf4 (V11 m ρ) c).trans ?_)
  show Cert.EdgeConv.msg (R := 1600000) (W11 m ρ c (Proc.devRef .tc main_v124)) (W11 m ρ c (Proc.devRef .tc main_v131)) (W11 m ρ c (Proc.devRef .tc main_v37)) (W11 m ρ c (Proc.devRef .tc main_v133)) (W11 m ρ c (Proc.devRef .tc main_v140)) (W11 m ρ c (Proc.devRef .tc main_v137)) (W11 m ρ c (Proc.devRef .tc main_v141)) = _
  rw [W11_v124 m ρ c h hx, W11_v131 m ρ c h hx, (keeps11 m ρ c h).v37, W11_v133 m ρ c h, W11_v140 m ρ c h, W11_v137 m ρ c h, W11_v141 m ρ c h]

theorem keeps12 (h : Keeps m c (W11 m ρ c)) : Keeps m c (W12 m ρ c) :=
  ⟨(W12_of_ne m ρ c main_v1 (by decide)).trans h.v1,
   (W12_of_ne m ρ c main_v3 (by decide)).trans h.v3,
   ((W12_arr m ρ c 2).trans (((dat4 (V11 m ρ) c).arrAt_in 2 rfl _).trans (A_eq4 (V11 m ρ) c 2))).trans h.v37,
   (W12_of_ne m ρ c main_v38 (by decide)).trans h.v38,
   (W12_of_ne m ρ c main_v39 (by decide)).trans h.v39,
   (W12_of_ne m ρ c main_arg2 (by decide)).trans h.arg2,
   (W12_of_ne m ρ c main_arg4 (by decide)).trans h.arg4,
   (W12_of_ne m ρ c main_arg6 (by decide)).trans h.arg6⟩

theorem W12_v117 (hx : W11 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W12 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (W12_of_ne m ρ c main_v117 (by decide)).trans hx

theorem W13_v150 (h : Keeps m c (W12 m ρ c)) (hmsg : W12 m ρ c (Proc.devRef .tc main_v142) = Cert.EdgeConv.msg (R := 1600000) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT2 (m ((c : Thread nD τ).loc main_arg3))) (KSpec.bRow2 (m ((c : Thread nD τ).loc main_arg4))) (KSpec.wT2 (m ((c : Thread nD τ).loc main_arg5))) (KSpec.bRow2 (m ((c : Thread nD τ).loc main_arg6)))) : W13 m ρ c (Proc.devRef .tc main_v150) = KSpec.sct (Cert.EdgeConv.msg (R := 1600000) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT2 (m ((c : Thread nD τ).loc main_arg3))) (KSpec.bRow2 (m ((c : Thread nD τ).loc main_arg4))) (KSpec.wT2 (m ((c : Thread nD τ).loc main_arg5))) (KSpec.bRow2 (m ((c : Thread nD τ).loc main_arg6)))) (KSpec.dst (m ((c : Thread nD τ).loc main_arg0))) := by
  have e : W13 m ρ c (Proc.devRef .tc main_v150) = KSpec.sct (W12 m ρ c (Proc.devRef .tc main_v142)) (W12 m ρ c (Proc.devRef .tc main_v3)) := by
    dsimp only [W13, hostOps5]
    after_results_simp
    try rfl
  rw [e, hmsg, h.v3]
  try rfl

theorem W13_v152 (h : Keeps m c (W12 m ρ c)) : W13 m ρ c (Proc.devRef .tc main_v152) = KSpec.wT2 (m ((c : Thread nD τ).loc main_arg3)) := by
  have e : W13 m ρ c (Proc.devRef .tc main_v152) = shapeCast S64x64 (extractStridedSlice S1x64x64 ![2, 0, 0] (W12 m ρ c (Proc.devRef .tc main_v38)) slices_S3x64x64_S1x64x64_2_0_0) shapeCasts_S1x64x64_S64x64 := by
    dsimp only [W13, hostOps5]
    after_results_simp
    try rfl
  rw [e, h.v38]
  try rfl

theorem W13_v155 (h : Keeps m c (W12 m ρ c)) : W13 m ρ c (Proc.devRef .tc main_v155) = KSpec.bRow2 (m ((c : Thread nD τ).loc main_arg4)) := by
  have e : W13 m ρ c (Proc.devRef .tc main_v155) = shapeCast S1x64 (shapeCast S64 (extractStridedSlice S1x64 ![2, 0] (W12 m ρ c (Proc.devRef .tc main_arg4)) slices_S3x64_S1x64_2_0) shapeCasts_S1x64_S64) shapeCasts_S64_S1x64 := by
    dsimp only [W13, hostOps5]
    after_results_simp
    try rfl
  rw [e, h.arg4]
  try rfl

theorem keeps13 (h : Keeps m c (W12 m ρ c)) : Keeps m c (W13 m ρ c) :=
  ⟨(show W13 m ρ c (Proc.devRef .tc main_v1) = W12 m ρ c (Proc.devRef .tc main_v1) by dsimp only [W13, hostOps5]; after_results_simp).trans h.v1,
   (show W13 m ρ c (Proc.devRef .tc main_v3) = W12 m ρ c (Proc.devRef .tc main_v3) by dsimp only [W13, hostOps5]; after_results_simp).trans h.v3,
   (show W13 m ρ c (Proc.devRef .tc main_v37) = W12 m ρ c (Proc.devRef .tc main_v37) by dsimp only [W13, hostOps5]; after_results_simp).trans h.v37,
   (show W13 m ρ c (Proc.devRef .tc main_v38) = W12 m ρ c (Proc.devRef .tc main_v38) by dsimp only [W13, hostOps5]; after_results_simp).trans h.v38,
   (show W13 m ρ c (Proc.devRef .tc main_v39) = W12 m ρ c (Proc.devRef .tc main_v39) by dsimp only [W13, hostOps5]; after_results_simp).trans h.v39,
   (show W13 m ρ c (Proc.devRef .tc main_arg2) = W12 m ρ c (Proc.devRef .tc main_arg2) by dsimp only [W13, hostOps5]; after_results_simp).trans h.arg2,
   (show W13 m ρ c (Proc.devRef .tc main_arg4) = W12 m ρ c (Proc.devRef .tc main_arg4) by dsimp only [W13, hostOps5]; after_results_simp).trans h.arg4,
   (show W13 m ρ c (Proc.devRef .tc main_arg6) = W12 m ρ c (Proc.devRef .tc main_arg6) by dsimp only [W13, hostOps5]; after_results_simp).trans h.arg6⟩

theorem W13_v117 (hx : W12 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) : W13 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (show W13 m ρ c (Proc.devRef .tc main_v117) = W12 m ρ c (Proc.devRef .tc main_v117) by dsimp only [W13, hostOps5]; after_results_simp).trans hx

/-- The layer's updated node features, as its second region leaves them. -/
theorem W14_v156 (hf5 : ∀ (V : Entry) (c : Dev nD), (dat5 (F := Ideal) V c).arrAt 4 cfg5.N = Cert.EdgeConv.upd (R := 100000) (V c main_v150) (V c main_v117) (V c main_v152) (V c main_v155)) (h : Keeps m c (W12 m ρ c)) (hmsg : W12 m ρ c (Proc.devRef .tc main_v142) = Cert.EdgeConv.msg (R := 1600000) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.frm (m ((c : Thread nD τ).loc main_arg0)))) (KSpec.gat (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (KSpec.dst (m ((c : Thread nD τ).loc main_arg0)))) (KSpec.nrmCol (m ((c : Thread nD τ).loc main_arg0)) (m ((c : Thread nD τ).loc main_arg1))) (KSpec.wT2 (m ((c : Thread nD τ).loc main_arg3))) (KSpec.bRow2 (m ((c : Thread nD τ).loc main_arg4))) (KSpec.wT2 (m ((c : Thread nD τ).loc main_arg5))) (KSpec.bRow2 (m ((c : Thread nD τ).loc main_arg6)))) (hx : W12 m ρ c (Proc.devRef .tc main_v117) = (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) :
    W14 m ρ c (Proc.devRef .tc main_v156) = (KSpec.layer2 (KSpec.layer1 (KSpec.layer0 (m ((c : Thread nD τ).loc main_arg2)) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W14_arr m ρ c 4).trans ((hf5 (V13 m ρ) c).trans ?_)
  show Cert.EdgeConv.upd (R := 100000) (W13 m ρ c (Proc.devRef .tc main_v150)) (W13 m ρ c (Proc.devRef .tc main_v117)) (W13 m ρ c (Proc.devRef .tc main_v152)) (W13 m ρ c (Proc.devRef .tc main_v155)) = _
  rw [W13_v150 m ρ c h hmsg, W13_v117 m ρ c hx, W13_v152 m ρ c h, W13_v155 m ρ c h]
  try rfl

theorem keeps14 (h : Keeps m c (W13 m ρ c)) : Keeps m c (W14 m ρ c) :=
  ⟨(W14_of_ne m ρ c main_v1 (by decide)).trans h.v1,
   (W14_of_ne m ρ c main_v3 (by decide)).trans h.v3,
   (W14_of_ne m ρ c main_v37 (by decide)).trans h.v37,
   (W14_of_ne m ρ c main_v38 (by decide)).trans h.v38,
   (W14_of_ne m ρ c main_v39 (by decide)).trans h.v39,
   (W14_of_ne m ρ c main_arg2 (by decide)).trans h.arg2,
   (W14_of_ne m ρ c main_arg4 (by decide)).trans h.arg4,
   (W14_of_ne m ρ c main_arg6 (by decide)).trans h.arg6⟩

/-! ## The result -/

/-- The result buffer: the input features and the third layer's, side by side. -/
theorem W15_v157 (hf0 : ∀ (V : Entry) (c : Dev nD), (dat0 (F := Ideal) V c).arrAt 7 cfg0.N = Cert.EdgeConv.msg (R := 1600000) (V c main_v46) (V c main_v53) (V c main_v37) (V c main_v55) (V c main_v62) (V c main_v59) (V c main_v63))
    (hf1 : ∀ (V : Entry) (c : Dev nD), (dat1 (F := Ideal) V c).arrAt 4 cfg1.N = Cert.EdgeConv.upd (R := 100000) (V c main_v72) (V c main_arg2) (V c main_v74) (V c main_v77))
    (hf2 : ∀ (V : Entry) (c : Dev nD), (dat2 (F := Ideal) V c).arrAt 7 cfg2.N = Cert.EdgeConv.msg (R := 1600000) (V c main_v85) (V c main_v92) (V c main_v37) (V c main_v94) (V c main_v101) (V c main_v98) (V c main_v102))
    (hf3 : ∀ (V : Entry) (c : Dev nD), (dat3 (F := Ideal) V c).arrAt 4 cfg3.N = Cert.EdgeConv.upd (R := 100000) (V c main_v111) (V c main_v78) (V c main_v113) (V c main_v116))
    (hf4 : ∀ (V : Entry) (c : Dev nD), (dat4 (F := Ideal) V c).arrAt 7 cfg4.N = Cert.EdgeConv.msg (R := 1600000) (V c main_v124) (V c main_v131) (V c main_v37) (V c main_v133) (V c main_v140) (V c main_v137) (V c main_v141))
    (hf5 : ∀ (V : Entry) (c : Dev nD), (dat5 (F := Ideal) V c).arrAt 4 cfg5.N = Cert.EdgeConv.upd (R := 100000) (V c main_v150) (V c main_v117) (V c main_v152) (V c main_v155)) : W15 m ρ c (Proc.devRef .tc main_v157) = KSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have k3 := keeps3 m ρ c
  have m4 := W4_v64 m ρ c hf0
  have k4 := keeps4 m ρ c k3
  have k5 := keeps5 m ρ c k4
  have x6 := W6_v78 m ρ c hf1 k4 m4
  have k6 := keeps6 m ρ c k5
  have k7 := keeps7 m ρ c k6
  have x7 := W7_v78 m ρ c x6
  have m8 := W8_v103 m ρ c hf2 k6 x6
  have k8 := keeps8 m ρ c k7
  have x8 := W8_v78 m ρ c x7
  have k9 := keeps9 m ρ c k8
  have x10 := W10_v117 m ρ c hf3 k8 m8 x8
  have k10 := keeps10 m ρ c k9
  have k11 := keeps11 m ρ c k10
  have x11 := W11_v117 m ρ c x10
  have m12 := W12_v142 m ρ c hf4 k10 x10
  have k12 := keeps12 m ρ c k11
  have x12 := W12_v117 m ρ c x11
  have k13 := keeps13 m ρ c k12
  have x14 := W14_v156 m ρ c hf5 k12 m12 x12
  have k14 := keeps14 m ρ c k13
  have e : W15 m ρ c (Proc.devRef .tc main_v157) = concatenate S100000x128 1 [⟨S100000x64, W14 m ρ c (Proc.devRef .tc main_arg2)⟩, ⟨S100000x64, W14 m ρ c (Proc.devRef .tc main_v156)⟩] concatenates_S100000x64_S100000x64_S100000x128_d1 := by
    dsimp only [W15, hostOps6]
    after_results_simp
    try rfl
  rw [e, k14.arg2, x14]
  try rfl

end Cert.KernelIdeal.KChain

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«174210_j74363063763024_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.BodyMsg.lean ====
/-
  The edge-message body, read at the ideal values.

  The body loads a block of `R = 6400` source rows `xj`, the matching target rows `xi`, the column `nrm` of the
  rows' normalisation coefficients, two 64-by-64 weight matrices and two one-row biases, and stores
      nrm[r] * ((Σₖ xj[r,k] * w1[k,c] + b1[c]) + (Σₖ (xj[r,k] * xi[r,k]) * w2[k,c] + b2[c]))
  at entry `(r, c)`. On extended reals a change of float format and a re-cast of a block to its own shape are the
  identity, a matrix product into a zero accumulator is the plain sum over the contracted coordinate, a one-row bias
  broadcast down the rows reads the bias at the column, and a one-column coefficient broadcast along the rows reads
  the coefficient at the row. So the stored block is exactly the message function of the specification, over the
  block's own rows.
-/
import proofs.«174210_j74363063763024_1_alg».proof.Proof.Gen.KernelIdeal.Skeleton
import proofs.«174210_j74363063763024_1_alg».proof.Proof.Spec
import proofs.«174210_j74363063763024_1_alg».proof.Proof.LibMatmulSum
import proofs.«174210_j74363063763024_1_alg».proof.Proof.LibBiasRow
import proofs.«174210_j74363063763024_1_alg».proof.Proof.LibKeepdims

noncomputable section

namespace Cert.KernelIdeal.RegionValue

open Idealize.ShloMosaic Idealize.ShloMosaic.ValueIdx Cert.KernelIdeal Cert.Gcn Cert.EdgeConv

/-! ## The product's dimension record: which coordinate of each operand comes from where -/

/-- The left operand's row is the result's row. -/
theorem dotE_lhs0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide),
    dif_pos (show (0 : Fin S6400x64.rank) ∈ dot_S6400x64_S64x64_S6400x64_1_0_0_1_n_n.lhsNonContracting by decide)]
  rfl

/-- The left operand's column is the contracted coordinate. -/
theorem dotE_lhs1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q

/-- The right operand's row is the contracted coordinate. -/
theorem dotE_rhs0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q

/-- The right operand's column is the result's column. -/
theorem dotE_rhs1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide),
    dif_pos (show (1 : Fin S64x64.rank) ∈ dot_S6400x64_S64x64_S6400x64_1_0_0_1_n_n.rhsNonContracting by decide)]
  rfl

/-- The body's matrix product into a zero accumulator, whatever the operands' formats, is the product of the
    specification. -/
theorem matmulE_eq {φ₁ φ₂ : FTy} (l : FVec Ideal ⟨2, ![6400, 64]⟩ φ₁) (r : FVec Ideal ⟨2, ![64, 64]⟩ φ₂)
    (p : Fin 6400) (q : Fin 64) :
    matmul dot_S6400x64_S64x64_S6400x64_1_0_0_1_n_n none l r (constant (F := Ideal) S6400x64 .f32 0x00000000#32) (ix2 p q)
      = ∑ k : Fin 64, l (ix2 p k) * r (ix2 k q) :=
  Cert.GraphConv.matmul_zero_sum dot_S6400x64_S64x64_S6400x64_1_0_0_1_n_n none rfl rfl dotE_lhs0 dotE_lhs1 dotE_rhs0 dotE_rhs1
    l r (ix2 p q)

/-! ## The stored block is the message function of the loaded blocks -/

/-- The message at an entry, from the body's operations one by one. -/
theorem msg_of_ops (x0 x1 : FVec Ideal ⟨2, ![6400, 64]⟩ .f32) (x2 : FVec Ideal ⟨2, ![6400, 1]⟩ .f32)
    (x3 : FVec Ideal ⟨2, ![64, 64]⟩ .f32) (x4 : FVec Ideal ⟨2, ![1, 64]⟩ .f32)
    (x5 : FVec Ideal ⟨2, ![64, 64]⟩ .f32) (x6 : FVec Ideal ⟨2, ![1, 64]⟩ .f32)
    (h1 : S6400x64.ShapeCasts S6400x64) (h2 : S6400x1.ShapeCasts S6400x1) (h3 : S64x64.ShapeCasts S64x64)
    (h4 : S1x64.ShapeCasts S1x64) (hb : S1x64.Broadcasts S6400x64) (hc : S6400x1.Broadcasts S6400x64)
    (ht : FTy.bits .bf16 < FTy.bits .f32) (p : Fin 6400) (q : Fin 64) :
    mulf (broadcastTo S6400x64 (shapeCast S6400x1 x2 h2) hc)
        (addf
          (addf (matmul dot_S6400x64_S64x64_S6400x64_1_0_0_1_n_n none (truncf .bf16 (shapeCast S6400x64 x0 h1) ht)
              (truncf .bf16 (shapeCast S64x64 x3 h3) ht) (constant (F := Ideal) S6400x64 .f32 0x00000000#32))
            (broadcastTo S6400x64 (shapeCast S1x64 x4 h4) hb))
          (addf (matmul dot_S6400x64_S64x64_S6400x64_1_0_0_1_n_n none
              (truncf .bf16 (mulf (shapeCast S6400x64 x0 h1) (shapeCast S6400x64 x1 h1)) ht)
              (truncf .bf16 (shapeCast S64x64 x5 h3) ht) (constant (F := Ideal) S6400x64 .f32 0x00000000#32))
            (broadcastTo S6400x64 (shapeCast S1x64 x6 h4) hb))) (ix2 p q)
      = msg (R := 6400) x0 x1 x2 x3 x4 x5 x6 (ix2 p q) := by
  rw [msg_ix2, linear_ix2, linear_ix2, mulf_apply, addf_apply, addf_apply, addf_apply, matmulE_eq, matmulE_eq,
    Cert.LibKeepdims.broadcastTo_a1_ab_apply, broadcastTo_1b_ab_apply, broadcastTo_1b_ab_apply,
    shapeCast_self, shapeCast_self, shapeCast_self, shapeCast_self, shapeCast_self, shapeCast_self, shapeCast_self]
  rfl

/-- The block the edge-message body stores is the message function of the blocks it loads. -/
theorem pay_msg (x0 x1 : FVec Ideal ⟨2, ![6400, 64]⟩ .f32) (x2 : FVec Ideal ⟨2, ![6400, 1]⟩ .f32)
    (x3 : FVec Ideal ⟨2, ![64, 64]⟩ .f32) (x4 : FVec Ideal ⟨2, ![1, 64]⟩ .f32)
    (x5 : FVec Ideal ⟨2, ![64, 64]⟩ .f32) (x6 : FVec Ideal ⟨2, ![1, 64]⟩ .f32) :
    Gen.k0_pay1 (F := Ideal) x0 x1 x2 x3 x4 x5 x6 = msg (R := 6400) x0 x1 x2 x3 x4 x5 x6 := by
  funext j
  obtain ⟨p, q, rfl⟩ : ∃ (p : Fin 6400) (q : Fin 64), j = ix2 p q := ⟨j 0, j 1, eq_ix2 j⟩
  exact msg_of_ops x0 x1 x2 x3 x4 x5 x6 _ _ _ _ _ _ _ p q

/-- The same body, as the program prints it for the second layer. -/
theorem pay_msg2 (x0 x1 : FVec Ideal ⟨2, ![6400, 64]⟩ .f32) (x2 : FVec Ideal ⟨2, ![6400, 1]⟩ .f32)
    (x3 : FVec Ideal ⟨2, ![64, 64]⟩ .f32) (x4 : FVec Ideal ⟨2, ![1, 64]⟩ .f32)
    (x5 : FVec Ideal ⟨2, ![64, 64]⟩ .f32) (x6 : FVec Ideal ⟨2, ![1, 64]⟩ .f32) :
    Gen.k2_pay1 (F := Ideal) x0 x1 x2 x3 x4 x5 x6 = msg (R := 6400) x0 x1 x2 x3 x4 x5 x6 := by
  funext j
  obtain ⟨p, q, rfl⟩ : ∃ (p : Fin 6400) (q : Fin 64), j = ix2 p q := ⟨j 0, j 1, eq_ix2 j⟩
  exact msg_of_ops x0 x1 x2 x3 x4 x5 x6 _ _ _ _ _ _ _ p q

/-- The same body, as the program prints it for the third layer. -/
theorem pay_msg4 (x0 x1 : FVec Ideal ⟨2, ![6400, 64]⟩ .f32) (x2 : FVec Ideal ⟨2, ![6400, 1]⟩ .f32)
    (x3 : FVec Ideal ⟨2, ![64, 64]⟩ .f32) (x4 : FVec Ideal ⟨2, ![1, 64]⟩ .f32)
    (x5 : FVec Ideal ⟨2, ![64, 64]⟩ .f32) (x6 : FVec Ideal ⟨2, ![1, 64]⟩ .f32) :
    Gen.k4_pay1 (F := Ideal) x0 x1 x2 x3 x4 x5 x6 = msg (R := 6400) x0 x1 x2 x3 x4 x5 x6 := by
  funext j
  obtain ⟨p, q, rfl⟩ : ∃ (p : Fin 6400) (q : Fin 64), j = ix2 p q := ⟨j 0, j 1, eq_ix2 j⟩
  exact msg_of_ops x0 x1 x2 x3 x4 x5 x6 _ _ _ _ _ _ _ p q

/-! ## A row of messages depends on its own rows only -/

/-- Row `p` of the messages of a block of `B` edges is row `r` of the messages of all `R` edges, when row `p` of each
    row-indexed operand of the block is row `r` of the whole operand: an entry of a matrix product reads one row of
    its left factor, and the coefficient is read at the row. -/
theorem msg_congr_row {R B : ℕ} (Xj Xi : FVec Ideal ⟨2, ![R, 64]⟩ .f32) (Nrm : FVec Ideal ⟨2, ![R, 1]⟩ .f32)
    (xj xi : FVec Ideal ⟨2, ![B, 64]⟩ .f32) (nrm : FVec Ideal ⟨2, ![B, 1]⟩ .f32)
    (w1 : FVec Ideal ⟨2, ![64, 64]⟩ .f32) (b1 : FVec Ideal ⟨2, ![1, 64]⟩ .f32)
    (w2 : FVec Ideal ⟨2, ![64, 64]⟩ .f32) (b2 : FVec Ideal ⟨2, ![1, 64]⟩ .f32)
    (r : Fin R) (p : Fin B) (c : Fin 64)
    (hj : ∀ k : Fin 64, xj (ix2 p k) = Xj (ix2 r k)) (hi : ∀ k : Fin 64, xi (ix2 p k) = Xi (ix2 r k))
    (hn : nrm (ix2 p (0 : Fin 1)) = Nrm (ix2 r (0 : Fin 1))) :
    msg xj xi nrm w1 b1 w2 b2 (ix2 p c) = msg Xj Xi Nrm w1 b1 w2 b2 (ix2 r c) := by
  have e1 : linear xj w1 (ix2 p c) = linear Xj w1 (ix2 r c) := by
    rw [linear_ix2, linear_ix2]
    exact Finset.sum_congr rfl fun k _ => by rw [hj k]
  have e2 : linear (had xj xi) w2 (ix2 p c) = linear (had Xj Xi) w2 (ix2 r c) := by
    rw [linear_ix2, linear_ix2]
    refine Finset.sum_congr rfl fun k _ => ?_
    show xj (ix2 p k) * xi (ix2 p k) * w2 (ix2 k c) = Xj (ix2 r k) * Xi (ix2 r k) * w2 (ix2 k c)
    rw [hj k, hi k]
  rw [msg_ix2, msg_ix2, e1, e2, hn]

end Cert.KernelIdeal.RegionValue

end
-- ==== Proof.Region0.lean ====
/-
  The first edge-message launch: the array it leaves behind.

  The launch runs 250 grid points. Point `t` loads rows `6400 t … 6400 t + 6399` of the source rows, of the target
  rows and of the coefficient column, together with the whole of the two weight matrices and the two bias rows, and
  writes rows `6400 t … 6400 t + 6399` of the result. A row of messages depends on the same row of the three
  row-indexed operands only, so what point `t` writes is its block of ONE array: the message function of the whole
  operands, as the launch finds them. The 250 blocks tile the 1600000 rows (row `r` lies in the block of point
  `r / 6400`), so the array ends as that function.
-/
import proofs.«174210_j74363063763024_1_alg».proof.Proof.Gen.KernelIdeal.Frame
import proofs.«174210_j74363063763024_1_alg».proof.Proof.BodyMsg
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros0 : (![0, 0] : Fin 2 → Nat) = fun _ => 0 := funext fun a => by fin_cases a <;> rfl

/-! ## The block indices, decided over the 250 points

The three row-indexed operands and the result move down the rows with the point; the weights and biases stay at
block zero. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)

/-! ## Each input block, read off its array -/

/-- Window 0's block at point `t` is rows `6400 t … 6400 t + 6399` of its array. -/
theorem blk0_0 (c : Dev nD) (t : Fin cfg0.N) (p : Fin 6400) (k : Fin 64) (r : Fin 1600000)
    (hr : r.val = t.val * 6400 + p.val) :
    (iblk0 V c 0 t : FVec Ideal ⟨2, ![6400, 64]⟩ .f32) (ix2 p k)
      = (V c main_v46 : FVec Ideal ⟨2, ![1600000, 64]⟩ .f32) (ix2 r k) := by
  obtain ⟨e0, e1⟩ := idx0_0 t
  unfold iblk0
  rw [View.read_apply]
  show V c main_v46 _ = V c main_v46 _
  congr 1
  funext a
  apply Fin.ext
  match a with
  | ⟨0, _⟩ => show win0_0.index t (0 : Fin 2) * 6400 + 1 * p.val = r.val; rw [e0, hr]; omega
  | ⟨1, _⟩ => show win0_0.index t (1 : Fin 2) * 64 + 1 * k.val = k.val; rw [e1]; omega

/-- Window 1's block at point `t` is rows `6400 t … 6400 t + 6399` of its array. -/
theorem blk0_1 (c : Dev nD) (t : Fin cfg0.N) (p : Fin 6400) (k : Fin 64) (r : Fin 1600000)
    (hr : r.val = t.val * 6400 + p.val) :
    (iblk0 V c 1 t : FVec Ideal ⟨2, ![6400, 64]⟩ .f32) (ix2 p k)
      = (V c main_v53 : FVec Ideal ⟨2, ![1600000, 64]⟩ .f32) (ix2 r k) := by
  obtain ⟨e0, e1⟩ := idx0_1 t
  unfold iblk0
  rw [View.read_apply]
  show V c main_v53 _ = V c main_v53 _
  congr 1
  funext a
  apply Fin.ext
  match a with
  | ⟨0, _⟩ => show win0_1.index t (0 : Fin 2) * 6400 + 1 * p.val = r.val; rw [e0, hr]; omega
  | ⟨1, _⟩ => show win0_1.index t (1 : Fin 2) * 64 + 1 * k.val = k.val; rw [e1]; omega

/-- Window 2's block at point `t` is rows `6400 t … 6400 t + 6399` of its array. -/
theorem blk0_2 (c : Dev nD) (t : Fin cfg0.N) (p : Fin 6400) (k : Fin 1) (r : Fin 1600000)
    (hr : r.val = t.val * 6400 + p.val) :
    (iblk0 V c 2 t : FVec Ideal ⟨2, ![6400, 1]⟩ .f32) (ix2 p k)
      = (V c main_v37 : FVec Ideal ⟨2, ![1600000, 1]⟩ .f32) (ix2 r k) := by
  obtain ⟨e0, e1⟩ := idx0_2 t
  unfold iblk0
  rw [View.read_apply]
  show V c main_v37 _ = V c main_v37 _
  congr 1
  funext a
  apply Fin.ext
  match a with
  | ⟨0, _⟩ => show win0_2.index t (0 : Fin 2) * 6400 + 1 * p.val = r.val; rw [e0, hr]; omega
  | ⟨1, _⟩ => show win0_2.index t (1 : Fin 2) * 1 + 1 * k.val = k.val; rw [e1]; omega

/-- Window 3's block at every point is its whole array. -/
theorem blk0_3 (c : Dev nD) (t : Fin cfg0.N) :
    (iblk0 V c 3 t : FVec Ideal ⟨2, ![64, 64]⟩ .f32) = V c main_v55 := by
  obtain ⟨e0, e1⟩ := idx0_3 t
  funext y
  unfold iblk0
  rw [View.read_apply]
  show V c main_v55 _ = V c main_v55 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4's block at every point is its whole array. -/
theorem blk0_4 (c : Dev nD) (t : Fin cfg0.N) :
    (iblk0 V c 4 t : FVec Ideal ⟨2, ![1, 64]⟩ .f32) = V c main_v62 := by
  obtain ⟨e0, e1⟩ := idx0_4 t
  funext y
  unfold iblk0
  rw [View.read_apply]
  show V c main_v62 _ = V c main_v62 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5's block at every point is its whole array. -/
theorem blk0_5 (c : Dev nD) (t : Fin cfg0.N) :
    (iblk0 V c 5 t : FVec Ideal ⟨2, ![64, 64]⟩ .f32) = V c main_v59 := by
  obtain ⟨e0, e1⟩ := idx0_5 t
  funext y
  unfold iblk0
  rw [View.read_apply]
  show V c main_v59 _ = V c main_v59 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- Window 6's block at every point is its whole array. -/
theorem blk0_6 (c : Dev nD) (t : Fin cfg0.N) :
    (iblk0 V c 6 t : FVec Ideal ⟨2, ![1, 64]⟩ .f32) = V c main_v63 := by
  obtain ⟨e0, e1⟩ := idx0_6 t
  funext y
  unfold iblk0
  rw [View.read_apply]
  show V c main_v63 _ = V c main_v63 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-! ## What a point writes back, the cover, and the final array -/

/-- What point `t` writes back is block `t` of the message function of the whole operands. -/
theorem flushed_eq0 (c : Dev nD) (t : Fin cfg0.N) :
    (dat0 V c).flushed 7 t = ((cfg0.win 7).blk t).view.read (Elt Ideal) (msg (R := 1600000) (V c main_v46) (V c main_v53) (V c main_v37) (V c main_v55) (V c main_v62) (V c main_v59) (V c main_v63)) := by
  show (cfg0.win 7).cut (grid0.coords t) ((dat0 V c).after 7 t) = _
  rw [after0_7]
  unfold out0_7
  rw [View.canon_unit_zero zeros0]
  simp only [View.ld_unit_zero (S := S6400x64) zeros0, View.ld_unit_zero (S := S6400x1) zeros0,
    View.ld_unit_zero (S := S64x64) zeros0, View.ld_unit_zero (S := S1x64) zeros0]
  rw [pay_msg, blk0_3 V c t, blk0_4 V c t, blk0_5 V c t, blk0_6 V c t]
  obtain ⟨e0, e1⟩ := idx0_7 t
  funext j
  have hi0 : ((((cfg0.win 7).blk t).view.emb j) 0).val = t.val * 6400 + (j 0).val := by
    show win0_7.index t (0 : Fin 2) * 6400 + 1 * (j 0).val = _
    rw [e0]; omega
  have hi1 : ((((cfg0.win 7).blk t).view.emb j) 1).val = (j 1).val := by
    show win0_7.index t (1 : Fin 2) * 64 + 1 * (j 1).val = _
    rw [e1]; omega
  have ej : j = ix2 (j 0) (j 1) := eq_ix2 j
  have ei : ((cfg0.win 7).blk t).view.emb j = ix2 ((((cfg0.win 7).blk t).view.emb j) 0) (j 1) :=
    funext fun a => Fin.ext (by match a with | ⟨0, _⟩ => rfl | ⟨1, _⟩ => exact hi1)
  show msg (R := 6400) (iblk0 V c 0 t) (iblk0 V c 1 t) (iblk0 V c 2 t) (V c main_v55) (V c main_v62) (V c main_v59) (V c main_v63) j
    = msg (R := 1600000) (V c main_v46) (V c main_v53) (V c main_v37) (V c main_v55) (V c main_v62) (V c main_v59) (V c main_v63) (((cfg0.win 7).blk t).view.emb j)
  rw [ei]
  refine (congrArg _ ej).trans ?_
  exact msg_congr_row (V c main_v46) (V c main_v53) (V c main_v37) (iblk0 V c 0 t) (iblk0 V c 1 t) (iblk0 V c 2 t)
    (V c main_v55) (V c main_v62) (V c main_v59) (V c main_v63) ((((cfg0.win 7).blk t).view.emb j) 0) (j 0) (j 1)
    (fun k => blk0_0 V c t (j 0) k _ hi0) (fun k => blk0_1 V c t (j 0) k _ hi0) (blk0_2 V c t (j 0) 0 _ hi0)

/-- An index of the result array is in point `t`'s block iff each coordinate is in the block's range on its axis. -/
theorem mem_blk0 (t : Fin cfg0.N) (i : S1600000x64.Idx) :
    i ∈ ((cfg0.win 7).blk t).view.set ↔ ∀ a : Fin 2, win0_7.index t a * S6400x64.size a ≤ (i a).val
      ∧ (i a).val < win0_7.index t a * S6400x64.size a + S6400x64.size a := by
  show i ∈ ((View.whole main_v64).slice (win0_7.rect t)).set ↔ _
  rw [View.set_slice_whole, Rect.mem_set_unit]
  exact Iff.rfl

/-- Every row of the result is in some point's block: row `r` in the block of point `r / 6400`. -/
theorem cover0 (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 250 := N_0
  refine ⟨⟨(i 0).val / 6400, by rw [hN]; omega⟩, flush0_7 _, ?_⟩
  rw [mem_blk0]
  obtain ⟨e0, e1⟩ := idx0_7 ⟨(i 0).val / 6400, by rw [hN]; omega⟩
  intro a
  match a with
  | ⟨0, _⟩ =>
    show win0_7.index _ (0 : Fin 2) * 6400 ≤ (i 0).val ∧ (i 0).val < win0_7.index _ (0 : Fin 2) * 6400 + 6400
    rw [e0]; show (i 0).val / 6400 * 6400 ≤ (i 0).val ∧ (i 0).val < (i 0).val / 6400 * 6400 + 6400; omega
  | ⟨1, _⟩ =>
    show win0_7.index _ (1 : Fin 2) * 64 ≤ (i 1).val ∧ (i 1).val < win0_7.index _ (1 : Fin 2) * 64 + 64
    rw [e1]; omega

/-- The array the launch leaves: the message function of the operands as the launch finds them. -/
theorem final0 (c : Dev nD) :
    (dat0 (F := Ideal) V c).arrAt 7 cfg0.N = msg (R := 1600000) (V c main_v46) (V c main_v53) (V c main_v37) (V c main_v55) (V c main_v62) (V c main_v59) (V c main_v63) :=
  (dat0 V c).arrAt_eq_of_cover 7 (msg (R := 1600000) (V c main_v46) (V c main_v53) (V c main_v37) (V c main_v55) (V c main_v62) (V c main_v59) (V c main_v63)) (fun t _ => flushed_eq0 V c t) (cover0)

end Cert.KernelIdeal.RegionValue

end
-- ==== Proof.BodyUpd.lean ====
/-
  The node-update body, read at the ideal values.

  The body loads a block of `R = 10000` rows of aggregated messages `agg`, the matching rows `x` of node features, a
  64-by-64 weight matrix and a one-row bias, forms
      y[r,c] = agg[r,c] + (Σₖ x[r,k] * w[k,c] + b[c]),
  and stores `y` where `y > 0` and `slope * y` elsewhere: the leaky rectifier of the specification, whose zero and
  slope are the same two 32-bit words here and there and are never evaluated. On extended reals a change of float
  format and a re-cast of a block to its own shape are the identity, a matrix product into a zero accumulator is the
  plain sum over the contracted coordinate, and a one-row bias broadcast down the rows reads the bias at the column.
  So the stored block is exactly the update function of the specification, over the block's own rows.
-/
import proofs.«174210_j74363063763024_1_alg».proof.Proof.Gen.KernelIdeal.Skeleton
import proofs.«174210_j74363063763024_1_alg».proof.Proof.Spec
import proofs.«174210_j74363063763024_1_alg».proof.Proof.LibMatmulSum
import proofs.«174210_j74363063763024_1_alg».proof.Proof.LibBiasRow

noncomputable section

namespace Cert.KernelIdeal.RegionValue

open Idealize.ShloMosaic Idealize.ShloMosaic.ValueIdx Cert.KernelIdeal Cert.Gcn Cert.EdgeConv

/-! ## The product's dimension record: which coordinate of each operand comes from where -/

/-- The left operand's row is the result's row. -/
theorem dotN_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contracted coordinate. -/
theorem dotN_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the contracted coordinate. -/
theorem dotN_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the result's column. -/
theorem dotN_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The body's matrix product into a zero accumulator, whatever the operands' formats, is the product of the
    specification. -/
theorem matmulN_eq {φ₁ φ₂ : FTy} (l : FVec Ideal ⟨2, ![10000, 64]⟩ φ₁) (r : FVec Ideal ⟨2, ![64, 64]⟩ φ₂)
    (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) :=
  Cert.GraphConv.matmul_zero_sum dot_S10000x64_S64x64_S10000x64_1_0_0_1_n_n none rfl rfl dotN_lhs0 dotN_lhs1 dotN_rhs0 dotN_rhs1
    l r (ix2 p q)

/-! ## The stored block is the update function of the loaded blocks -/

/-- The rectifier's argument at an entry, from the body's operations one by one; the rows that enter the product are
    any matrix `xl`. -/
theorem sum_of_ops (x0 xl : FVec Ideal ⟨2, ![10000, 64]⟩ .f32) (x2 : FVec Ideal ⟨2, ![64, 64]⟩ .f32)
    (x3 : FVec Ideal ⟨2, ![1, 64]⟩ .f32)
    (h1 : S10000x64.ShapeCasts S10000x64) (h3 : S64x64.ShapeCasts S64x64) (h4 : S1x64.ShapeCasts S1x64)
    (hb : S1x64.Broadcasts S10000x64) (ht : FTy.bits .bf16 < FTy.bits .f32) (p : Fin 10000) (q : Fin 64) :
    addf (shapeCast S10000x64 x0 h1)
        (addf (matmul dot_S10000x64_S64x64_S10000x64_1_0_0_1_n_n none (truncf .bf16 xl ht)
            (truncf .bf16 (shapeCast S64x64 x2 h3) ht) (constant (F := Ideal) S10000x64 .f32 0x00000000#32))
          (broadcastTo S10000x64 (shapeCast S1x64 x3 h4) hb)) (ix2 p q)
      = x0 (ix2 p q) + (linear xl x2 (ix2 p q) + x3 (ix2 (0 : Fin 1) q)) := by
  rw [linear_ix2, addf_apply, addf_apply, matmulN_eq, broadcastTo_1b_ab_apply, shapeCast_self, shapeCast_self, shapeCast_self]
  rfl

/-- The body's compare-and-select is the leaky rectifier, entry by entry. -/
theorem leaky_of_ops (y : FVec Ideal ⟨2, ![10000, 64]⟩ .f32) (j : S10000x64.Idx) :
    select (cmpf .ogt y (broadcast S10000x64 (Scalar.ofBits (F := Ideal) .f32 0x00000000#32))) y
        (mulf (broadcast S10000x64 (Scalar.ofBits (F := Ideal) .f32 0x3C23D70A#32)) y) j
      = leaky (y j) := by
  rw [select_apply, cmpf_apply, mulf_apply, broadcast_apply, broadcast_apply, Ideal.cmpf_def]
  rfl

/-- The block the node-update body stores is the update function of the blocks it loads. -/
theorem pay_upd (x0 x1 : FVec Ideal ⟨2, ![10000, 64]⟩ .f32) (x2 : FVec Ideal ⟨2, ![64, 64]⟩ .f32)
    (x3 : FVec Ideal ⟨2, ![1, 64]⟩ .f32) :
    Gen.k1_pay1 (F := Ideal) x0 x1 x2 x3 = upd (R := 10000) x0 x1 x2 x3 := by
  funext j
  obtain ⟨p, q, rfl⟩ : ∃ (p : Fin 10000) (q : Fin 64), j = ix2 p q := ⟨j 0, j 1, eq_ix2 j⟩
  unfold Gen.k1_pay1
  refine (leaky_of_ops _ _).trans ?_
  rw [upd_ix2]
  exact congrArg leaky (sum_of_ops x0 x1 x2 x3 _ _ _ _ _ p q)

/-- The same body, as the program prints it for the second layer: the node rows pass through one more re-cast to their
    own shape. -/
theorem pay_upd3 (x0 x1 : FVec Ideal ⟨2, ![10000, 64]⟩ .f32) (x2 : FVec Ideal ⟨2, ![64, 64]⟩ .f32)
    (x3 : FVec Ideal ⟨2, ![1, 64]⟩ .f32) :
    Gen.k3_pay1 (F := Ideal) x0 x1 x2 x3 = upd (R := 10000) x0 x1 x2 x3 := by
  funext j
  obtain ⟨p, q, rfl⟩ : ∃ (p : Fin 10000) (q : Fin 64), j = ix2 p q := ⟨j 0, j 1, eq_ix2 j⟩
  unfold Gen.k3_pay1
  refine (leaky_of_ops _ _).trans ?_
  rw [upd_ix2]
  refine congrArg leaky ((sum_of_ops x0 _ x2 x3 _ _ _ _ _ p q).trans ?_)
  rw [shapeCast_self]

/-- The same body, as the program prints it for the third layer. -/
theorem pay_upd5 (x0 x1 : FVec Ideal ⟨2, ![10000, 64]⟩ .f32) (x2 : FVec Ideal ⟨2, ![64, 64]⟩ .f32)
    (x3 : FVec Ideal ⟨2, ![1, 64]⟩ .f32) :
    Gen.k5_pay1 (F := Ideal) x0 x1 x2 x3 = upd (R := 10000) x0 x1 x2 x3 := by
  funext j
  obtain ⟨p, q, rfl⟩ : ∃ (p : Fin 10000) (q : Fin 64), j = ix2 p q := ⟨j 0, j 1, eq_ix2 j⟩
  unfold Gen.k5_pay1
  refine (leaky_of_ops _ _).trans ?_
  rw [upd_ix2]
  refine congrArg leaky ((sum_of_ops x0 _ x2 x3 _ _ _ _ _ p q).trans ?_)
  rw [shapeCast_self]

/-! ## A row of updates depends on its own rows only -/

/-- Row `p` of the updates of a block of `B` nodes is row `r` of the updates of all `R` nodes, when row `p` of the
    block's aggregated messages and features is row `r` of the whole arrays: an entry of a matrix product reads one
    row of its left factor. -/
theorem upd_congr_row {R B : ℕ} (Agg X : FVec Ideal ⟨2, ![R, 64]⟩ .f32) (agg x : FVec Ideal ⟨2, ![B, 64]⟩ .f32)
    (w : FVec Ideal ⟨2, ![64, 64]⟩ .f32) (b : FVec Ideal ⟨2, ![1, 64]⟩ .f32)
    (r : Fin R) (p : Fin B) (c : Fin 64)
    (ha : agg (ix2 p c) = Agg (ix2 r c)) (hx : ∀ k : Fin 64, x (ix2 p k) = X (ix2 r k)) :
    upd agg x w b (ix2 p c) = upd Agg X w b (ix2 r c) := by
  have e1 : linear x w (ix2 p c) = linear X w (ix2 r c) := by
    rw [linear_ix2, linear_ix2]
    exact Finset.sum_congr rfl fun k _ => by rw [hx k]
  rw [upd_ix2, upd_ix2, e1, ha]

end Cert.KernelIdeal.RegionValue

end
-- ==== Proof.Region1.lean ====
/-
  The first node-update launch: the array it leaves behind.

  The launch runs 10 grid points. Point `t` loads rows `10000 t … 10000 t + 9999` of the aggregated messages and of the
  node features, together with the whole weight matrix and the bias row, and writes rows `10000 t … 10000 t + 9999` of
  the result. A row of updates depends on the same row of the two row-indexed operands only, so what point `t` writes
  is its block of ONE array: the update function of the whole operands, as the launch finds them. The 10 blocks tile
  the 100000 rows (row `r` lies in the block of point `r / 10000`), so the array ends as that function.
-/
import proofs.«174210_j74363063763024_1_alg».proof.Proof.Gen.KernelIdeal.Frame
import proofs.«174210_j74363063763024_1_alg».proof.Proof.BodyUpd
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros1 : (![0, 0] : Fin 2 → Nat) = fun _ => 0 := funext fun a => by fin_cases a <;> rfl

/-! ## The block indices, decided over the 10 points

The two row-indexed operands and the result move down the rows with the point; the weights and the bias stay at
block zero. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

/-! ## Each input block, read off its array -/

/-- Window 0's block at point `t` is rows `10000 t … 10000 t + 9999` of its array. -/
theorem blk1_0 (c : Dev nD) (t : Fin cfg1.N) (p : Fin 10000) (k : Fin 64) (r : Fin 100000)
    (hr : r.val = t.val * 10000 + p.val) :
    (iblk1 V c 0 t : FVec Ideal ⟨2, ![10000, 64]⟩ .f32) (ix2 p k)
      = (V c main_v72 : FVec Ideal ⟨2, ![100000, 64]⟩ .f32) (ix2 r k) := by
  obtain ⟨e0, e1⟩ := idx1_0 t
  unfold iblk1
  rw [View.read_apply]
  show V c main_v72 _ = V c main_v72 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Window 1's block at point `t` is rows `10000 t … 10000 t + 9999` of its array. -/
theorem blk1_1 (c : Dev nD) (t : Fin cfg1.N) (p : Fin 10000) (k : Fin 64) (r : Fin 100000)
    (hr : r.val = t.val * 10000 + p.val) :
    (iblk1 V c 1 t : FVec Ideal ⟨2, ![10000, 64]⟩ .f32) (ix2 p k)
      = (V c main_arg2 : FVec Ideal ⟨2, ![100000, 64]⟩ .f32) (ix2 r k) := by
  obtain ⟨e0, e1⟩ := idx1_1 t
  unfold iblk1
  rw [View.read_apply]
  show V c main_arg2 _ = V c main_arg2 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 64 + 1 * k.val = k.val; rw [e1]; omega

/-- Window 2's block at every point is its whole array. -/
theorem blk1_2 (c : Dev nD) (t : Fin cfg1.N) :
    (iblk1 V c 2 t : FVec Ideal ⟨2, ![64, 64]⟩ .f32) = V c main_v74 := by
  obtain ⟨e0, e1⟩ := idx1_2 t
  funext y
  unfold iblk1
  rw [View.read_apply]
  show V c main_v74 _ = V c main_v74 y
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's block at every point is its whole array. -/
theorem blk1_3 (c : Dev nD) (t : Fin cfg1.N) :
    (iblk1 V c 3 t : FVec Ideal ⟨2, ![1, 64]⟩ .f32) = V c main_v77 := by
  obtain ⟨e0, e1⟩ := idx1_3 t
  funext y
  unfold iblk1
  rw [View.read_apply]
  show V c main_v77 _ = V c main_v77 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-! ## What a point writes back, the cover, and the final array -/

/-- What point `t` writes back is block `t` of the update function of the whole operands. -/
theorem flushed_eq1 (c : Dev nD) (t : Fin cfg1.N) :
    (dat1 V c).flushed 4 t = ((cfg1.win 4).blk t).view.read (Elt Ideal) (upd (R := 100000) (V c main_v72) (V c main_arg2) (V c main_v74) (V c main_v77)) := by
  show (cfg1.win 4).cut (grid1.coords t) ((dat1 V c).after 4 t) = _
  rw [after1_4]
  unfold out1_4
  rw [View.canon_unit_zero zeros1]
  simp only [View.ld_unit_zero (S := S10000x64) zeros1, View.ld_unit_zero (S := S64x64) zeros1,
    View.ld_unit_zero (S := S1x64) zeros1]
  rw [pay_upd, blk1_2 V c t, blk1_3 V c t]
  obtain ⟨e0, e1⟩ := idx1_4 t
  funext j
  have hi0 : ((((cfg1.win 4).blk t).view.emb j) 0).val = t.val * 10000 + (j 0).val := by
    show win1_4.index t (0 : Fin 2) * 10000 + 1 * (j 0).val = _
    rw [e0]; omega
  have hi1 : ((((cfg1.win 4).blk t).view.emb j) 1).val = (j 1).val := by
    show win1_4.index t (1 : Fin 2) * 64 + 1 * (j 1).val = _
    rw [e1]; omega
  have ej : j = ix2 (j 0) (j 1) := eq_ix2 j
  have ei : ((cfg1.win 4).blk t).view.emb j = ix2 ((((cfg1.win 4).blk t).view.emb j) 0) (j 1) :=
    funext fun a => Fin.ext (by match a with | ⟨0, _⟩ => rfl | ⟨1, _⟩ => exact hi1)
  show upd (R := 10000) (iblk1 V c 0 t) (iblk1 V c 1 t) (V c main_v74) (V c main_v77) j
    = upd (R := 100000) (V c main_v72) (V c main_arg2) (V c main_v74) (V c main_v77) (((cfg1.win 4).blk t).view.emb j)
  rw [ei]
  refine (congrArg _ ej).trans ?_
  exact upd_congr_row (V c main_v72) (V c main_arg2) (iblk1 V c 0 t) (iblk1 V c 1 t)
    (V c main_v74) (V c main_v77) ((((cfg1.win 4).blk t).view.emb j) 0) (j 0) (j 1)
    (blk1_0 V c t (j 0) (j 1) _ hi0) (fun k => blk1_1 V c t (j 0) k _ hi0)

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v78).slice (win1_4.rect t)).set ↔ _
  rw [View.set_slice_whole, Rect.mem_set_unit]
  exact Iff.rfl

/-- Every row of the result is in some point's block: row `r` in the block of point `r / 10000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_4 _, ?_⟩
  rw [mem_blk1]
  obtain ⟨e0, e1⟩ := idx1_4 ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 64 ≤ (i 1).val ∧ (i 1).val < win1_4.index _ (1 : Fin 2) * 64 + 64
    rw [e1]; omega

/-- The array the launch leaves: the update function of the operands as the launch finds them. -/
theorem final1 (c : Dev nD) :
    (dat1 (F := Ideal) V c).arrAt 4 cfg1.N = upd (R := 100000) (V c main_v72) (V c main_arg2) (V c main_v74) (V c main_v77) :=
  (dat1 V c).arrAt_eq_of_cover 4 (upd (R := 100000) (V c main_v72) (V c main_arg2) (V c main_v74) (V c main_v77)) (fun t _ => flushed_eq1 V c t) (cover1)

end Cert.KernelIdeal.RegionValue

end
-- ==== Proof.Region2.lean ====
/-
  The second edge-message launch: the array it leaves behind.

  The launch runs 250 grid points. Point `t` loads rows `6400 t … 6400 t + 6399` of the source rows, of the target
  rows and of the coefficient column, together with the whole of the two weight matrices and the two bias rows, and
  writes rows `6400 t … 6400 t + 6399` of the result. A row of messages depends on the same row of the three
  row-indexed operands only, so what point `t` writes is its block of ONE array: the message function of the whole
  operands, as the launch finds them. The 250 blocks tile the 1600000 rows (row `r` lies in the block of point
  `r / 6400`), so the array ends as that function.
-/
import proofs.«174210_j74363063763024_1_alg».proof.Proof.Gen.KernelIdeal.Frame
import proofs.«174210_j74363063763024_1_alg».proof.Proof.BodyMsg
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros2 : (![0, 0] : Fin 2 → Nat) = fun _ => 0 := funext fun a => by fin_cases a <;> rfl

/-! ## The block indices, decided over the 250 points

The three row-indexed operands and the result move down the rows with the point; the weights and biases stay at
block zero. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-! ## Each input block, read off its array -/

/-- Window 0's block at point `t` is rows `6400 t … 6400 t + 6399` of its array. -/
theorem blk2_0 (c : Dev nD) (t : Fin cfg2.N) (p : Fin 6400) (k : Fin 64) (r : Fin 1600000)
    (hr : r.val = t.val * 6400 + p.val) :
    (iblk2 V c 0 t : FVec Ideal ⟨2, ![6400, 64]⟩ .f32) (ix2 p k)
      = (V c main_v85 : FVec Ideal ⟨2, ![1600000, 64]⟩ .f32) (ix2 r k) := by
  obtain ⟨e0, e1⟩ := idx2_0 t
  unfold iblk2
  rw [View.read_apply]
  show V c main_v85 _ = V c main_v85 _
  congr 1
  funext a
  apply Fin.ext
  match a with
  | ⟨0, _⟩ => show win2_0.index t (0 : Fin 2) * 6400 + 1 * p.val = r.val; rw [e0, hr]; omega
  | ⟨1, _⟩ => show win2_0.index t (1 : Fin 2) * 64 + 1 * k.val = k.val; rw [e1]; omega

/-- Window 1's block at point `t` is rows `6400 t … 6400 t + 6399` of its array. -/
theorem blk2_1 (c : Dev nD) (t : Fin cfg2.N) (p : Fin 6400) (k : Fin 64) (r : Fin 1600000)
    (hr : r.val = t.val * 6400 + p.val) :
    (iblk2 V c 1 t : FVec Ideal ⟨2, ![6400, 64]⟩ .f32) (ix2 p k)
      = (V c main_v92 : FVec Ideal ⟨2, ![1600000, 64]⟩ .f32) (ix2 r k) := by
  obtain ⟨e0, e1⟩ := idx2_1 t
  unfold iblk2
  rw [View.read_apply]
  show V c main_v92 _ = V c main_v92 _
  congr 1
  funext a
  apply Fin.ext
  match a with
  | ⟨0, _⟩ => show win2_1.index t (0 : Fin 2) * 6400 + 1 * p.val = r.val; rw [e0, hr]; omega
  | ⟨1, _⟩ => show win2_1.index t (1 : Fin 2) * 64 + 1 * k.val = k.val; rw [e1]; omega

/-- Window 2's block at point `t` is rows `6400 t … 6400 t + 6399` of its array. -/
theorem blk2_2 (c : Dev nD) (t : Fin cfg2.N) (p : Fin 6400) (k : Fin 1) (r : Fin 1600000)
    (hr : r.val = t.val * 6400 + p.val) :
    (iblk2 V c 2 t : FVec Ideal ⟨2, ![6400, 1]⟩ .f32) (ix2 p k)
      = (V c main_v37 : FVec Ideal ⟨2, ![1600000, 1]⟩ .f32) (ix2 r k) := by
  obtain ⟨e0, e1⟩ := idx2_2 t
  unfold iblk2
  rw [View.read_apply]
  show V c main_v37 _ = V c main_v37 _
  congr 1
  funext a
  apply Fin.ext
  match a with
  | ⟨0, _⟩ => show win2_2.index t (0 : Fin 2) * 6400 + 1 * p.val = r.val; rw [e0, hr]; omega
  | ⟨1, _⟩ => show win2_2.index t (1 : Fin 2) * 1 + 1 * k.val = k.val; rw [e1]; omega

/-- Window 3's block at every point is its whole array. -/
theorem blk2_3 (c : Dev nD) (t : Fin cfg2.N) :
    (iblk2 V c 3 t : FVec Ideal ⟨2, ![64, 64]⟩ .f32) = V c main_v94 := by
  obtain ⟨e0, e1⟩ := idx2_3 t
  funext y
  unfold iblk2
  rw [View.read_apply]
  show V c main_v94 _ = V c main_v94 y
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block at every point is its whole array. -/
theorem blk2_4 (c : Dev nD) (t : Fin cfg2.N) :
    (iblk2 V c 4 t : FVec Ideal ⟨2, ![1, 64]⟩ .f32) = V c main_v101 := by
  obtain ⟨e0, e1⟩ := idx2_4 t
  funext y
  unfold iblk2
  rw [View.read_apply]
  show V c main_v101 _ = V c main_v101 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Window 5's block at every point is its whole array. -/
theorem blk2_5 (c : Dev nD) (t : Fin cfg2.N) :
    (iblk2 V c 5 t : FVec Ideal ⟨2, ![64, 64]⟩ .f32) = V c main_v98 := by
  obtain ⟨e0, e1⟩ := idx2_5 t
  funext y
  unfold iblk2
  rw [View.read_apply]
  show V c main_v98 _ = V c main_v98 y
  congr 1
  funext a
  apply Fin.ext
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega

/-- Window 6's block at every point is its whole array. -/
theorem blk2_6 (c : Dev nD) (t : Fin cfg2.N) :
    (iblk2 V c 6 t : FVec Ideal ⟨2, ![1, 64]⟩ .f32) = V c main_v102 := by
  obtain ⟨e0, e1⟩ := idx2_6 t
  funext y
  unfold iblk2
  rw [View.read_apply]
  show V c main_v102 _ = V c main_v102 y
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

/-! ## What a point writes back, the cover, and the final array -/

/-- What point `t` writes back is block `t` of the message function of the whole operands. -/
theorem flushed_eq2 (c : Dev nD) (t : Fin cfg2.N) :
    (dat2 V c).flushed 7 t = ((cfg2.win 7).blk t).view.read (Elt Ideal) (msg (R := 1600000) (V c main_v85) (V c main_v92) (V c main_v37) (V c main_v94) (V c main_v101) (V c main_v98) (V c main_v102)) := by
  show (cfg2.win 7).cut (grid2.coords t) ((dat2 V c).after 7 t) = _
  rw [after2_7]
  unfold out2_7
  rw [View.canon_unit_zero zeros2]
  simp only [View.ld_unit_zero (S := S6400x64) zeros2, View.ld_unit_zero (S := S6400x1) zeros2,
    View.ld_unit_zero (S := S64x64) zeros2, View.ld_unit_zero (S := S1x64) zeros2]
  rw [pay_msg2, blk2_3 V c t, blk2_4 V c t, blk2_5 V c t, blk2_6 V c t]
  obtain ⟨e0, e1⟩ := idx2_7 t
  funext j
  have hi0 : ((((cfg2.win 7).blk t).view.emb j) 0).val = t.val * 6400 + (j 0).val := by
    show win2_7.index t (0 : Fin 2) * 6400 + 1 * (j 0).val = _
    rw [e0]; omega
  have hi1 : ((((cfg2.win 7).blk t).view.emb j) 1).val = (j 1).val := by
    show win2_7.index t (1 : Fin 2) * 64 + 1 * (j 1).val = _
    rw [e1]; omega
  have ej : j = ix2 (j 0) (j 1) := eq_ix2 j
  have ei : ((cfg2.win 7).blk t).view.emb j = ix2 ((((cfg2.win 7).blk t).view.emb j) 0) (j 1) :=
    funext fun a => Fin.ext (by match a with | ⟨0, _⟩ => rfl | ⟨1, _⟩ => exact hi1)
  show msg (R := 6400) (iblk2 V c 0 t) (iblk2 V c 1 t) (iblk2 V c 2 t) (V c main_v94) (V c main_v101) (V c main_v98) (V c main_v102) j
    = msg (R := 1600000) (V c main_v85) (V c main_v92) (V c main_v37) (V c main_v94) (V c main_v101) (V c main_v98) (V c main_v102) (((cfg2.win 7).blk t).view.emb j)
  rw [ei]
  refine (congrArg _ ej).trans ?_
  exact msg_congr_row (V c main_v85) (V c main_v92) (V c main_v37) (iblk2 V c 0 t) (iblk2 V c 1 t) (iblk2 V c 2 t)
    (V c main_v94) (V c main_v101) (V c main_v98) (V c main_v102) ((((cfg2.win 7).blk t).view.emb j) 0) (j 0) (j 1)
    (fun k => blk2_0 V c t (j 0) k _ hi0) (fun k => blk2_1 V c t (j 0) k _ hi0) (blk2_2 V c t (j 0) 0 _ hi0)

/-- An index of the result array is in point `t`'s block iff each coordinate is in the block's range on its axis. -/
theorem mem_blk2 (t : Fin cfg2.N) (i : S1600000x64.Idx) :
    i ∈ ((cfg2.win 7).blk t).view.set ↔ ∀ a : Fin 2, win2_7.index t a * S6400x64.size a ≤ (i a).val
      ∧ (i a).val < win2_7.index t a * S6400x64.size a + S6400x64.size a := by
  show i ∈ ((View.whole main_v103).slice (win2_7.rect t)).set ↔ _
  rw [View.set_slice_whole, Rect.mem_set_unit]
  exact Iff.rfl

/-- Every row of the result is in some point's block: row `r` in the block of point `r / 6400`. -/
theorem cover2 (i : S1600000x64.Idx) :
    ∃ t : Fin cfg2.N, (cfg2.win 7).flush t = true ∧ i ∈ ((cfg2.win 7).blk t).view.set := by
  have hi0 : (i 0).val < 1600000 := (i 0).isLt
  have hi1 : (i 1).val < 64 := (i 1).isLt
  have hN : cfg2.N = 250 := N_2
  refine ⟨⟨(i 0).val / 6400, by rw [hN]; omega⟩, flush2_7 _, ?_⟩
  rw [mem_blk2]
  obtain ⟨e0, e1⟩ := idx2_7 ⟨(i 0).val / 6400, by rw [hN]; omega⟩
  intro a
  match a with
  | ⟨0, _⟩ =>
    show win2_7.index _ (0 : Fin 2) * 6400 ≤ (i 0).val ∧ (i 0).val < win2_7.index _ (0 : Fin 2) * 6400 + 6400
    rw [e0]; show (i 0).val / 6400 * 6400 ≤ (i 0).val ∧ (i 0).val < (i 0).val / 6400 * 6400 + 6400; omega
  | ⟨1, _⟩ =>
    show win2_7.index _ (1 : Fin 2) * 64 ≤ (i 1).val ∧ (i 1).val < win2_7.index _ (1 : Fin 2) * 64 + 64
    rw [e1]; omega

/-- The array the launch leaves: the message function of the operands as the launch finds them. -/
theorem final2 (c : Dev nD) :
    (dat2 (F := Ideal) V c).arrAt 7 cfg2.N = msg (R := 1600000) (V c main_v85) (V c main_v92) (V c main_v37) (V c main_v94) (V c main_v101) (V c main_v98) (V c main_v102) :=
  (dat2 V c).arrAt_eq_of_cover 7 (msg (R := 1600000) (V c main_v85) (V c main_v92) (V c main_v37) (V c main_v94) (V c main_v101) (V c main_v98) (V c main_v102)) (fun t _ => flushed_eq2 V c t) (cover2)

end Cert.KernelIdeal.RegionValue

end
-- ==== Proof.Region3.lean ====
/-
  The second node-update launch: the array it leaves behind.

  The launch runs 10 grid points. Point `t` loads rows `10000 t … 10000 t + 9999` of the aggregated messages and of the
  node features, together with the whole weight matrix and the bias row, and writes rows `10000 t … 10000 t + 9999` of
  the result. A row of updates depends on the same row of the two row-indexed operands only, so what point `t` writes
  is its block of ONE array: the update function of the whole operands, as the launch finds them. The 10 blocks tile
  the 100000 rows (row `r` lies in the block of point `r / 10000`), so the array ends as that function.
-/
import proofs.«174210_j74363063763024_1_alg».proof.Proof.Gen.KernelIdeal.Frame
import proofs.«174210_j74363063763024_1_alg».proof.Proof.BodyUpd
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros3 : (![0, 0] : Fin 2 → Nat) = fun _ => 0 := funext fun a => by fin_cases a <;> rfl

/-! ## The block indices, decided over the 10 points

The two row-indexed operands and the result move down the rows with the point; the weights and the bias stay at
block zero. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)

/-! ## Each input block, read off its array -/

/-- Window 0's block at point `t` is rows `10000 t … 10000 t + 9999` of its array. -/
theorem blk3_0 (c : Dev nD) (t : Fin cfg3.N) (p : Fin 10000) (k : Fin 64) (r : Fin 100000)
    (hr : r.val = t.val * 10000 + p.val) :
    (iblk3 V c 0 t : FVec Ideal ⟨2, ![10000, 64]⟩ .f32) (ix2 p k)
      = (V c main_v111 : FVec Ideal ⟨2, ![100000, 64]⟩ .f32) (ix2 r k) := by
  obtain ⟨e0, e1⟩ := idx3_0 t
  unfold iblk3
  rw [View.read_apply]
  show V c main_v111 _ = V c main_v111 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Window 1's block at point `t` is rows `10000 t … 10000 t + 9999` of its array. -/
theorem blk3_1 (c : Dev nD) (t : Fin cfg3.N) (p : Fin 10000) (k : Fin 64) (r : Fin 100000)
    (hr : r.val = t.val * 10000 + p.val) :
    (iblk3 V c 1 t : FVec Ideal ⟨2, ![10000, 64]⟩ .f32) (ix2 p k)
      = (V c main_v78 : FVec Ideal ⟨2, ![100000, 64]⟩ .f32) (ix2 r k) := by
  obtain ⟨e0, e1⟩ := idx3_1 t
  unfold iblk3
  rw [View.read_apply]
  show V c main_v78 _ = V c main_v78 _
  congr 1
  funext a
  apply Fin.ext
  match a with
  | ⟨0, _⟩ => show win3_1.index t (0 : Fin 2) * 10000 + 1 * p.val = r.val; rw [e0, hr]; omega
  | ⟨1, _⟩ => show win3_1.index t (1 : Fin 2) * 64 + 1 * k.val = k.val; rw [e1]; omega

/-- Window 2's block at every point is its whole array. -/
theorem blk3_2 (c : Dev nD) (t : Fin cfg3.N) :
    (iblk3 V c 2 t : FVec Ideal ⟨2, ![64, 64]⟩ .f32) = V c main_v113 := by
  obtain ⟨e0, e1⟩ := idx3_2 t
  funext y
  unfold iblk3
  rw [View.read_apply]
  show V c main_v113 _ = V c main_v113 y
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- Window 3's block at every point is its whole array. -/
theorem blk3_3 (c : Dev nD) (t : Fin cfg3.N) :
    (iblk3 V c 3 t : FVec Ideal ⟨2, ![1, 64]⟩ .f32) = V c main_v116 := by
  obtain ⟨e0, e1⟩ := idx3_3 t
  funext y
  unfold iblk3
  rw [View.read_apply]
  show V c main_v116 _ = V c main_v116 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-! ## What a point writes back, the cover, and the final array -/

/-- What point `t` writes back is block `t` of the update function of the whole operands. -/
theorem flushed_eq3 (c : Dev nD) (t : Fin cfg3.N) :
    (dat3 V c).flushed 4 t = ((cfg3.win 4).blk t).view.read (Elt Ideal) (upd (R := 100000) (V c main_v111) (V c main_v78) (V c main_v113) (V c main_v116)) := by
  show (cfg3.win 4).cut (grid3.coords t) ((dat3 V c).after 4 t) = _
  rw [after3_4]
  unfold out3_4
  rw [View.canon_unit_zero zeros3]
  simp only [View.ld_unit_zero (S := S10000x64) zeros3, View.ld_unit_zero (S := S64x64) zeros3,
    View.ld_unit_zero (S := S1x64) zeros3]
  rw [pay_upd3, blk3_2 V c t, blk3_3 V c t]
  obtain ⟨e0, e1⟩ := idx3_4 t
  funext j
  have hi0 : ((((cfg3.win 4).blk t).view.emb j) 0).val = t.val * 10000 + (j 0).val := by
    show win3_4.index t (0 : Fin 2) * 10000 + 1 * (j 0).val = _
    rw [e0]; omega
  have hi1 : ((((cfg3.win 4).blk t).view.emb j) 1).val = (j 1).val := by
    show win3_4.index t (1 : Fin 2) * 64 + 1 * (j 1).val = _
    rw [e1]; omega
  have ej : j = ix2 (j 0) (j 1) := eq_ix2 j
  have ei : ((cfg3.win 4).blk t).view.emb j = ix2 ((((cfg3.win 4).blk t).view.emb j) 0) (j 1) :=
    funext fun a => Fin.ext (by match a with | ⟨0, _⟩ => rfl | ⟨1, _⟩ => exact hi1)
  show upd (R := 10000) (iblk3 V c 0 t) (iblk3 V c 1 t) (V c main_v113) (V c main_v116) j
    = upd (R := 100000) (V c main_v111) (V c main_v78) (V c main_v113) (V c main_v116) (((cfg3.win 4).blk t).view.emb j)
  rw [ei]
  refine (congrArg _ ej).trans ?_
  exact upd_congr_row (V c main_v111) (V c main_v78) (iblk3 V c 0 t) (iblk3 V c 1 t)
    (V c main_v113) (V c main_v116) ((((cfg3.win 4).blk t).view.emb j) 0) (j 0) (j 1)
    (blk3_0 V c t (j 0) (j 1) _ hi0) (fun k => blk3_1 V c t (j 0) k _ hi0)

/-- An index of the result array is in point `t`'s block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v117).slice (win3_4.rect t)).set ↔ _
  rw [View.set_slice_whole, Rect.mem_set_unit]
  exact Iff.rfl

/-- Every row of the result is in some point's block: row `r` in the block of point `r / 10000`. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  rw [mem_blk3]
  obtain ⟨e0, e1⟩ := idx3_4 ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [e0]; show (i 0).val / 10000 * 10000 ≤ (i 0).val ∧ (i 0).val < (i 0).val / 10000 * 10000 + 10000; omega
  | ⟨1, _⟩ =>
    show win3_4.index _ (1 : Fin 2) * 64 ≤ (i 1).val ∧ (i 1).val < win3_4.index _ (1 : Fin 2) * 64 + 64
    rw [e1]; omega

/-- The array the launch leaves: the update function of the operands as the launch finds them. -/
theorem final3 (c : Dev nD) :
    (dat3 (F := Ideal) V c).arrAt 4 cfg3.N = upd (R := 100000) (V c main_v111) (V c main_v78) (V c main_v113) (V c main_v116) :=
  (dat3 V c).arrAt_eq_of_cover 4 (upd (R := 100000) (V c main_v111) (V c main_v78) (V c main_v113) (V c main_v116)) (fun t _ => flushed_eq3 V c t) (cover3)

end Cert.KernelIdeal.RegionValue

end
-- ==== Proof.Region4.lean ====
/-
  The third edge-message launch: the array it leaves behind.

  The launch runs 250 grid points. Point `t` loads rows `6400 t … 6400 t + 6399` of the source rows, of the target
  rows and of the coefficient column, together with the whole of the two weight matrices and the two bias rows, and
  writes rows `6400 t … 6400 t + 6399` of the result. A row of messages depends on the same row of the three
  row-indexed operands only, so what point `t` writes is its block of ONE array: the message function of the whole
  operands, as the launch finds them. The 250 blocks tile the 1600000 rows (row `r` lies in the block of point
  `r / 6400`), so the array ends as that function.
-/
import proofs.«174210_j74363063763024_1_alg».proof.Proof.Gen.KernelIdeal.Frame
import proofs.«174210_j74363063763024_1_alg».proof.Proof.BodyMsg
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros4 : (![0, 0] : Fin 2 → Nat) = fun _ => 0 := funext fun a => by fin_cases a <;> rfl

/-! ## The block indices, decided over the 250 points

The three row-indexed operands and the result move down the rows with the point; the weights and biases stay at
block zero. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)

/-! ## Each input block, read off its array -/

/-- Window 0's block at point `t` is rows `6400 t … 6400 t + 6399` of its array. -/
theorem blk4_0 (c : Dev nD) (t : Fin cfg4.N) (p : Fin 6400) (k : Fin 64) (r : Fin 1600000)
    (hr : r.val = t.val * 6400 + p.val) :
    (iblk4 V c 0 t : FVec Ideal ⟨2, ![6400, 64]⟩ .f32) (ix2 p k)
      = (V c main_v124 : FVec Ideal ⟨2, ![1600000, 64]⟩ .f32) (ix2 r k) := by
  obtain ⟨e0, e1⟩ := idx4_0 t
  unfold iblk4
  rw [View.read_apply]
  show V c main_v124 _ = V c main_v124 _
  congr 1
  funext a
  apply Fin.ext
  match a with
  | ⟨0, _⟩ => show win4_0.index t (0 : Fin 2) * 6400 + 1 * p.val = r.val; rw [e0, hr]; omega
  | ⟨1, _⟩ => show win4_0.index t (1 : Fin 2) * 64 + 1 * k.val = k.val; rw [e1]; omega

/-- Window 1's block at point `t` is rows `6400 t … 6400 t + 6399` of its array. -/
theorem blk4_1 (c : Dev nD) (t : Fin cfg4.N) (p : Fin 6400) (k : Fin 64) (r : Fin 1600000)
    (hr : r.val = t.val * 6400 + p.val) :
    (iblk4 V c 1 t : FVec Ideal ⟨2, ![6400, 64]⟩ .f32) (ix2 p k)
      = (V c main_v131 : FVec Ideal ⟨2, ![1600000, 64]⟩ .f32) (ix2 r k) := by
  obtain ⟨e0, e1⟩ := idx4_1 t
  unfold iblk4
  rw [View.read_apply]
  show V c main_v131 _ = V c main_v131 _
  congr 1
  funext a
  apply Fin.ext
  match a with
  | ⟨0, _⟩ => show win4_1.index t (0 : Fin 2) * 6400 + 1 * p.val = r.val; rw [e0, hr]; omega
  | ⟨1, _⟩ => show win4_1.index t (1 : Fin 2) * 64 + 1 * k.val = k.val; rw [e1]; omega

/-- Window 2's block at point `t` is rows `6400 t … 6400 t + 6399` of its array. -/
theorem blk4_2 (c : Dev nD) (t : Fin cfg4.N) (p : Fin 6400) (k : Fin 1) (r : Fin 1600000)
    (hr : r.val = t.val * 6400 + p.val) :
    (iblk4 V c 2 t : FVec Ideal ⟨2, ![6400, 1]⟩ .f32) (ix2 p k)
      = (V c main_v37 : FVec Ideal ⟨2, ![1600000, 1]⟩ .f32) (ix2 r k) := by
  obtain ⟨e0, e1⟩ := idx4_2 t
  unfold iblk4
  rw [View.read_apply]
  show V c main_v37 _ = V c main_v37 _
  congr 1
  funext a
  apply Fin.ext
  match a with
  | ⟨0, _⟩ => show win4_2.index t (0 : Fin 2) * 6400 + 1 * p.val = r.val; rw [e0, hr]; omega
  | ⟨1, _⟩ => show win4_2.index t (1 : Fin 2) * 1 + 1 * k.val = k.val; rw [e1]; omega

/-- Window 3's block at every point is its whole array. -/
theorem blk4_3 (c : Dev nD) (t : Fin cfg4.N) :
    (iblk4 V c 3 t : FVec Ideal ⟨2, ![64, 64]⟩ .f32) = V c main_v133 := by
  obtain ⟨e0, e1⟩ := idx4_3 t
  funext y
  unfold iblk4
  rw [View.read_apply]
  show V c main_v133 _ = V c main_v133 y
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- Window 4's block at every point is its whole array. -/
theorem blk4_4 (c : Dev nD) (t : Fin cfg4.N) :
    (iblk4 V c 4 t : FVec Ideal ⟨2, ![1, 64]⟩ .f32) = V c main_v140 := by
  obtain ⟨e0, e1⟩ := idx4_4 t
  funext y
  unfold iblk4
  rw [View.read_apply]
  show V c main_v140 _ = V c main_v140 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- Window 5's block at every point is its whole array. -/
theorem blk4_5 (c : Dev nD) (t : Fin cfg4.N) :
    (iblk4 V c 5 t : FVec Ideal ⟨2, ![64, 64]⟩ .f32) = V c main_v137 := by
  obtain ⟨e0, e1⟩ := idx4_5 t
  funext y
  unfold iblk4
  rw [View.read_apply]
  show V c main_v137 _ = V c main_v137 y
  congr 1
  funext a
  apply Fin.ext
  match a with
  | ⟨0, _⟩ => show win4_5.index t (0 : Fin 2) * 64 + 1 * (y 0).val = (y 0).val; rw [e0]; omega
  | ⟨1, _⟩ => show win4_5.index t (1 : Fin 2) * 64 + 1 * (y 1).val = (y 1).val; rw [e1]; omega

/-- Window 6's block at every point is its whole array. -/
theorem blk4_6 (c : Dev nD) (t : Fin cfg4.N) :
    (iblk4 V c 6 t : FVec Ideal ⟨2, ![1, 64]⟩ .f32) = V c main_v141 := by
  obtain ⟨e0, e1⟩ := idx4_6 t
  funext y
  unfold iblk4
  rw [View.read_apply]
  show V c main_v141 _ = V c main_v141 y
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 64 + 1 * (y 1).val = (y 1).val; rw [e1]; omega

/-! ## What a point writes back, the cover, and the final array -/

/-- What point `t` writes back is block `t` of the message function of the whole operands. -/
theorem flushed_eq4 (c : Dev nD) (t : Fin cfg4.N) :
    (dat4 V c).flushed 7 t = ((cfg4.win 7).blk t).view.read (Elt Ideal) (msg (R := 1600000) (V c main_v124) (V c main_v131) (V c main_v37) (V c main_v133) (V c main_v140) (V c main_v137) (V c main_v141)) := by
  show (cfg4.win 7).cut (grid4.coords t) ((dat4 V c).after 7 t) = _
  rw [after4_7]
  unfold out4_7
  rw [View.canon_unit_zero zeros4]
  simp only [View.ld_unit_zero (S := S6400x64) zeros4, View.ld_unit_zero (S := S6400x1) zeros4,
    View.ld_unit_zero (S := S64x64) zeros4, View.ld_unit_zero (S := S1x64) zeros4]
  rw [pay_msg4, blk4_3 V c t, blk4_4 V c t, blk4_5 V c t, blk4_6 V c t]
  obtain ⟨e0, e1⟩ := idx4_7 t
  funext j
  have hi0 : ((((cfg4.win 7).blk t).view.emb j) 0).val = t.val * 6400 + (j 0).val := by
    show win4_7.index t (0 : Fin 2) * 6400 + 1 * (j 0).val = _
    rw [e0]; omega
  have hi1 : ((((cfg4.win 7).blk t).view.emb j) 1).val = (j 1).val := by
    show win4_7.index t (1 : Fin 2) * 64 + 1 * (j 1).val = _
    rw [e1]; omega
  have ej : j = ix2 (j 0) (j 1) := eq_ix2 j
  have ei : ((cfg4.win 7).blk t).view.emb j = ix2 ((((cfg4.win 7).blk t).view.emb j) 0) (j 1) :=
    funext fun a => Fin.ext (by match a with | ⟨0, _⟩ => rfl | ⟨1, _⟩ => exact hi1)
  show msg (R := 6400) (iblk4 V c 0 t) (iblk4 V c 1 t) (iblk4 V c 2 t) (V c main_v133) (V c main_v140) (V c main_v137) (V c main_v141) j
    = msg (R := 1600000) (V c main_v124) (V c main_v131) (V c main_v37) (V c main_v133) (V c main_v140) (V c main_v137) (V c main_v141) (((cfg4.win 7).blk t).view.emb j)
  rw [ei]
  refine (congrArg _ ej).trans ?_
  exact msg_congr_row (V c main_v124) (V c main_v131) (V c main_v37) (iblk4 V c 0 t) (iblk4 V c 1 t) (iblk4 V c 2 t)
    (V c main_v133) (V c main_v140) (V c main_v137) (V c main_v141) ((((cfg4.win 7).blk t).view.emb j) 0) (j 0) (j 1)
    (fun k => blk4_0 V c t (j 0) k _ hi0) (fun k => blk4_1 V c t (j 0) k _ hi0) (blk4_2 V c t (j 0) 0 _ hi0)

/-- An index of the result array is in point `t`'s block iff each coordinate is in the block's range on its axis. -/
theorem mem_blk4 (t : Fin cfg4.N) (i : S1600000x64.Idx) :
    i ∈ ((cfg4.win 7).blk t).view.set ↔ ∀ a : Fin 2, win4_7.index t a * S6400x64.size a ≤ (i a).val
      ∧ (i a).val < win4_7.index t a * S6400x64.size a + S6400x64.size a := by
  show i ∈ ((View.whole main_v142).slice (win4_7.rect t)).set ↔ _
  rw [View.set_slice_whole, Rect.mem_set_unit]
  exact Iff.rfl

/-- Every row of the result is in some point's block: row `r` in the block of point `r / 6400`. -/
theorem cover4 (i : S1600000x64.Idx) :
    ∃ t : Fin cfg4.N, (cfg4.win 7).flush t = true ∧ i ∈ ((cfg4.win 7).blk t).view.set := by
  have hi0 : (i 0).val < 1600000 := (i 0).isLt
  have hi1 : (i 1).val < 64 := (i 1).isLt
  have hN : cfg4.N = 250 := N_4
  refine ⟨⟨(i 0).val / 6400, by rw [hN]; omega⟩, flush4_7 _, ?_⟩
  rw [mem_blk4]
  obtain ⟨e0, e1⟩ := idx4_7 ⟨(i 0).val / 6400, by rw [hN]; omega⟩
  intro a
  match a with
  | ⟨0, _⟩ =>
    show win4_7.index _ (0 : Fin 2) * 6400 ≤ (i 0).val ∧ (i 0).val < win4_7.index _ (0 : Fin 2) * 6400 + 6400
    rw [e0]; show (i 0).val / 6400 * 6400 ≤ (i 0).val ∧ (i 0).val < (i 0).val / 6400 * 6400 + 6400; omega
  | ⟨1, _⟩ =>
    show win4_7.index _ (1 : Fin 2) * 64 ≤ (i 1).val ∧ (i 1).val < win4_7.index _ (1 : Fin 2) * 64 + 64
    rw [e1]; omega

/-- The array the launch leaves: the message function of the operands as the launch finds them. -/
theorem final4 (c : Dev nD) :
    (dat4 (F := Ideal) V c).arrAt 7 cfg4.N = msg (R := 1600000) (V c main_v124) (V c main_v131) (V c main_v37) (V c main_v133) (V c main_v140) (V c main_v137) (V c main_v141) :=
  (dat4 V c).arrAt_eq_of_cover 7 (msg (R := 1600000) (V c main_v124) (V c main_v131) (V c main_v37) (V c main_v133) (V c main_v140) (V c main_v137) (V c main_v141)) (fun t _ => flushed_eq4 V c t) (cover4)

end Cert.KernelIdeal.RegionValue

end
-- ==== Proof.Region5.lean ====
/-
  The third node-update launch: the array it leaves behind.

  The launch runs 10 grid points. Point `t` loads rows `10000 t … 10000 t + 9999` of the aggregated messages and of the
  node features, together with the whole weight matrix and the bias row, and writes rows `10000 t … 10000 t + 9999` of
  the result. A row of updates depends on the same row of the two row-indexed operands only, so what point `t` writes
  is its block of ONE array: the update function of the whole operands, as the launch finds them. The 10 blocks tile
  the 100000 rows (row `r` lies in the block of point `r / 10000`), so the array ends as that function.
-/
import proofs.«174210_j74363063763024_1_alg».proof.Proof.Gen.KernelIdeal.Frame
import proofs.«174210_j74363063763024_1_alg».proof.Proof.BodyUpd
import Idealize.ShloMosaic.Lib.Pipeline.Value

noncomputable section

namespace Cert.KernelIdeal.RegionValue

open Cert.KernelIdeal Cert.KernelIdeal.Gen Cert.EdgeConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeros5 : (![0, 0] : Fin 2 → Nat) = fun _ => 0 := funext fun a => by fin_cases a <;> rfl

/-! ## The block indices, decided over the 10 points

The two row-indexed operands and the result move down the rows with the point; the weights and the bias stay at
block zero. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = t.val ∧ win5_4.index t (1 : Fin 2) = 0 :=
  (by decide +kernel : ∀ t : Fin grid5.N, _)

/-! ## Each input block, read off its array -/

/-- Window 0's block at point `t` is rows `10000 t … 10000 t + 9999` of its array. -/
theorem blk5_0 (c : Dev nD) (t : Fin cfg5.N) (p : Fin 10000) (k : Fin 64) (r : Fin 100000)
    (hr : r.val = t.val * 10000 + p.val) :
    (iblk5 V c 0 t : FVec Ideal ⟨2, ![10000, 64]⟩ .f32) (ix2 p k)
      = (V c main_v150 : FVec Ideal ⟨2, ![100000, 64]⟩ .f32) (ix2 r k) := by
  obtain ⟨e0, e1⟩ := idx5_0 t
  unfold iblk5
  rw [View.read_apply]
  show V c main_v150 _ = V c main_v150 _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 64 + 1 * k.val = k.val; rw [e1]; omega

/-- Window 1's block at point `t` is rows `10000 t … 10000 t + 9999` of its array. -/
theorem blk5_1 (c : Dev nD) (t : Fin cfg5.N) (p : Fin 10000) (k : Fin 64) (r : Fin 100000)
    (hr : r.val = t.val * 10000 + p.val) :
    (iblk5 V c 1 t : FVec Ideal ⟨2, ![10000, 64]⟩ .f32) (ix2 p k)
      = (V c main_v117 : FVec Ideal ⟨2, ![100000, 64]⟩ .f32) (ix2 r k) := by
  obtain ⟨e0, e1⟩ := idx5_1 t
  unfold iblk5
  rw [View.read_apply]
  show V c main_v117 _ = V c main_v117 _
  congr 1
  funext a
  apply Fin.ext
  match a with
  | ⟨0, _⟩ => show win5_1.index t (0 : Fin 2) * 10000 + 1 * p.val = r.val; rw [e0, hr]; omega
  | ⟨1, _⟩ => show win5_1.index t (1 : Fin 2) * 64 + 1 * k.val = k.val; rw [e1]; omega

/-- Window 2's block at every point is its whole array. -/
theorem blk5_2 (c : Dev nD) (t : Fin cfg5.N) :
    (iblk5 V c 2 t : FVec Ideal ⟨2, ![64, 64]⟩ .f32) = V c main_v152 := by
  obtain ⟨e0, e1⟩ := idx5_2 t
  funext y
  unfold iblk5
  rw [View.read_apply]
  show V c main_v152 _ = V c main_v152 y
  congr 1
  funext a
  apply Fin.ext
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- Window 3's block at every point is its whole array. -/
theorem blk5_3 (c : Dev nD) (t : Fin cfg5.N) :
    (iblk5 V c 3 t : FVec Ideal ⟨2, ![1, 64]⟩ .f32) = V c main_v155 := by
  obtain ⟨e0, e1⟩ := idx5_3 t
  funext y
  unfold iblk5
  rw [View.read_apply]
  show V c main_v155 _ = V c main_v155 y
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-! ## What a point writes back, the cover, and the final array -/

/-- What point `t` writes back is block `t` of the update function of the whole operands. -/
theorem flushed_eq5 (c : Dev nD) (t : Fin cfg5.N) :
    (dat5 V c).flushed 4 t = ((cfg5.win 4).blk t).view.read (Elt Ideal) (upd (R := 100000) (V c main_v150) (V c main_v117) (V c main_v152) (V c main_v155)) := by
  show (cfg5.win 4).cut (grid5.coords t) ((dat5 V c).after 4 t) = _
  rw [after5_4]
  unfold out5_4
  rw [View.canon_unit_zero zeros5]
  simp only [View.ld_unit_zero (S := S10000x64) zeros5, View.ld_unit_zero (S := S64x64) zeros5,
    View.ld_unit_zero (S := S1x64) zeros5]
  rw [pay_upd5, blk5_2 V c t, blk5_3 V c t]
  obtain ⟨e0, e1⟩ := idx5_4 t
  funext j
  have hi0 : ((((cfg5.win 4).blk t).view.emb j) 0).val = t.val * 10000 + (j 0).val := by
    show win5_4.index t (0 : Fin 2) * 10000 + 1 * (j 0).val = _
    rw [e0]; omega
  have hi1 : ((((cfg5.win 4).blk t).view.emb j) 1).val = (j 1).val := by
    show win5_4.index t (1 : Fin 2) * 64 + 1 * (j 1).val = _
    rw [e1]; omega
  have ej : j = ix2 (j 0) (j 1) := eq_ix2 j
  have ei : ((cfg5.win 4).blk t).view.emb j = ix2 ((((cfg5.win 4).blk t).view.emb j) 0) (j 1) :=
    funext fun a => Fin.ext (by match a with | ⟨0, _⟩ => rfl | ⟨1, _⟩ => exact hi1)
  show upd (R := 10000) (iblk5 V c 0 t) (iblk5 V c 1 t) (V c main_v152) (V c main_v155) j
    = upd (R := 100000) (V c main_v150) (V c main_v117) (V c main_v152) (V c main_v155) (((cfg5.win 4).blk t).view.emb j)
  rw [ei]
  refine (congrArg _ ej).trans ?_
  exact upd_congr_row (V c main_v150) (V c main_v117) (iblk5 V c 0 t) (iblk5 V c 1 t)
    (V c main_v152) (V c main_v155) ((((cfg5.win 4).blk t).view.emb j) 0) (j 0) (j 1)
    (blk5_0 V c t (j 0) (j 1) _ hi0) (fun k => blk5_1 V c t (j 0) k _ hi0)

/-- An index of the result array is in point `t`'s block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v156).slice (win5_4.rect t)).set ↔ _
  rw [View.set_slice_whole, Rect.mem_set_unit]
  exact Iff.rfl

/-- Every row of the result is in some point's block: row `r` in the block of point `r / 10000`. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_4 _, ?_⟩
  rw [mem_blk5]
  obtain ⟨e0, e1⟩ := idx5_4 ⟨(i 0).val / 10000, by rw [hN]; omega⟩
  intro a
  match a with
  | ⟨0, _⟩ =>
    show win5_4.index _ (0 : Fin 2) * 10000 ≤ (i 0).val ∧ (i 0).val < win5_4.index _ (0 : Fin 2) * 10000 + 10000
    rw [e0]; show (i 0).val / 10000 * 10000 ≤ (i 0).val ∧ (i 0).val < (i 0).val / 10000 * 10000 + 10000; omega
  | ⟨1, _⟩ =>
    show win5_4.index _ (1 : Fin 2) * 64 ≤ (i 1).val ∧ (i 1).val < win5_4.index _ (1 : Fin 2) * 64 + 64
    rw [e1]; omega

/-- The array the launch leaves: the update function of the operands as the launch finds them. -/
theorem final5 (c : Dev nD) :
    (dat5 (F := Ideal) V c).arrAt 4 cfg5.N = upd (R := 100000) (V c main_v150) (V c main_v117) (V c main_v152) (V c main_v155) :=
  (dat5 V c).arrAt_eq_of_cover 4 (upd (R := 100000) (V c main_v150) (V c main_v117) (V c main_v152) (V c main_v155)) (fun t _ => flushed_eq5 V c t) (cover5)

end Cert.KernelIdeal.RegionValue

end
-- ==== Proof.RefOps.lean ====
/-
  The reference program's @main as a list of host operations, and its run.

  @main is a straight line of host operations with four calls of module-local functions; a call runs the callee's
  operations on the caller's operand buffers and on buffers of its own, so the whole program is one list: the callee's
  operations stand at the call site, over the call's buffers. The list is given window by window, as the program is
  printed; each window of the program is the line of its list, and the program is the line of the concatenation. Every
  operation touches TensorCore tensor buffers only and determines its result, so from any memory with zero counters
  every weakly fair execution terminates with each buffer at the fold of the operations' results over the launch
  contents.
-/
import proofs.«174210_j74363063763024_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, in order, each call replaced by its callee's operations over the call's buffers. -/
abbrev ops0 : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_cst_0 (constant S_ .f32 0x3F800000#32),
    StableHlo.unary main_cst_0 main_v5 (broadcastInDim S1600000 ![] bcast_S_S1600000 : (⟨S_, .f32⟩ : BufTy).Contents (Elt F) → (⟨S1600000, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v3 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v8 (broadcastInDim S1600000 ![] bcast_S_S1600000 : (⟨S_, .i32⟩ : BufTy).Contents (Elt F) → (⟨S1600000, .i32⟩ : BufTy).Contents (Elt F)),
    StableHlo.binary main_v3 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.ternary main_v4 main_v11 main_v5 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.sqrt : (⟨S100000, .f32⟩ : BufTy).Contents (Elt F) → (⟨S100000, .f32⟩ : BufTy).Contents (Elt F)),
    StableHlo.nullary main_cst_4 (constant S_ .f32 0x3F800000#32),
    StableHlo.unary main_cst_4 main_v18 (broadcastInDim S100000 ![] bcast_S_S100000 : (⟨S_, .f32⟩ : BufTy).Contents (Elt F) → (⟨S100000, .f32⟩ : BufTy).Contents (Elt F)),
    StableHlo.binary main_v18 main_v17 main_v19 (Host.divf : (⟨S100000, .f32⟩ : BufTy).Contents (Elt F) → (⟨S100000, .f32⟩ : BufTy).Contents (Elt F) → (⟨S100000, .f32⟩ : BufTy).Contents (Elt F)),
    StableHlo.nullary main_cst_5 (constant S_ .f32 0x00000000#32),
    StableHlo.TRef.unary (.of main_cst_5 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v14 : StableHlo.TRef sig ⟨S100000, .i1⟩) (.of main_v19 : StableHlo.TRef sig ⟨S100000, .f32⟩) (.of main_call0_v1 : StableHlo.TRef sig ⟨S100000, .f32⟩) (.of main_v20 : StableHlo.TRef sig ⟨S100000, .f32⟩) select,
    StableHlo.nullary main_c_6 (constantI S_ 32 0#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_v1 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v23 (broadcastInDim S1600000 ![] bcast_S_S1600000 : (⟨S_, .i32⟩ : BufTy).Contents (Elt F) → (⟨S1600000, .i32⟩ : BufTy).Contents (Elt F)),
    StableHlo.binary main_v1 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v20 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_8 (constantI S_ 32 0#32),
    StableHlo.unary main_c_8 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v20 main_v33 main_v34 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v27 main_v34 main_v35 (mulf : (⟨S1600000, .f32⟩ : BufTy).Contents (Elt F) → (⟨S1600000, .f32⟩ : BufTy).Contents (Elt F) → (⟨S1600000, .f32⟩ : BufTy).Contents (Elt F)),
    StableHlo.binary main_v35 main_arg1 main_v36 (mulf : (⟨S1600000, .f32⟩ : BufTy).Contents (Elt F) → (⟨S1600000, .f32⟩ : BufTy).Contents (Elt F) → (⟨S1600000, .f32⟩ : BufTy).Contents (Elt F)),
    StableHlo.nullary main_c_10 (constantI S_ 32 0#32),
    StableHlo.unary main_c_10 main_v37 (broadcastInDim S1600000 ![] bcast_S_S1600000 : (⟨S_, .i32⟩ : BufTy).Contents (Elt F) → (⟨S1600000, .i32⟩ : BufTy).Contents (Elt F)),
    StableHlo.binary main_v1 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v39 (broadcastInDim S1600000 ![] bcast_S_S1600000 : (⟨S_, .i32⟩ : BufTy).Contents (Elt F) → (⟨S1600000, .i32⟩ : BufTy).Contents (Elt F)),
    StableHlo.binary main_v1 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_arg2 main_v42 main_v43 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_12 (constantI S_ 32 0#32),
    StableHlo.unary main_c_12 main_v44 (broadcastInDim S1600000 ![] bcast_S_S1600000 : (⟨S_, .i32⟩ : BufTy).Contents (Elt F) → (⟨S1600000, .i32⟩ : BufTy).Contents (Elt F)) ]

/-- The operations of @main's statements 61 … 120, in order, each call replaced by its callee's operations over the call's buffers. -/
abbrev ops1 : List (HloOp τ sig (Elt F)) :=
  [ StableHlo.binary main_v3 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v46 (broadcastInDim S1600000 ![] bcast_S_S1600000 : (⟨S_, .i32⟩ : BufTy).Contents (Elt F) → (⟨S1600000, .i32⟩ : BufTy).Contents (Elt F)),
    StableHlo.binary main_v3 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v3 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_arg2 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v51 (broadcastInDim S1600000x1 ![0] bcast_S1600000_S1600000x1_0 : (⟨S1600000, .f32⟩ : BufTy).Contents (Elt F) → (⟨S1600000x1, .f32⟩ : BufTy).Contents (Elt F)),
    StableHlo.unary main_arg3 main_v52 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.unary main_v53 main_v54 ((transpose S64x64 [1, 0] · transposes_S64x64_S64x64_1_0) : (⟨S64x64, .f32⟩ : BufTy).Contents (Elt F) → (⟨S64x64, .f32⟩ : BufTy).Contents (Elt F)),
    StableHlo.binary main_v43 main_v54 main_v55 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v56 ((extractStridedSlice S1x64 ![0, 0] · slices_S3x64_S1x64_0_0) : (⟨S3x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S1600000x64 ![0, 1] bcast_S1x64_S1600000x64_0_1 : (⟨S1x64, .f32⟩ : BufTy).Contents (Elt F) → (⟨S1600000x64, .f32⟩ : BufTy).Contents (Elt F)),
    StableHlo.binary main_v55 main_v59 main_v60 (addf : (⟨S1600000x64, .f32⟩ : BufTy).Contents (Elt F) → (⟨S1600000x64, .f32⟩ : BufTy).Contents (Elt F) → (⟨S1600000x64, .f32⟩ : BufTy).Contents (Elt F)),
    StableHlo.binary main_v43 main_v50 main_v61 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v62 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.unary main_v63 main_v64 ((transpose S64x64 [1, 0] · transposes_S64x64_S64x64_1_0) : (⟨S64x64, .f32⟩ : BufTy).Contents (Elt F) → (⟨S64x64, .f32⟩ : BufTy).Contents (Elt F)),
    StableHlo.binary main_v61 main_v64 main_v65 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v66 ((extractStridedSlice S1x64 ![0, 0] · slices_S3x64_S1x64_0_0) : (⟨S3x64, .f32⟩ : BufTy).Contents (Elt F) → (⟨S1x64, .f32⟩ : BufTy).Contents (Elt F)),
    StableHlo.reshape main_v66 main_v67 rfl shapeCasts_S1x64_S64,
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S1600000x64 ![0, 1] bcast_S1x64_S1600000x64_0_1 : (⟨S1x64, .f32⟩ : BufTy).Contents (Elt F) → (⟨S1600000x64, .f32⟩ : BufTy).Contents (Elt F)),
    StableHlo.binary main_v65 main_v69 main_v70 (addf : (⟨S1600000x64, .f32⟩ : BufTy).Contents (Elt F) → (⟨S1600000x64, .f32⟩ : BufTy).Contents (Elt F) → (⟨S1600000x64, .f32⟩ : BufTy).Contents (Elt F)),
    StableHlo.binary main_v60 main_v70 main_v71 (addf : (⟨S1600000x64, .f32⟩ : BufTy).Contents (Elt F) → (⟨S1600000x64, .f32⟩ : BufTy).Contents (Elt F) → (⟨S1600000x64, .f32⟩ : BufTy).Contents (Elt F)),
    StableHlo.unary main_v51 main_v72 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v72 main_v71 main_v73 (mulf : (⟨S1600000x64, .f32⟩ : BufTy).Contents (Elt F) → (⟨S1600000x64, .f32⟩ : BufTy).Contents (Elt F) → (⟨S1600000x64, .f32⟩ : BufTy).Contents (Elt F)),
    StableHlo.nullary main_cst_14 (constant S_ .f32 0x00000000#32),
    StableHlo.unary main_cst_14 main_v74 (broadcastInDim S100000x64 ![] bcast_S_S100000x64 : (⟨S_, .f32⟩ : BufTy).Contents (Elt F) → (⟨S100000x64, .f32⟩ : BufTy).Contents (Elt F)),
    StableHlo.nullary main_c_15 (constantI S_ 32 0#32),
    StableHlo.unary main_c_15 main_v75 (broadcastInDim S1600000 ![] bcast_S_S1600000 : (⟨S_, .i32⟩ : BufTy).Contents (Elt F) → (⟨S1600000, .i32⟩ : BufTy).Contents (Elt F)),
    StableHlo.binary main_v3 main_v75 main_v76 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v77 (broadcastInDim S1600000 ![] bcast_S_S1600000 : (⟨S_, .i32⟩ : BufTy).Contents (Elt F) → (⟨S1600000, .i32⟩ : BufTy).Contents (Elt F)),
    StableHlo.binary main_v3 main_v77 main_v78 (addi : (⟨S1600000, .i32⟩ : BufTy).Contents (Elt F) → (⟨S1600000, .i32⟩ : BufTy).Contents (Elt F) → (⟨S1600000, .i32⟩ : BufTy).Contents (Elt F)),
    StableHlo.ternary main_v76 main_v78 main_v3 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v79 main_v80 (broadcastInDim S1600000x1 ![0] bcast_S1600000_S1600000x1_0 : (⟨S1600000, .i32⟩ : BufTy).Contents (Elt F) → (⟨S1600000x1, .i32⟩ : BufTy).Contents (Elt F)),
    StableHlo.ternary main_v74 main_v80 main_v73 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v82 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v82 main_v83 rfl shapeCasts_S1x64x64_S64x64,
    StableHlo.unary main_v83 main_v84 ((transpose S64x64 [1, 0] · transposes_S64x64_S64x64_1_0) : (⟨S64x64, .f32⟩ : BufTy).Contents (Elt F) → (⟨S64x64, .f32⟩ : BufTy).Contents (Elt F)),
    StableHlo.binary main_arg2 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v86 ((extractStridedSlice S1x64 ![0, 0] · slices_S3x64_S1x64_0_0) : (⟨S3x64, .f32⟩ : BufTy).Contents (Elt F) → (⟨S1x64, .f32⟩ : BufTy).Contents (Elt F)),
    StableHlo.reshape main_v86 main_v87 rfl shapeCasts_S1x64_S64,
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v89 main_v90 (addf : (⟨S100000x64, .f32⟩ : BufTy).Contents (Elt F) → (⟨S100000x64, .f32⟩ : BufTy).Contents (Elt F) → (⟨S100000x64, .f32⟩ : BufTy).Contents (Elt F)),
    StableHlo.binary main_v81 main_v90 main_v91 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v91 : StableHlo.TRef sig ⟨S100000x64, .f32⟩) (.of main_call1_v0 : StableHlo.TRef sig ⟨S100000x64, .f32⟩) (.of main_call1_v1 : StableHlo.TRef sig ⟨S100000x64, .i1⟩) (cmpf .oge),
    StableHlo.TRef.unary (.of main_cst_17 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x64, .f32⟩) (broadcastInDim S100000x64 ![] bcast_S_S100000x64),
    StableHlo.TRef.binary (.of main_call1_v3 : StableHlo.TRef sig ⟨S100000x64, .f32⟩) (.of main_v91 : StableHlo.TRef sig ⟨S100000x64, .f32⟩) (.of main_call1_v4 : StableHlo.TRef sig ⟨S100000x64, .f32⟩) mulf,
    StableHlo.TRef.ternary (.of main_call1_v1 : StableHlo.TRef sig ⟨S100000x64, .i1⟩) (.of main_v91 : StableHlo.TRef sig ⟨S100000x64, .f32⟩) (.of main_call1_v4 : StableHlo.TRef sig ⟨S100000x64, .f32⟩) (.of main_v92 : StableHlo.TRef sig ⟨S100000x64, .f32⟩) select,
    StableHlo.nullary main_c_18 (constantI S_ 32 0#32),
    StableHlo.unary main_c_18 main_v93 (broadcastInDim S1600000 ![] bcast_S_S1600000 : (⟨S_, .i32⟩ : BufTy).Contents (Elt F) → (⟨S1600000, .i32⟩ : BufTy).Contents (Elt F)),
    StableHlo.binary main_v1 main_v93 main_v94 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v95 (broadcastInDim S1600000 ![] bcast_S_S1600000 : (⟨S_, .i32⟩ : BufTy).Contents (Elt F) → (⟨S1600000, .i32⟩ : BufTy).Contents (Elt F)),
    StableHlo.binary main_v1 main_v95 main_v96 (addi : (⟨S1600000, .i32⟩ : BufTy).Contents (Elt F) → (⟨S1600000, .i32⟩ : BufTy).Contents (Elt F) → (⟨S1600000, .i32⟩ : BufTy).Contents (Elt F)),
    StableHlo.ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The operations of @main's statements 121 … 180, in order, each call replaced by its callee's operations over the call's buffers. -/
abbrev ops2 : List (HloOp τ sig (Elt F)) :=
  [ StableHlo.unary main_v97 main_v98 (broadcastInDim S1600000x1 ![0] bcast_S1600000_S1600000x1_0 : (⟨S1600000, .i32⟩ : BufTy).Contents (Elt F) → (⟨S1600000x1, .i32⟩ : BufTy).Contents (Elt F)),
    StableHlo.binary main_v92 main_v98 main_v99 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_20 (constantI S_ 32 0#32),
    StableHlo.unary main_c_20 main_v100 (broadcastInDim S1600000 ![] bcast_S_S1600000 : (⟨S_, .i32⟩ : BufTy).Contents (Elt F) → (⟨S1600000, .i32⟩ : BufTy).Contents (Elt F)),
    StableHlo.binary main_v3 main_v100 main_v101 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v102 (broadcastInDim S1600000 ![] bcast_S_S1600000 : (⟨S_, .i32⟩ : BufTy).Contents (Elt F) → (⟨S1600000, .i32⟩ : BufTy).Contents (Elt F)),
    StableHlo.binary main_v3 main_v102 main_v103 (addi : (⟨S1600000, .i32⟩ : BufTy).Contents (Elt F) → (⟨S1600000, .i32⟩ : BufTy).Contents (Elt F) → (⟨S1600000, .i32⟩ : BufTy).Contents (Elt F)),
    StableHlo.ternary main_v101 main_v103 main_v3 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v104 main_v105 (broadcastInDim S1600000x1 ![0] bcast_S1600000_S1600000x1_0 : (⟨S1600000, .i32⟩ : BufTy).Contents (Elt F) → (⟨S1600000x1, .i32⟩ : BufTy).Contents (Elt F)),
    StableHlo.binary main_v92 main_v105 main_v106 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v107 (broadcastInDim S1600000x1 ![0] bcast_S1600000_S1600000x1_0 : (⟨S1600000, .f32⟩ : BufTy).Contents (Elt F) → (⟨S1600000x1, .f32⟩ : BufTy).Contents (Elt F)),
    StableHlo.unary main_arg3 main_v108 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v108 main_v109 rfl shapeCasts_S1x64x64_S64x64,
    StableHlo.unary main_v109 main_v110 ((transpose S64x64 [1, 0] · transposes_S64x64_S64x64_1_0) : (⟨S64x64, .f32⟩ : BufTy).Contents (Elt F) → (⟨S64x64, .f32⟩ : BufTy).Contents (Elt F)),
    StableHlo.binary main_v99 main_v110 main_v111 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v112 ((extractStridedSlice S1x64 ![1, 0] · slices_S3x64_S1x64_1_0) : (⟨S3x64, .f32⟩ : BufTy).Contents (Elt F) → (⟨S1x64, .f32⟩ : BufTy).Contents (Elt F)),
    StableHlo.reshape main_v112 main_v113 rfl shapeCasts_S1x64_S64,
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S1600000x64 ![0, 1] bcast_S1x64_S1600000x64_0_1 : (⟨S1x64, .f32⟩ : BufTy).Contents (Elt F) → (⟨S1600000x64, .f32⟩ : BufTy).Contents (Elt F)),
    StableHlo.binary main_v111 main_v115 main_v116 (addf : (⟨S1600000x64, .f32⟩ : BufTy).Contents (Elt F) → (⟨S1600000x64, .f32⟩ : BufTy).Contents (Elt F) → (⟨S1600000x64, .f32⟩ : BufTy).Contents (Elt F)),
    StableHlo.binary main_v99 main_v106 main_v117 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v118 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v118 main_v119 rfl shapeCasts_S1x64x64_S64x64,
    StableHlo.unary main_v119 main_v120 ((transpose S64x64 [1, 0] · transposes_S64x64_S64x64_1_0) : (⟨S64x64, .f32⟩ : BufTy).Contents (Elt F) → (⟨S64x64, .f32⟩ : BufTy).Contents (Elt F)),
    StableHlo.binary main_v117 main_v120 main_v121 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S1600000x64 ![0, 1] bcast_S1x64_S1600000x64_0_1 : (⟨S1x64, .f32⟩ : BufTy).Contents (Elt F) → (⟨S1600000x64, .f32⟩ : BufTy).Contents (Elt F)),
    StableHlo.binary main_v121 main_v125 main_v126 (addf : (⟨S1600000x64, .f32⟩ : BufTy).Contents (Elt F) → (⟨S1600000x64, .f32⟩ : BufTy).Contents (Elt F) → (⟨S1600000x64, .f32⟩ : BufTy).Contents (Elt F)),
    StableHlo.binary main_v116 main_v126 main_v127 (addf : (⟨S1600000x64, .f32⟩ : BufTy).Contents (Elt F) → (⟨S1600000x64, .f32⟩ : BufTy).Contents (Elt F) → (⟨S1600000x64, .f32⟩ : BufTy).Contents (Elt F)),
    StableHlo.unary main_v107 main_v128 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v128 main_v127 main_v129 (mulf : (⟨S1600000x64, .f32⟩ : BufTy).Contents (Elt F) → (⟨S1600000x64, .f32⟩ : BufTy).Contents (Elt F) → (⟨S1600000x64, .f32⟩ : BufTy).Contents (Elt F)),
    StableHlo.nullary main_cst_22 (constant S_ .f32 0x00000000#32),
    StableHlo.unary main_cst_22 main_v130 (broadcastInDim S100000x64 ![] bcast_S_S100000x64 : (⟨S_, .f32⟩ : BufTy).Contents (Elt F) → (⟨S100000x64, .f32⟩ : BufTy).Contents (Elt F)),
    StableHlo.nullary main_c_23 (constantI S_ 32 0#32),
    StableHlo.unary main_c_23 main_v131 (broadcastInDim S1600000 ![] bcast_S_S1600000 : (⟨S_, .i32⟩ : BufTy).Contents (Elt F) → (⟨S1600000, .i32⟩ : BufTy).Contents (Elt F)),
    StableHlo.binary main_v3 main_v131 main_v132 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v133 (broadcastInDim S1600000 ![] bcast_S_S1600000 : (⟨S_, .i32⟩ : BufTy).Contents (Elt F) → (⟨S1600000, .i32⟩ : BufTy).Contents (Elt F)),
    StableHlo.binary main_v3 main_v133 main_v134 (addi : (⟨S1600000, .i32⟩ : BufTy).Contents (Elt F) → (⟨S1600000, .i32⟩ : BufTy).Contents (Elt F) → (⟨S1600000, .i32⟩ : BufTy).Contents (Elt F)),
    StableHlo.ternary main_v132 main_v134 main_v3 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v135 main_v136 (broadcastInDim S1600000x1 ![0] bcast_S1600000_S1600000x1_0 : (⟨S1600000, .i32⟩ : BufTy).Contents (Elt F) → (⟨S1600000x1, .i32⟩ : BufTy).Contents (Elt F)),
    StableHlo.ternary main_v130 main_v136 main_v129 main_v137 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v138 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v138 main_v139 rfl shapeCasts_S1x64x64_S64x64,
    StableHlo.unary main_v139 main_v140 ((transpose S64x64 [1, 0] · transposes_S64x64_S64x64_1_0) : (⟨S64x64, .f32⟩ : BufTy).Contents (Elt F) → (⟨S64x64, .f32⟩ : BufTy).Contents (Elt F)),
    StableHlo.binary main_v92 main_v140 main_v141 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v142 ((extractStridedSlice S1x64 ![1, 0] · slices_S3x64_S1x64_1_0) : (⟨S3x64, .f32⟩ : BufTy).Contents (Elt F) → (⟨S1x64, .f32⟩ : BufTy).Contents (Elt F)),
    StableHlo.reshape main_v142 main_v143 rfl shapeCasts_S1x64_S64,
    StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v141 main_v145 main_v146 (addf : (⟨S100000x64, .f32⟩ : BufTy).Contents (Elt F) → (⟨S100000x64, .f32⟩ : BufTy).Contents (Elt F) → (⟨S100000x64, .f32⟩ : BufTy).Contents (Elt F)),
    StableHlo.binary main_v137 main_v146 main_v147 (addf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v147 : StableHlo.TRef sig ⟨S100000x64, .f32⟩) (.of main_call2_v0 : StableHlo.TRef sig ⟨S100000x64, .f32⟩) (.of main_call2_v1 : StableHlo.TRef sig ⟨S100000x64, .i1⟩) (cmpf .oge),
    StableHlo.TRef.unary (.of main_cst_25 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x64, .f32⟩) (broadcastInDim S100000x64 ![] bcast_S_S100000x64),
    StableHlo.TRef.binary (.of main_call2_v3 : StableHlo.TRef sig ⟨S100000x64, .f32⟩) (.of main_v147 : StableHlo.TRef sig ⟨S100000x64, .f32⟩) (.of main_call2_v4 : StableHlo.TRef sig ⟨S100000x64, .f32⟩) mulf,
    StableHlo.TRef.ternary (.of main_call2_v1 : StableHlo.TRef sig ⟨S100000x64, .i1⟩) (.of main_v147 : StableHlo.TRef sig ⟨S100000x64, .f32⟩) (.of main_call2_v4 : StableHlo.TRef sig ⟨S100000x64, .f32⟩) (.of main_v148 : StableHlo.TRef sig ⟨S100000x64, .f32⟩) select,
    StableHlo.nullary main_c_26 (constantI S_ 32 0#32),
    StableHlo.unary main_c_26 main_v149 (broadcastInDim S1600000 ![] bcast_S_S1600000 : (⟨S_, .i32⟩ : BufTy).Contents (Elt F) → (⟨S1600000, .i32⟩ : BufTy).Contents (Elt F)),
    StableHlo.binary main_v1 main_v149 main_v150 (cmpi .slt : (⟨S1600000, .i32⟩ : BufTy).Contents (Elt F) → (⟨S1600000, .i32⟩ : BufTy).Contents (Elt F) → (⟨S1600000, .i1⟩ : BufTy).Contents (Elt F)) ]

/-- The operations of @main's statements 181 … 240, in order, each call replaced by its callee's operations over the call's buffers. -/
abbrev ops3 : List (HloOp τ sig (Elt F)) :=
  [ StableHlo.nullary main_c_27 (constantI S_ 32 100000#32),
    StableHlo.unary main_c_27 main_v151 (broadcastInDim S1600000 ![] bcast_S_S1600000 : (⟨S_, .i32⟩ : BufTy).Contents (Elt F) → (⟨S1600000, .i32⟩ : BufTy).Contents (Elt F)),
    StableHlo.binary main_v1 main_v151 main_v152 (addi : (⟨S1600000, .i32⟩ : BufTy).Contents (Elt F) → (⟨S1600000, .i32⟩ : BufTy).Contents (Elt F) → (⟨S1600000, .i32⟩ : BufTy).Contents (Elt F)),
    StableHlo.ternary main_v150 main_v152 main_v1 main_v153 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v153 main_v154 (broadcastInDim S1600000x1 ![0] bcast_S1600000_S1600000x1_0 : (⟨S1600000, .i32⟩ : BufTy).Contents (Elt F) → (⟨S1600000x1, .i32⟩ : BufTy).Contents (Elt F)),
    StableHlo.binary main_v148 main_v154 main_v155 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_28 (constantI S_ 32 0#32),
    StableHlo.unary main_c_28 main_v156 (broadcastInDim S1600000 ![] bcast_S_S1600000 : (⟨S_, .i32⟩ : BufTy).Contents (Elt F) → (⟨S1600000, .i32⟩ : BufTy).Contents (Elt F)),
    StableHlo.binary main_v3 main_v156 main_v157 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v158 (broadcastInDim S1600000 ![] bcast_S_S1600000 : (⟨S_, .i32⟩ : BufTy).Contents (Elt F) → (⟨S1600000, .i32⟩ : BufTy).Contents (Elt F)),
    StableHlo.binary main_v3 main_v158 main_v159 (addi : (⟨S1600000, .i32⟩ : BufTy).Contents (Elt F) → (⟨S1600000, .i32⟩ : BufTy).Contents (Elt F) → (⟨S1600000, .i32⟩ : BufTy).Contents (Elt F)),
    StableHlo.ternary main_v157 main_v159 main_v3 main_v160 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v160 main_v161 (broadcastInDim S1600000x1 ![0] bcast_S1600000_S1600000x1_0 : (⟨S1600000, .i32⟩ : BufTy).Contents (Elt F) → (⟨S1600000x1, .i32⟩ : BufTy).Contents (Elt F)),
    StableHlo.binary main_v148 main_v161 main_v162 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v163 (broadcastInDim S1600000x1 ![0] bcast_S1600000_S1600000x1_0 : (⟨S1600000, .f32⟩ : BufTy).Contents (Elt F) → (⟨S1600000x1, .f32⟩ : BufTy).Contents (Elt F)),
    StableHlo.unary main_arg3 main_v164 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v164 main_v165 rfl shapeCasts_S1x64x64_S64x64,
    StableHlo.unary main_v165 main_v166 ((transpose S64x64 [1, 0] · transposes_S64x64_S64x64_1_0) : (⟨S64x64, .f32⟩ : BufTy).Contents (Elt F) → (⟨S64x64, .f32⟩ : BufTy).Contents (Elt F)),
    StableHlo.binary main_v155 main_v166 main_v167 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v168 ((extractStridedSlice S1x64 ![2, 0] · slices_S3x64_S1x64_2_0) : (⟨S3x64, .f32⟩ : BufTy).Contents (Elt F) → (⟨S1x64, .f32⟩ : BufTy).Contents (Elt F)),
    StableHlo.reshape main_v168 main_v169 rfl shapeCasts_S1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S1600000x64 ![0, 1] bcast_S1x64_S1600000x64_0_1 : (⟨S1x64, .f32⟩ : BufTy).Contents (Elt F) → (⟨S1600000x64, .f32⟩ : BufTy).Contents (Elt F)),
    StableHlo.binary main_v167 main_v171 main_v172 (addf : (⟨S1600000x64, .f32⟩ : BufTy).Contents (Elt F) → (⟨S1600000x64, .f32⟩ : BufTy).Contents (Elt F) → (⟨S1600000x64, .f32⟩ : BufTy).Contents (Elt F)),
    StableHlo.binary main_v155 main_v162 main_v173 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v174 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v174 main_v175 rfl shapeCasts_S1x64x64_S64x64,
    StableHlo.unary main_v175 main_v176 ((transpose S64x64 [1, 0] · transposes_S64x64_S64x64_1_0) : (⟨S64x64, .f32⟩ : BufTy).Contents (Elt F) → (⟨S64x64, .f32⟩ : BufTy).Contents (Elt F)),
    StableHlo.binary main_v173 main_v176 main_v177 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v178 ((extractStridedSlice S1x64 ![2, 0] · slices_S3x64_S1x64_2_0) : (⟨S3x64, .f32⟩ : BufTy).Contents (Elt F) → (⟨S1x64, .f32⟩ : BufTy).Contents (Elt F)),
    StableHlo.reshape main_v178 main_v179 rfl shapeCasts_S1x64_S64,
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S1600000x64 ![0, 1] bcast_S1x64_S1600000x64_0_1 : (⟨S1x64, .f32⟩ : BufTy).Contents (Elt F) → (⟨S1600000x64, .f32⟩ : BufTy).Contents (Elt F)),
    StableHlo.binary main_v177 main_v181 main_v182 (addf : (⟨S1600000x64, .f32⟩ : BufTy).Contents (Elt F) → (⟨S1600000x64, .f32⟩ : BufTy).Contents (Elt F) → (⟨S1600000x64, .f32⟩ : BufTy).Contents (Elt F)),
    StableHlo.binary main_v172 main_v182 main_v183 (addf : (⟨S1600000x64, .f32⟩ : BufTy).Contents (Elt F) → (⟨S1600000x64, .f32⟩ : BufTy).Contents (Elt F) → (⟨S1600000x64, .f32⟩ : BufTy).Contents (Elt F)),
    StableHlo.unary main_v163 main_v184 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v184 main_v183 main_v185 (mulf : (⟨S1600000x64, .f32⟩ : BufTy).Contents (Elt F) → (⟨S1600000x64, .f32⟩ : BufTy).Contents (Elt F) → (⟨S1600000x64, .f32⟩ : BufTy).Contents (Elt F)),
    StableHlo.nullary main_cst_30 (constant S_ .f32 0x00000000#32),
    StableHlo.unary main_cst_30 main_v186 (broadcastInDim S100000x64 ![] bcast_S_S100000x64 : (⟨S_, .f32⟩ : BufTy).Contents (Elt F) → (⟨S100000x64, .f32⟩ : BufTy).Contents (Elt F)),
    StableHlo.nullary main_c_31 (constantI S_ 32 0#32),
    StableHlo.unary main_c_31 main_v187 (broadcastInDim S1600000 ![] bcast_S_S1600000 : (⟨S_, .i32⟩ : BufTy).Contents (Elt F) → (⟨S1600000, .i32⟩ : BufTy).Contents (Elt F)),
    StableHlo.binary main_v3 main_v187 main_v188 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v189 (broadcastInDim S1600000 ![] bcast_S_S1600000 : (⟨S_, .i32⟩ : BufTy).Contents (Elt F) → (⟨S1600000, .i32⟩ : BufTy).Contents (Elt F)),
    StableHlo.binary main_v3 main_v189 main_v190 (addi : (⟨S1600000, .i32⟩ : BufTy).Contents (Elt F) → (⟨S1600000, .i32⟩ : BufTy).Contents (Elt F) → (⟨S1600000, .i32⟩ : BufTy).Contents (Elt F)),
    StableHlo.ternary main_v188 main_v190 main_v3 main_v191 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v191 main_v192 (broadcastInDim S1600000x1 ![0] bcast_S1600000_S1600000x1_0 : (⟨S1600000, .i32⟩ : BufTy).Contents (Elt F) → (⟨S1600000x1, .i32⟩ : BufTy).Contents (Elt F)),
    StableHlo.ternary main_v186 main_v192 main_v185 main_v193 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v194 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v194 main_v195 rfl shapeCasts_S1x64x64_S64x64,
    StableHlo.unary main_v195 main_v196 ((transpose S64x64 [1, 0] · transposes_S64x64_S64x64_1_0) : (⟨S64x64, .f32⟩ : BufTy).Contents (Elt F) → (⟨S64x64, .f32⟩ : BufTy).Contents (Elt F)),
    StableHlo.binary main_v148 main_v196 main_v197 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v198 ((extractStridedSlice S1x64 ![2, 0] · slices_S3x64_S1x64_2_0) : (⟨S3x64, .f32⟩ : BufTy).Contents (Elt F) → (⟨S1x64, .f32⟩ : BufTy).Contents (Elt F)),
    StableHlo.reshape main_v198 main_v199 rfl shapeCasts_S1x64_S64,
    StableHlo.unary main_v199 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S100000x64 ![0, 1] bcast_S1x64_S100000x64_0_1 : (⟨S1x64, .f32⟩ : BufTy).Contents (Elt F) → (⟨S100000x64, .f32⟩ : BufTy).Contents (Elt F)),
    StableHlo.binary main_v197 main_v201 main_v202 (addf : (⟨S100000x64, .f32⟩ : BufTy).Contents (Elt F) → (⟨S100000x64, .f32⟩ : BufTy).Contents (Elt F) → (⟨S100000x64, .f32⟩ : BufTy).Contents (Elt F)),
    StableHlo.binary main_v193 main_v202 main_v203 (addf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3C23D70A#32) ]

/-- The operations of @main's statements 241 … 243, in order, each call replaced by its callee's operations over the call's buffers. -/
abbrev ops4 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v203 : StableHlo.TRef sig ⟨S100000x64, .f32⟩) (.of main_call3_v0 : StableHlo.TRef sig ⟨S100000x64, .f32⟩) (.of main_call3_v1 : StableHlo.TRef sig ⟨S100000x64, .i1⟩) (cmpf .oge),
    StableHlo.TRef.unary (.of main_cst_33 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S100000x64, .f32⟩) (broadcastInDim S100000x64 ![] bcast_S_S100000x64),
    StableHlo.TRef.binary (.of main_call3_v3 : StableHlo.TRef sig ⟨S100000x64, .f32⟩) (.of main_v203 : StableHlo.TRef sig ⟨S100000x64, .f32⟩) (.of main_call3_v4 : StableHlo.TRef sig ⟨S100000x64, .f32⟩) mulf,
    StableHlo.TRef.ternary (.of main_call3_v1 : StableHlo.TRef sig ⟨S100000x64, .i1⟩) (.of main_v203 : StableHlo.TRef sig ⟨S100000x64, .f32⟩) (.of main_call3_v4 : StableHlo.TRef sig ⟨S100000x64, .f32⟩) (.of main_v204 : StableHlo.TRef sig ⟨S100000x64, .f32⟩) select,
    StableHlo.binary main_arg2 main_v204 main_v205 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) ]

/-- @main's operations, in order. -/
abbrev ops : List (HloOp τ sig (Elt F)) := ops0 ++ (ops1 ++ (ops2 ++ (ops3 ++ ops4)))

/-- The contents after two lines run one after the other: the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property of every operation of two lists holds of every operation of their concatenation. -/
theorem forall_app {p : HloOp τ sig (Elt F) → Prop} {l₁ l₂ : List (HloOp τ sig (Elt F))} (h₁ : l₁.Forall p) (h₂ : l₂.Forall p) :
    (l₁ ++ l₂).Forall p := by
  rw [List.forall_iff_forall_mem] at *
  intro x hx
  rcases List.mem_append.mp hx with h | h
  · exact h₁ x h
  · exact h₂ x h

/-! ## Each window of the program is the line of its operations -/

set_option maxRecDepth 4096 in
theorem main_part0_eq (c : Dev nD) : main_part0 (F := F) c = seq ops0 := by
  simp only [main_part0, fn_where.body, seq, bind_assoc, pure_bind]
  rfl
set_option maxRecDepth 4096 in
theorem main_part1_eq (c : Dev nD) : main_part1 (F := F) c = seq ops1 := by
  simp only [main_part1, fn_leaky_relu.body, fn_where_0.body, seq, bind_assoc, pure_bind]
  rfl
set_option maxRecDepth 4096 in
theorem main_part2_eq (c : Dev nD) : main_part2 (F := F) c = seq ops2 := by
  simp only [main_part2, fn_leaky_relu.body, fn_where_0.body, seq, bind_assoc, pure_bind]
  rfl
theorem main_part3_eq (c : Dev nD) : main_part3 (F := F) c = seq ops3 := rfl
set_option maxRecDepth 4096 in
theorem main_part4_eq (c : Dev nD) : main_part4 (F := F) c = seq ops4 := by
  simp only [main_part4, fn_leaky_relu.body, fn_where_0.body, seq, bind_assoc, pure_bind]

/-- @main is the line of its operations: window by window, two lines in sequence being the line of the concatenation. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its result -/

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_sub : (ops2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_sub : (ops3 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_sub : (ops4 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub .., binary_bufs_sub ..⟩
theorem ops4_fresh : (ops4 : List (HloOp τ sig (Elt F))).Forall fun op => op.fresh = ∅ :=
  ⟨rfl, rfl, rfl, rfl, rfl, rfl, rfl, rfl⟩

theorem ops_sub : (ops : List (HloOp τ sig (Elt F))).Forall fun op => op.bufs ⊆ tcRefs τ sig :=
  forall_app ops0_sub (forall_app ops1_sub (forall_app ops2_sub (forall_app ops3_sub ops4_sub)))

theorem ops_fresh : ∀ op ∈ (ops : List (HloOp τ sig (Elt F))), op.fresh = ∅ :=
  List.forall_iff_forall_mem.mp (forall_app ops0_fresh (forall_app ops1_fresh (forall_app ops2_fresh (forall_app ops3_fresh ops4_fresh))))

/-- On every device, for any float values, from any memory with zero counters: every weakly fair execution of @main
    terminates, and every final state has each TensorCore buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The same list cut where few buffers are live

The list again, cut after the normalisation coefficients, after each layer's aggregation and after each layer's update:
at each cut only the two id vectors, the coefficients, the current node features and the arguments are read later. -/

/-- @main's operations 1 … 51: the edge ids and the normalisation coefficients (through %36). -/
abbrev seg0 : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_cst_0 (constant S_ .f32 0x3F800000#32),
    StableHlo.unary main_cst_0 main_v5 (broadcastInDim S1600000 ![] bcast_S_S1600000 : (⟨S_, .f32⟩ : BufTy).Contents (Elt F) → (⟨S1600000, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v3 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v8 (broadcastInDim S1600000 ![] bcast_S_S1600000 : (⟨S_, .i32⟩ : BufTy).Contents (Elt F) → (⟨S1600000, .i32⟩ : BufTy).Contents (Elt F)),
    StableHlo.binary main_v3 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.ternary main_v4 main_v11 main_v5 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.sqrt : (⟨S100000, .f32⟩ : BufTy).Contents (Elt F) → (⟨S100000, .f32⟩ : BufTy).Contents (Elt F)),
    StableHlo.nullary main_cst_4 (constant S_ .f32 0x3F800000#32),
    StableHlo.unary main_cst_4 main_v18 (broadcastInDim S100000 ![] bcast_S_S100000 : (⟨S_, .f32⟩ : BufTy).Contents (Elt F) → (⟨S100000, .f32⟩ : BufTy).Contents (Elt F)),
    StableHlo.binary main_v18 main_v17 main_v19 (Host.divf : (⟨S100000, .f32⟩ : BufTy).Contents (Elt F) → (⟨S100000, .f32⟩ : BufTy).Contents (Elt F) → (⟨S100000, .f32⟩ : BufTy).Contents (Elt F)),
    StableHlo.nullary main_cst_5 (constant S_ .f32 0x00000000#32),
    StableHlo.TRef.unary (.of main_cst_5 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v14 : StableHlo.TRef sig ⟨S100000, .i1⟩) (.of main_v19 : StableHlo.TRef sig ⟨S100000, .f32⟩) (.of main_call0_v1 : StableHlo.TRef sig ⟨S100000, .f32⟩) (.of main_v20 : StableHlo.TRef sig ⟨S100000, .f32⟩) select,
    StableHlo.nullary main_c_6 (constantI S_ 32 0#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_v1 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v23 (broadcastInDim S1600000 ![] bcast_S_S1600000 : (⟨S_, .i32⟩ : BufTy).Contents (Elt F) → (⟨S1600000, .i32⟩ : BufTy).Contents (Elt F)),
    StableHlo.binary main_v1 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v20 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_8 (constantI S_ 32 0#32),
    StableHlo.unary main_c_8 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v20 main_v33 main_v34 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v27 main_v34 main_v35 (mulf : (⟨S1600000, .f32⟩ : BufTy).Contents (Elt F) → (⟨S1600000, .f32⟩ : BufTy).Contents (Elt F) → (⟨S1600000, .f32⟩ : BufTy).Contents (Elt F)),
    StableHlo.binary main_v35 main_arg1 main_v36 (mulf : (⟨S1600000, .f32⟩ : BufTy).Contents (Elt F) → (⟨S1600000, .f32⟩ : BufTy).Contents (Elt F) → (⟨S1600000, .f32⟩ : BufTy).Contents (Elt F)) ]

/-- @main's operations 52 … 103: layer 0's messages and their aggregation (through %81). -/
abbrev seg1 : List (HloOp τ sig (Elt F)) :=
  [ StableHlo.nullary main_c_10 (constantI S_ 32 0#32),
    StableHlo.unary main_c_10 main_v37 (broadcastInDim S1600000 ![] bcast_S_S1600000 : (⟨S_, .i32⟩ : BufTy).Contents (Elt F) → (⟨S1600000, .i32⟩ : BufTy).Contents (Elt F)),
    StableHlo.binary main_v1 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v39 (broadcastInDim S1600000 ![] bcast_S_S1600000 : (⟨S_, .i32⟩ : BufTy).Contents (Elt F) → (⟨S1600000, .i32⟩ : BufTy).Contents (Elt F)),
    StableHlo.binary main_v1 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_arg2 main_v42 main_v43 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_12 (constantI S_ 32 0#32),
    StableHlo.unary main_c_12 main_v44 (broadcastInDim S1600000 ![] bcast_S_S1600000 : (⟨S_, .i32⟩ : BufTy).Contents (Elt F) → (⟨S1600000, .i32⟩ : BufTy).Contents (Elt F)),
    StableHlo.binary main_v3 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v46 (broadcastInDim S1600000 ![] bcast_S_S1600000 : (⟨S_, .i32⟩ : BufTy).Contents (Elt F) → (⟨S1600000, .i32⟩ : BufTy).Contents (Elt F)),
    StableHlo.binary main_v3 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v3 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_arg2 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v51 (broadcastInDim S1600000x1 ![0] bcast_S1600000_S1600000x1_0 : (⟨S1600000, .f32⟩ : BufTy).Contents (Elt F) → (⟨S1600000x1, .f32⟩ : BufTy).Contents (Elt F)),
    StableHlo.unary main_arg3 main_v52 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.unary main_v53 main_v54 ((transpose S64x64 [1, 0] · transposes_S64x64_S64x64_1_0) : (⟨S64x64, .f32⟩ : BufTy).Contents (Elt F) → (⟨S64x64, .f32⟩ : BufTy).Contents (Elt F)),
    StableHlo.binary main_v43 main_v54 main_v55 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v56 ((extractStridedSlice S1x64 ![0, 0] · slices_S3x64_S1x64_0_0) : (⟨S3x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S1600000x64 ![0, 1] bcast_S1x64_S1600000x64_0_1 : (⟨S1x64, .f32⟩ : BufTy).Contents (Elt F) → (⟨S1600000x64, .f32⟩ : BufTy).Contents (Elt F)),
    StableHlo.binary main_v55 main_v59 main_v60 (addf : (⟨S1600000x64, .f32⟩ : BufTy).Contents (Elt F) → (⟨S1600000x64, .f32⟩ : BufTy).Contents (Elt F) → (⟨S1600000x64, .f32⟩ : BufTy).Contents (Elt F)),
    StableHlo.binary main_v43 main_v50 main_v61 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v62 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.unary main_v63 main_v64 ((transpose S64x64 [1, 0] · transposes_S64x64_S64x64_1_0) : (⟨S64x64, .f32⟩ : BufTy).Contents (Elt F) → (⟨S64x64, .f32⟩ : BufTy).Contents (Elt F)),
    StableHlo.binary main_v61 main_v64 main_v65 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v66 ((extractStridedSlice S1x64 ![0, 0] · slices_S3x64_S1x64_0_0) : (⟨S3x64, .f32⟩ : BufTy).Contents (Elt F) → (⟨S1x64, .f32⟩ : BufTy).Contents (Elt F)),
    StableHlo.reshape main_v66 main_v67 rfl shapeCasts_S1x64_S64,
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S1600000x64 ![0, 1] bcast_S1x64_S1600000x64_0_1 : (⟨S1x64, .f32⟩ : BufTy).Contents (Elt F) → (⟨S1600000x64, .f32⟩ : BufTy).Contents (Elt F)),
    StableHlo.binary main_v65 main_v69 main_v70 (addf : (⟨S1600000x64, .f32⟩ : BufTy).Contents (Elt F) → (⟨S1600000x64, .f32⟩ : BufTy).Contents (Elt F) → (⟨S1600000x64, .f32⟩ : BufTy).Contents (Elt F)),
    StableHlo.binary main_v60 main_v70 main_v71 (addf : (⟨S1600000x64, .f32⟩ : BufTy).Contents (Elt F) → (⟨S1600000x64, .f32⟩ : BufTy).Contents (Elt F) → (⟨S1600000x64, .f32⟩ : BufTy).Contents (Elt F)),
    StableHlo.unary main_v51 main_v72 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v72 main_v71 main_v73 (mulf : (⟨S1600000x64, .f32⟩ : BufTy).Contents (Elt F) → (⟨S1600000x64, .f32⟩ : BufTy).Contents (Elt F) → (⟨S1600000x64, .f32⟩ : BufTy).Contents (Elt F)),
    StableHlo.nullary main_cst_14 (constant S_ .f32 0x00000000#32),
    StableHlo.unary main_cst_14 main_v74 (broadcastInDim S100000x64 ![] bcast_S_S100000x64 : (⟨S_, .f32⟩ : BufTy).Contents (Elt F) → (⟨S100000x64, .f32⟩ : BufTy).Contents (Elt F)),
    StableHlo.nullary main_c_15 (constantI S_ 32 0#32),
    StableHlo.unary main_c_15 main_v75 (broadcastInDim S1600000 ![] bcast_S_S1600000 : (⟨S_, .i32⟩ : BufTy).Contents (Elt F) → (⟨S1600000, .i32⟩ : BufTy).Contents (Elt F)),
    StableHlo.binary main_v3 main_v75 main_v76 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v77 (broadcastInDim S1600000 ![] bcast_S_S1600000 : (⟨S_, .i32⟩ : BufTy).Contents (Elt F) → (⟨S1600000, .i32⟩ : BufTy).Contents (Elt F)),
    StableHlo.binary main_v3 main_v77 main_v78 (addi : (⟨S1600000, .i32⟩ : BufTy).Contents (Elt F) → (⟨S1600000, .i32⟩ : BufTy).Contents (Elt F) → (⟨S1600000, .i32⟩ : BufTy).Contents (Elt F)),
    StableHlo.ternary main_v76 main_v78 main_v3 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v79 main_v80 (broadcastInDim S1600000x1 ![0] bcast_S1600000_S1600000x1_0 : (⟨S1600000, .i32⟩ : BufTy).Contents (Elt F) → (⟨S1600000x1, .i32⟩ : BufTy).Contents (Elt F)),
    StableHlo.ternary main_v74 main_v80 main_v73 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- @main's operations 104 … 121: layer 0's update (through %92). -/
abbrev seg2 : List (HloOp τ sig (Elt F)) :=
  [ StableHlo.unary main_arg3 main_v82 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v82 main_v83 rfl shapeCasts_S1x64x64_S64x64,
    StableHlo.unary main_v83 main_v84 ((transpose S64x64 [1, 0] · transposes_S64x64_S64x64_1_0) : (⟨S64x64, .f32⟩ : BufTy).Contents (Elt F) → (⟨S64x64, .f32⟩ : BufTy).Contents (Elt F)),
    StableHlo.binary main_arg2 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v86 ((extractStridedSlice S1x64 ![0, 0] · slices_S3x64_S1x64_0_0) : (⟨S3x64, .f32⟩ : BufTy).Contents (Elt F) → (⟨S1x64, .f32⟩ : BufTy).Contents (Elt F)),
    StableHlo.reshape main_v86 main_v87 rfl shapeCasts_S1x64_S64,
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v89 main_v90 (addf : (⟨S100000x64, .f32⟩ : BufTy).Contents (Elt F) → (⟨S100000x64, .f32⟩ : BufTy).Contents (Elt F) → (⟨S100000x64, .f32⟩ : BufTy).Contents (Elt F)),
    StableHlo.binary main_v81 main_v90 main_v91 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v91 : StableHlo.TRef sig ⟨S100000x64, .f32⟩) (.of main_call1_v0 : StableHlo.TRef sig ⟨S100000x64, .f32⟩) (.of main_call1_v1 : StableHlo.TRef sig ⟨S100000x64, .i1⟩) (cmpf .oge),
    StableHlo.TRef.unary (.of main_cst_17 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x64, .f32⟩) (broadcastInDim S100000x64 ![] bcast_S_S100000x64),
    StableHlo.TRef.binary (.of main_call1_v3 : StableHlo.TRef sig ⟨S100000x64, .f32⟩) (.of main_v91 : StableHlo.TRef sig ⟨S100000x64, .f32⟩) (.of main_call1_v4 : StableHlo.TRef sig ⟨S100000x64, .f32⟩) mulf,
    StableHlo.TRef.ternary (.of main_call1_v1 : StableHlo.TRef sig ⟨S100000x64, .i1⟩) (.of main_v91 : StableHlo.TRef sig ⟨S100000x64, .f32⟩) (.of main_call1_v4 : StableHlo.TRef sig ⟨S100000x64, .f32⟩) (.of main_v92 : StableHlo.TRef sig ⟨S100000x64, .f32⟩) select ]

/-- @main's operations 122 … 173: layer 1's messages and their aggregation (through %137). -/
abbrev seg3 : List (HloOp τ sig (Elt F)) :=
  [ StableHlo.nullary main_c_18 (constantI S_ 32 0#32),
    StableHlo.unary main_c_18 main_v93 (broadcastInDim S1600000 ![] bcast_S_S1600000 : (⟨S_, .i32⟩ : BufTy).Contents (Elt F) → (⟨S1600000, .i32⟩ : BufTy).Contents (Elt F)),
    StableHlo.binary main_v1 main_v93 main_v94 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v95 (broadcastInDim S1600000 ![] bcast_S_S1600000 : (⟨S_, .i32⟩ : BufTy).Contents (Elt F) → (⟨S1600000, .i32⟩ : BufTy).Contents (Elt F)),
    StableHlo.binary main_v1 main_v95 main_v96 (addi : (⟨S1600000, .i32⟩ : BufTy).Contents (Elt F) → (⟨S1600000, .i32⟩ : BufTy).Contents (Elt F) → (⟨S1600000, .i32⟩ : BufTy).Contents (Elt F)),
    StableHlo.ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v97 main_v98 (broadcastInDim S1600000x1 ![0] bcast_S1600000_S1600000x1_0 : (⟨S1600000, .i32⟩ : BufTy).Contents (Elt F) → (⟨S1600000x1, .i32⟩ : BufTy).Contents (Elt F)),
    StableHlo.binary main_v92 main_v98 main_v99 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_20 (constantI S_ 32 0#32),
    StableHlo.unary main_c_20 main_v100 (broadcastInDim S1600000 ![] bcast_S_S1600000 : (⟨S_, .i32⟩ : BufTy).Contents (Elt F) → (⟨S1600000, .i32⟩ : BufTy).Contents (Elt F)),
    StableHlo.binary main_v3 main_v100 main_v101 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v102 (broadcastInDim S1600000 ![] bcast_S_S1600000 : (⟨S_, .i32⟩ : BufTy).Contents (Elt F) → (⟨S1600000, .i32⟩ : BufTy).Contents (Elt F)),
    StableHlo.binary main_v3 main_v102 main_v103 (addi : (⟨S1600000, .i32⟩ : BufTy).Contents (Elt F) → (⟨S1600000, .i32⟩ : BufTy).Contents (Elt F) → (⟨S1600000, .i32⟩ : BufTy).Contents (Elt F)),
    StableHlo.ternary main_v101 main_v103 main_v3 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v104 main_v105 (broadcastInDim S1600000x1 ![0] bcast_S1600000_S1600000x1_0 : (⟨S1600000, .i32⟩ : BufTy).Contents (Elt F) → (⟨S1600000x1, .i32⟩ : BufTy).Contents (Elt F)),
    StableHlo.binary main_v92 main_v105 main_v106 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v107 (broadcastInDim S1600000x1 ![0] bcast_S1600000_S1600000x1_0 : (⟨S1600000, .f32⟩ : BufTy).Contents (Elt F) → (⟨S1600000x1, .f32⟩ : BufTy).Contents (Elt F)),
    StableHlo.unary main_arg3 main_v108 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v108 main_v109 rfl shapeCasts_S1x64x64_S64x64,
    StableHlo.unary main_v109 main_v110 ((transpose S64x64 [1, 0] · transposes_S64x64_S64x64_1_0) : (⟨S64x64, .f32⟩ : BufTy).Contents (Elt F) → (⟨S64x64, .f32⟩ : BufTy).Contents (Elt F)),
    StableHlo.binary main_v99 main_v110 main_v111 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v112 ((extractStridedSlice S1x64 ![1, 0] · slices_S3x64_S1x64_1_0) : (⟨S3x64, .f32⟩ : BufTy).Contents (Elt F) → (⟨S1x64, .f32⟩ : BufTy).Contents (Elt F)),
    StableHlo.reshape main_v112 main_v113 rfl shapeCasts_S1x64_S64,
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S1600000x64 ![0, 1] bcast_S1x64_S1600000x64_0_1 : (⟨S1x64, .f32⟩ : BufTy).Contents (Elt F) → (⟨S1600000x64, .f32⟩ : BufTy).Contents (Elt F)),
    StableHlo.binary main_v111 main_v115 main_v116 (addf : (⟨S1600000x64, .f32⟩ : BufTy).Contents (Elt F) → (⟨S1600000x64, .f32⟩ : BufTy).Contents (Elt F) → (⟨S1600000x64, .f32⟩ : BufTy).Contents (Elt F)),
    StableHlo.binary main_v99 main_v106 main_v117 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v118 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v118 main_v119 rfl shapeCasts_S1x64x64_S64x64,
    StableHlo.unary main_v119 main_v120 ((transpose S64x64 [1, 0] · transposes_S64x64_S64x64_1_0) : (⟨S64x64, .f32⟩ : BufTy).Contents (Elt F) → (⟨S64x64, .f32⟩ : BufTy).Contents (Elt F)),
    StableHlo.binary main_v117 main_v120 main_v121 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S1600000x64 ![0, 1] bcast_S1x64_S1600000x64_0_1 : (⟨S1x64, .f32⟩ : BufTy).Contents (Elt F) → (⟨S1600000x64, .f32⟩ : BufTy).Contents (Elt F)),
    StableHlo.binary main_v121 main_v125 main_v126 (addf : (⟨S1600000x64, .f32⟩ : BufTy).Contents (Elt F) → (⟨S1600000x64, .f32⟩ : BufTy).Contents (Elt F) → (⟨S1600000x64, .f32⟩ : BufTy).Contents (Elt F)),
    StableHlo.binary main_v116 main_v126 main_v127 (addf : (⟨S1600000x64, .f32⟩ : BufTy).Contents (Elt F) → (⟨S1600000x64, .f32⟩ : BufTy).Contents (Elt F) → (⟨S1600000x64, .f32⟩ : BufTy).Contents (Elt F)),
    StableHlo.unary main_v107 main_v128 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v128 main_v127 main_v129 (mulf : (⟨S1600000x64, .f32⟩ : BufTy).Contents (Elt F) → (⟨S1600000x64, .f32⟩ : BufTy).Contents (Elt F) → (⟨S1600000x64, .f32⟩ : BufTy).Contents (Elt F)),
    StableHlo.nullary main_cst_22 (constant S_ .f32 0x00000000#32),
    StableHlo.unary main_cst_22 main_v130 (broadcastInDim S100000x64 ![] bcast_S_S100000x64 : (⟨S_, .f32⟩ : BufTy).Contents (Elt F) → (⟨S100000x64, .f32⟩ : BufTy).Contents (Elt F)),
    StableHlo.nullary main_c_23 (constantI S_ 32 0#32),
    StableHlo.unary main_c_23 main_v131 (broadcastInDim S1600000 ![] bcast_S_S1600000 : (⟨S_, .i32⟩ : BufTy).Contents (Elt F) → (⟨S1600000, .i32⟩ : BufTy).Contents (Elt F)),
    StableHlo.binary main_v3 main_v131 main_v132 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v133 (broadcastInDim S1600000 ![] bcast_S_S1600000 : (⟨S_, .i32⟩ : BufTy).Contents (Elt F) → (⟨S1600000, .i32⟩ : BufTy).Contents (Elt F)),
    StableHlo.binary main_v3 main_v133 main_v134 (addi : (⟨S1600000, .i32⟩ : BufTy).Contents (Elt F) → (⟨S1600000, .i32⟩ : BufTy).Contents (Elt F) → (⟨S1600000, .i32⟩ : BufTy).Contents (Elt F)),
    StableHlo.ternary main_v132 main_v134 main_v3 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v135 main_v136 (broadcastInDim S1600000x1 ![0] bcast_S1600000_S1600000x1_0 : (⟨S1600000, .i32⟩ : BufTy).Contents (Elt F) → (⟨S1600000x1, .i32⟩ : BufTy).Contents (Elt F)),
    StableHlo.ternary main_v130 main_v136 main_v129 main_v137 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- @main's operations 174 … 191: layer 1's update (through %148). -/
abbrev seg4 : List (HloOp τ sig (Elt F)) :=
  [ StableHlo.unary main_arg3 main_v138 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v138 main_v139 rfl shapeCasts_S1x64x64_S64x64,
    StableHlo.unary main_v139 main_v140 ((transpose S64x64 [1, 0] · transposes_S64x64_S64x64_1_0) : (⟨S64x64, .f32⟩ : BufTy).Contents (Elt F) → (⟨S64x64, .f32⟩ : BufTy).Contents (Elt F)),
    StableHlo.binary main_v92 main_v140 main_v141 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v142 ((extractStridedSlice S1x64 ![1, 0] · slices_S3x64_S1x64_1_0) : (⟨S3x64, .f32⟩ : BufTy).Contents (Elt F) → (⟨S1x64, .f32⟩ : BufTy).Contents (Elt F)),
    StableHlo.reshape main_v142 main_v143 rfl shapeCasts_S1x64_S64,
    StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v141 main_v145 main_v146 (addf : (⟨S100000x64, .f32⟩ : BufTy).Contents (Elt F) → (⟨S100000x64, .f32⟩ : BufTy).Contents (Elt F) → (⟨S100000x64, .f32⟩ : BufTy).Contents (Elt F)),
    StableHlo.binary main_v137 main_v146 main_v147 (addf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v147 : StableHlo.TRef sig ⟨S100000x64, .f32⟩) (.of main_call2_v0 : StableHlo.TRef sig ⟨S100000x64, .f32⟩) (.of main_call2_v1 : StableHlo.TRef sig ⟨S100000x64, .i1⟩) (cmpf .oge),
    StableHlo.TRef.unary (.of main_cst_25 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x64, .f32⟩) (broadcastInDim S100000x64 ![] bcast_S_S100000x64),
    StableHlo.TRef.binary (.of main_call2_v3 : StableHlo.TRef sig ⟨S100000x64, .f32⟩) (.of main_v147 : StableHlo.TRef sig ⟨S100000x64, .f32⟩) (.of main_call2_v4 : StableHlo.TRef sig ⟨S100000x64, .f32⟩) mulf,
    StableHlo.TRef.ternary (.of main_call2_v1 : StableHlo.TRef sig ⟨S100000x64, .i1⟩) (.of main_v147 : StableHlo.TRef sig ⟨S100000x64, .f32⟩) (.of main_call2_v4 : StableHlo.TRef sig ⟨S100000x64, .f32⟩) (.of main_v148 : StableHlo.TRef sig ⟨S100000x64, .f32⟩) select ]

/-- @main's operations 192 … 243: layer 2's messages and their aggregation (through %193). -/
abbrev seg5 : List (HloOp τ sig (Elt F)) :=
  [ StableHlo.nullary main_c_26 (constantI S_ 32 0#32),
    StableHlo.unary main_c_26 main_v149 (broadcastInDim S1600000 ![] bcast_S_S1600000 : (⟨S_, .i32⟩ : BufTy).Contents (Elt F) → (⟨S1600000, .i32⟩ : BufTy).Contents (Elt F)),
    StableHlo.binary main_v1 main_v149 main_v150 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v151 (broadcastInDim S1600000 ![] bcast_S_S1600000 : (⟨S_, .i32⟩ : BufTy).Contents (Elt F) → (⟨S1600000, .i32⟩ : BufTy).Contents (Elt F)),
    StableHlo.binary main_v1 main_v151 main_v152 (addi : (⟨S1600000, .i32⟩ : BufTy).Contents (Elt F) → (⟨S1600000, .i32⟩ : BufTy).Contents (Elt F) → (⟨S1600000, .i32⟩ : BufTy).Contents (Elt F)),
    StableHlo.ternary main_v150 main_v152 main_v1 main_v153 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v153 main_v154 (broadcastInDim S1600000x1 ![0] bcast_S1600000_S1600000x1_0 : (⟨S1600000, .i32⟩ : BufTy).Contents (Elt F) → (⟨S1600000x1, .i32⟩ : BufTy).Contents (Elt F)),
    StableHlo.binary main_v148 main_v154 main_v155 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_28 (constantI S_ 32 0#32),
    StableHlo.unary main_c_28 main_v156 (broadcastInDim S1600000 ![] bcast_S_S1600000 : (⟨S_, .i32⟩ : BufTy).Contents (Elt F) → (⟨S1600000, .i32⟩ : BufTy).Contents (Elt F)),
    StableHlo.binary main_v3 main_v156 main_v157 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v158 (broadcastInDim S1600000 ![] bcast_S_S1600000 : (⟨S_, .i32⟩ : BufTy).Contents (Elt F) → (⟨S1600000, .i32⟩ : BufTy).Contents (Elt F)),
    StableHlo.binary main_v3 main_v158 main_v159 (addi : (⟨S1600000, .i32⟩ : BufTy).Contents (Elt F) → (⟨S1600000, .i32⟩ : BufTy).Contents (Elt F) → (⟨S1600000, .i32⟩ : BufTy).Contents (Elt F)),
    StableHlo.ternary main_v157 main_v159 main_v3 main_v160 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v160 main_v161 (broadcastInDim S1600000x1 ![0] bcast_S1600000_S1600000x1_0 : (⟨S1600000, .i32⟩ : BufTy).Contents (Elt F) → (⟨S1600000x1, .i32⟩ : BufTy).Contents (Elt F)),
    StableHlo.binary main_v148 main_v161 main_v162 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v36 main_v163 (broadcastInDim S1600000x1 ![0] bcast_S1600000_S1600000x1_0 : (⟨S1600000, .f32⟩ : BufTy).Contents (Elt F) → (⟨S1600000x1, .f32⟩ : BufTy).Contents (Elt F)),
    StableHlo.unary main_arg3 main_v164 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v164 main_v165 rfl shapeCasts_S1x64x64_S64x64,
    StableHlo.unary main_v165 main_v166 ((transpose S64x64 [1, 0] · transposes_S64x64_S64x64_1_0) : (⟨S64x64, .f32⟩ : BufTy).Contents (Elt F) → (⟨S64x64, .f32⟩ : BufTy).Contents (Elt F)),
    StableHlo.binary main_v155 main_v166 main_v167 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v168 ((extractStridedSlice S1x64 ![2, 0] · slices_S3x64_S1x64_2_0) : (⟨S3x64, .f32⟩ : BufTy).Contents (Elt F) → (⟨S1x64, .f32⟩ : BufTy).Contents (Elt F)),
    StableHlo.reshape main_v168 main_v169 rfl shapeCasts_S1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S1600000x64 ![0, 1] bcast_S1x64_S1600000x64_0_1 : (⟨S1x64, .f32⟩ : BufTy).Contents (Elt F) → (⟨S1600000x64, .f32⟩ : BufTy).Contents (Elt F)),
    StableHlo.binary main_v167 main_v171 main_v172 (addf : (⟨S1600000x64, .f32⟩ : BufTy).Contents (Elt F) → (⟨S1600000x64, .f32⟩ : BufTy).Contents (Elt F) → (⟨S1600000x64, .f32⟩ : BufTy).Contents (Elt F)),
    StableHlo.binary main_v155 main_v162 main_v173 (mulf : (⟨S1600000x64, .f32⟩ : BufTy).Contents (Elt F) → (⟨S1600000x64, .f32⟩ : BufTy).Contents (Elt F) → (⟨S1600000x64, .f32⟩ : BufTy).Contents (Elt F)),
    StableHlo.unary main_arg5 main_v174 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v174 main_v175 rfl shapeCasts_S1x64x64_S64x64,
    StableHlo.unary main_v175 main_v176 ((transpose S64x64 [1, 0] · transposes_S64x64_S64x64_1_0) : (⟨S64x64, .f32⟩ : BufTy).Contents (Elt F) → (⟨S64x64, .f32⟩ : BufTy).Contents (Elt F)),
    StableHlo.binary main_v173 main_v176 main_v177 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v178 ((extractStridedSlice S1x64 ![2, 0] · slices_S3x64_S1x64_2_0) : (⟨S3x64, .f32⟩ : BufTy).Contents (Elt F) → (⟨S1x64, .f32⟩ : BufTy).Contents (Elt F)),
    StableHlo.reshape main_v178 main_v179 rfl shapeCasts_S1x64_S64,
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S1600000x64 ![0, 1] bcast_S1x64_S1600000x64_0_1 : (⟨S1x64, .f32⟩ : BufTy).Contents (Elt F) → (⟨S1600000x64, .f32⟩ : BufTy).Contents (Elt F)),
    StableHlo.binary main_v177 main_v181 main_v182 (addf : (⟨S1600000x64, .f32⟩ : BufTy).Contents (Elt F) → (⟨S1600000x64, .f32⟩ : BufTy).Contents (Elt F) → (⟨S1600000x64, .f32⟩ : BufTy).Contents (Elt F)),
    StableHlo.binary main_v172 main_v182 main_v183 (addf : (⟨S1600000x64, .f32⟩ : BufTy).Contents (Elt F) → (⟨S1600000x64, .f32⟩ : BufTy).Contents (Elt F) → (⟨S1600000x64, .f32⟩ : BufTy).Contents (Elt F)),
    StableHlo.unary main_v163 main_v184 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v184 main_v183 main_v185 (mulf : (⟨S1600000x64, .f32⟩ : BufTy).Contents (Elt F) → (⟨S1600000x64, .f32⟩ : BufTy).Contents (Elt F) → (⟨S1600000x64, .f32⟩ : BufTy).Contents (Elt F)),
    StableHlo.nullary main_cst_30 (constant S_ .f32 0x00000000#32),
    StableHlo.unary main_cst_30 main_v186 (broadcastInDim S100000x64 ![] bcast_S_S100000x64 : (⟨S_, .f32⟩ : BufTy).Contents (Elt F) → (⟨S100000x64, .f32⟩ : BufTy).Contents (Elt F)),
    StableHlo.nullary main_c_31 (constantI S_ 32 0#32),
    StableHlo.unary main_c_31 main_v187 (broadcastInDim S1600000 ![] bcast_S_S1600000 : (⟨S_, .i32⟩ : BufTy).Contents (Elt F) → (⟨S1600000, .i32⟩ : BufTy).Contents (Elt F)),
    StableHlo.binary main_v3 main_v187 main_v188 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v189 (broadcastInDim S1600000 ![] bcast_S_S1600000 : (⟨S_, .i32⟩ : BufTy).Contents (Elt F) → (⟨S1600000, .i32⟩ : BufTy).Contents (Elt F)),
    StableHlo.binary main_v3 main_v189 main_v190 (addi : (⟨S1600000, .i32⟩ : BufTy).Contents (Elt F) → (⟨S1600000, .i32⟩ : BufTy).Contents (Elt F) → (⟨S1600000, .i32⟩ : BufTy).Contents (Elt F)),
    StableHlo.ternary main_v188 main_v190 main_v3 main_v191 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v191 main_v192 (broadcastInDim S1600000x1 ![0] bcast_S1600000_S1600000x1_0 : (⟨S1600000, .i32⟩ : BufTy).Contents (Elt F) → (⟨S1600000x1, .i32⟩ : BufTy).Contents (Elt F)),
    StableHlo.ternary main_v186 main_v192 main_v185 main_v193 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- @main's operations 244 … 261: layer 2's update (through %204). -/
abbrev seg6 : List (HloOp τ sig (Elt F)) :=
  [ StableHlo.unary main_arg3 main_v194 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v194 main_v195 rfl shapeCasts_S1x64x64_S64x64,
    StableHlo.unary main_v195 main_v196 ((transpose S64x64 [1, 0] · transposes_S64x64_S64x64_1_0) : (⟨S64x64, .f32⟩ : BufTy).Contents (Elt F) → (⟨S64x64, .f32⟩ : BufTy).Contents (Elt F)),
    StableHlo.binary main_v148 main_v196 main_v197 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v198 ((extractStridedSlice S1x64 ![2, 0] · slices_S3x64_S1x64_2_0) : (⟨S3x64, .f32⟩ : BufTy).Contents (Elt F) → (⟨S1x64, .f32⟩ : BufTy).Contents (Elt F)),
    StableHlo.reshape main_v198 main_v199 rfl shapeCasts_S1x64_S64,
    StableHlo.unary main_v199 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S100000x64 ![0, 1] bcast_S1x64_S100000x64_0_1 : (⟨S1x64, .f32⟩ : BufTy).Contents (Elt F) → (⟨S100000x64, .f32⟩ : BufTy).Contents (Elt F)),
    StableHlo.binary main_v197 main_v201 main_v202 (addf : (⟨S100000x64, .f32⟩ : BufTy).Contents (Elt F) → (⟨S100000x64, .f32⟩ : BufTy).Contents (Elt F) → (⟨S100000x64, .f32⟩ : BufTy).Contents (Elt F)),
    StableHlo.binary main_v193 main_v202 main_v203 (addf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v203 : StableHlo.TRef sig ⟨S100000x64, .f32⟩) (.of main_call3_v0 : StableHlo.TRef sig ⟨S100000x64, .f32⟩) (.of main_call3_v1 : StableHlo.TRef sig ⟨S100000x64, .i1⟩) (cmpf .oge),
    StableHlo.TRef.unary (.of main_cst_33 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S100000x64, .f32⟩) (broadcastInDim S100000x64 ![] bcast_S_S100000x64),
    StableHlo.TRef.binary (.of main_call3_v3 : StableHlo.TRef sig ⟨S100000x64, .f32⟩) (.of main_v203 : StableHlo.TRef sig ⟨S100000x64, .f32⟩) (.of main_call3_v4 : StableHlo.TRef sig ⟨S100000x64, .f32⟩) mulf,
    StableHlo.TRef.ternary (.of main_call3_v1 : StableHlo.TRef sig ⟨S100000x64, .i1⟩) (.of main_v203 : StableHlo.TRef sig ⟨S100000x64, .f32⟩) (.of main_call3_v4 : StableHlo.TRef sig ⟨S100000x64, .f32⟩) (.of main_v204 : StableHlo.TRef sig ⟨S100000x64, .f32⟩) select ]

/-- @main's operations 262 … 262: the concatenation (%205). -/
abbrev seg7 : List (HloOp τ sig (Elt F)) :=
  [ StableHlo.binary main_arg2 main_v204 main_v205 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) ]

theorem ops_cut : (ops : List (HloOp τ sig (Elt F))) = seg0 ++ (seg1 ++ (seg2 ++ (seg3 ++ (seg4 ++ (seg5 ++ (seg6 ++ seg7)))))) := rfl

end Cert.ReferenceIdeal.RefRun

end
-- ==== Proof.RSpec.lean ====
/-
  The reference program's value, as named stage functions of the argument arrays, at the ideal values, in the
  program's own spelling of its host operations.

  The ids, the degrees, the normalisation coefficients, the row gather and the row scatter-add are as in the kernel
  program. A layer's messages are the coefficient, broadcast along the features, times the sum of the two affine maps,
  each a host matrix product with the layer's weight matrix sliced and then transposed, plus the layer's bias row
  broadcast down the edges; a node's update adds the same affine map of its own row to its aggregated messages and
  applies the leaky rectifier spelt with the test y ≥ 0.
-/
import proofs.«174210_j74363063763024_1_alg».proof.ReferenceIdeal
import Idealize.ShloMosaic.PureOps.Ideal

noncomputable section

namespace Cert.ReferenceIdeal.RSpec

open Idealize.ShloMosaic Cert.ReferenceIdeal
variable [Facts]
open Facts₀ Facts

/-- The edges' source ids. -/
def frm (a0 : IVec S2x1600000 32) : IVec S1600000 32 :=
  shapeCast S1600000 (extractStridedSlice S1x1600000 ![0, 0] a0 slices_S2x1600000_S1x1600000_0_0) shapeCasts_S1x1600000_S1600000
/-- The edges' target ids. -/
def dst (a0 : IVec S2x1600000 32) : IVec S1600000 32 :=
  shapeCast S1600000 (extractStridedSlice S1x1600000 ![1, 0] a0 slices_S2x1600000_S1x1600000_1_0) shapeCasts_S1x1600000_S1600000
/-- An id vector wrapped and made a column. -/
def col (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The in-degree of every node: ones added at the targets. -/
def deg (a0 : IVec S2x1600000 32) : FVec Ideal S100000 .f32 :=
  Host.scatterAdd scatter_S100000_S1600000x1_S1600000_n_0_0_1
    (broadcastInDim S100000 ![] bcast_S_S100000 (constant (F := Ideal) S_ .f32 0x00000000#32)) (col (dst a0))
    (broadcastInDim S1600000 ![] bcast_S_S1600000 (constant (F := Ideal) S_ .f32 0x3F800000#32))
/-- 1 / sqrt (max deg 1) where the degree is positive, 0 elsewhere. -/
def dis (a0 : IVec S2x1600000 32) : FVec Ideal S100000 .f32 :=
  select (cmpf (F := Ideal) .ogt (deg a0) (broadcastInDim S100000 ![] bcast_S_S100000 (constant (F := Ideal) S_ .f32 0x00000000#32)))
    (Host.divf (F := Ideal) (broadcastInDim S100000 ![] bcast_S_S100000 (constant (F := Ideal) S_ .f32 0x3F800000#32))
      (Host.sqrt (F := Ideal) (maximumf (F := Ideal) (deg a0) (broadcastInDim S100000 ![] bcast_S_S100000 (constant (F := Ideal) S_ .f32 0x3F800000#32)))))
    (broadcastInDim S100000 ![] bcast_S_S100000 (id (constant (F := Ideal) S_ .f32 0x00000000#32)))
/-- The edges' normalisation coefficients. -/
def nrm (a0 : IVec S2x1600000 32) (a1 : FVec Ideal S1600000 .f32) : FVec Ideal S1600000 .f32 :=
  mulf (F := Ideal) (mulf (F := Ideal) (Host.gather gather_S100000_S1600000x1_S1600000_n_0_n_n_0_1_1 (dis a0) (col (frm a0)))
    (Host.gather gather_S100000_S1600000x1_S1600000_n_0_n_n_0_1_1 (dis a0) (col (dst a0)))) a1
/-- The rows of a node matrix at the edges' ids. -/
def gat (x : FVec Ideal S100000x64 .f32) (v : IVec S1600000 32) : FVec Ideal S1600000x64 .f32 :=
  Host.gather gather_S100000x64_S1600000x1_S1600000x64_1_0_n_n_0_1_164 x (col v)
/-- Every edge row added into the row of its id, from zeros. -/
def sct (u : FVec Ideal S1600000x64 .f32) (v : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (col v) u

/-- The coefficients broadcast along the 64 features. -/
def nrmWide (a0 : IVec S2x1600000 32) (a1 : FVec Ideal S1600000 .f32) : FVec Ideal S1600000x64 .f32 :=
  broadcastInDim S1600000x64 ![0, 1] bcast_S1600000x1_S1600000x64_0_1 (broadcastInDim S1600000x1 ![0] bcast_S1600000_S1600000x1_0 (nrm a0 a1))
/-- The leaky rectifier as the reference spells it: the test y ≥ 0, the slope broadcast. -/
def leakyHost (y : FVec Ideal S100000x64 .f32) : FVec Ideal S100000x64 .f32 :=
  select (cmpf (F := Ideal) .oge y (broadcastInDim S100000x64 ![] bcast_S_S100000x64 (constant (F := Ideal) S_ .f32 0x00000000#32))) y
    (mulf (F := Ideal) (broadcastInDim S100000x64 ![] bcast_S_S100000x64 (id (constant (F := Ideal) S_ .f32 0x3C23D70A#32))) y)

/-- Layer 0's weight matrix, sliced then transposed. -/
def wT0 (W : FVec Ideal S3x64x64 .f32) : FVec Ideal S64x64 .f32 :=
  transpose S64x64 [1, 0] (shapeCast S64x64 (extractStridedSlice S1x64x64 ![0, 0, 0] W slices_S3x64x64_S1x64x64_0_0_0) shapeCasts_S1x64x64_S64x64) transposes_S64x64_S64x64_1_0
/-- Layer 0's bias, as one row. -/
def bRow0 (b : FVec Ideal S3x64 .f32) : FVec Ideal S1x64 .f32 :=
  broadcastInDim S1x64 ![1] bcast_S64_S1x64_1 (shapeCast S64 (extractStridedSlice S1x64 ![0, 0] b slices_S3x64_S1x64_0_0) shapeCasts_S1x64_S64)
/-- Layer 0's messages from the gathered source and target rows. -/
def msg0 (xj xi : FVec Ideal S1600000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S1600000x64 .f32 :=
  mulf (F := Ideal) (nrmWide a0 a1)
    (addf (F := Ideal) (addf (F := Ideal) (Host.dotGeneral (F := Ideal) dot_S1600000x64_S64x64_S1600000x64_1_0_0_1_n_n none xj (wT0 a3))
        (broadcastInDim S1600000x64 ![0, 1] bcast_S1x64_S1600000x64_0_1 (bRow0 a4)))
      (addf (F := Ideal) (Host.dotGeneral (F := Ideal) dot_S1600000x64_S64x64_S1600000x64_1_0_0_1_n_n none (mulf xj xi) (wT0 a5))
        (broadcastInDim S1600000x64 ![0, 1] bcast_S1x64_S1600000x64_0_1 (bRow0 a6))))
/-- Layer 0's node update from the aggregated messages and the node's own row. -/
def upd0 (agg x : FVec Ideal S100000x64 .f32) (a3 : FVec Ideal S3x64x64 .f32) (a4 : FVec Ideal S3x64 .f32) : FVec Ideal S100000x64 .f32 :=
  leakyHost (addf agg (addf (F := Ideal) (Host.dotGeneral (F := Ideal) dot_S100000x64_S64x64_S100000x64_1_0_0_1_n_n none x (wT0 a3))
    (broadcastInDim S100000x64 ![0, 1] bcast_S1x64_S100000x64_0_1 (bRow0 a4))))
/-- Layer 0. -/
def layer0 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  upd0 (sct (msg0 (gat x (frm a0)) (gat x (dst a0)) a0 a1 a3 a4 a5 a6) (dst a0)) x a3 a4

/-- Layer 1's weight matrix, sliced then transposed. -/
def wT1 (W : FVec Ideal S3x64x64 .f32) : FVec Ideal S64x64 .f32 :=
  transpose S64x64 [1, 0] (shapeCast S64x64 (extractStridedSlice S1x64x64 ![1, 0, 0] W slices_S3x64x64_S1x64x64_1_0_0) shapeCasts_S1x64x64_S64x64) transposes_S64x64_S64x64_1_0
/-- Layer 1's bias, as one row. -/
def bRow1 (b : FVec Ideal S3x64 .f32) : FVec Ideal S1x64 .f32 :=
  broadcastInDim S1x64 ![1] bcast_S64_S1x64_1 (shapeCast S64 (extractStridedSlice S1x64 ![1, 0] b slices_S3x64_S1x64_1_0) shapeCasts_S1x64_S64)
/-- Layer 1's messages from the gathered source and target rows. -/
def msg1 (xj xi : FVec Ideal S1600000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S1600000x64 .f32 :=
  mulf (F := Ideal) (nrmWide a0 a1)
    (addf (F := Ideal) (addf (F := Ideal) (Host.dotGeneral (F := Ideal) dot_S1600000x64_S64x64_S1600000x64_1_0_0_1_n_n none xj (wT1 a3))
        (broadcastInDim S1600000x64 ![0, 1] bcast_S1x64_S1600000x64_0_1 (bRow1 a4)))
      (addf (F := Ideal) (Host.dotGeneral (F := Ideal) dot_S1600000x64_S64x64_S1600000x64_1_0_0_1_n_n none (mulf xj xi) (wT1 a5))
        (broadcastInDim S1600000x64 ![0, 1] bcast_S1x64_S1600000x64_0_1 (bRow1 a6))))
/-- Layer 1's node update from the aggregated messages and the node's own row. -/
def upd1 (agg x : FVec Ideal S100000x64 .f32) (a3 : FVec Ideal S3x64x64 .f32) (a4 : FVec Ideal S3x64 .f32) : FVec Ideal S100000x64 .f32 :=
  leakyHost (addf agg (addf (F := Ideal) (Host.dotGeneral (F := Ideal) dot_S100000x64_S64x64_S100000x64_1_0_0_1_n_n none x (wT1 a3))
    (broadcastInDim S100000x64 ![0, 1] bcast_S1x64_S100000x64_0_1 (bRow1 a4))))
/-- Layer 1. -/
def layer1 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  upd1 (sct (msg1 (gat x (frm a0)) (gat x (dst a0)) a0 a1 a3 a4 a5 a6) (dst a0)) x a3 a4

/-- Layer 2's weight matrix, sliced then transposed. -/
def wT2 (W : FVec Ideal S3x64x64 .f32) : FVec Ideal S64x64 .f32 :=
  transpose S64x64 [1, 0] (shapeCast S64x64 (extractStridedSlice S1x64x64 ![2, 0, 0] W slices_S3x64x64_S1x64x64_2_0_0) shapeCasts_S1x64x64_S64x64) transposes_S64x64_S64x64_1_0
/-- Layer 2's bias, as one row. -/
def bRow2 (b : FVec Ideal S3x64 .f32) : FVec Ideal S1x64 .f32 :=
  broadcastInDim S1x64 ![1] bcast_S64_S1x64_1 (shapeCast S64 (extractStridedSlice S1x64 ![2, 0] b slices_S3x64_S1x64_2_0) shapeCasts_S1x64_S64)
/-- Layer 2's messages from the gathered source and target rows. -/
def msg2 (xj xi : FVec Ideal S1600000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S1600000x64 .f32 :=
  mulf (F := Ideal) (nrmWide a0 a1)
    (addf (F := Ideal) (addf (F := Ideal) (Host.dotGeneral (F := Ideal) dot_S1600000x64_S64x64_S1600000x64_1_0_0_1_n_n none xj (wT2 a3))
        (broadcastInDim S1600000x64 ![0, 1] bcast_S1x64_S1600000x64_0_1 (bRow2 a4)))
      (addf (F := Ideal) (Host.dotGeneral (F := Ideal) dot_S1600000x64_S64x64_S1600000x64_1_0_0_1_n_n none (mulf xj xi) (wT2 a5))
        (broadcastInDim S1600000x64 ![0, 1] bcast_S1x64_S1600000x64_0_1 (bRow2 a6))))
/-- Layer 2's node update from the aggregated messages and the node's own row. -/
def upd2 (agg x : FVec Ideal S100000x64 .f32) (a3 : FVec Ideal S3x64x64 .f32) (a4 : FVec Ideal S3x64 .f32) : FVec Ideal S100000x64 .f32 :=
  leakyHost (addf agg (addf (F := Ideal) (Host.dotGeneral (F := Ideal) dot_S100000x64_S64x64_S100000x64_1_0_0_1_n_n none x (wT2 a3))
    (broadcastInDim S100000x64 ![0, 1] bcast_S1x64_S100000x64_0_1 (bRow2 a4))))
/-- Layer 2. -/
def layer2 (x : FVec Ideal S100000x64 .f32) (a0 : IVec S2x1600000 32) (a1 : FVec Ideal S1600000 .f32) (a3 : FVec Ideal S3x64x64 .f32)
    (a4 : FVec Ideal S3x64 .f32) (a5 : FVec Ideal S3x64x64 .f32) (a6 : FVec Ideal S3x64 .f32) : FVec Ideal S100000x64 .f32 :=
  upd2 (sct (msg2 (gat x (frm a0)) (gat x (dst a0)) a0 a1 a3 a4 a5 a6) (dst a0)) x a3 a4

/-- The program's second result: the input features and the third layer's, side by side. -/
def out (a0 : IVec S2x1600000 32) (a1 : FVec Ideal S1600000 .f32) (a2 : FVec Ideal S100000x64 .f32) (a3 : FVec Ideal S3x64x64 .f32)
    (a4 : FVec Ideal S3x64 .f32) (a5 : FVec Ideal S3x64x64 .f32) (a6 : FVec Ideal S3x64 .f32) : FVec Ideal S100000x128 .f32 :=
  concatenate S100000x128 1 [⟨S100000x64, a2⟩, ⟨S100000x64, layer2 (layer1 (layer0 a2 a0 a1 a3 a4 a5 a6) a0 a1 a3 a4 a5 a6) a0 a1 a3 a4 a5 a6⟩]
    concatenates_S100000x64_S100000x64_S100000x128_d1

end Cert.ReferenceIdeal.RSpec

end
-- ==== Proof.RefSegA.lean ====
/-
  The first three pieces of the reference program's operation list, read at the buffers that are read later.

  The first piece — the id vectors, the degrees, their inverse square roots and the edges' coefficients — is read in
  five short stretches, each under hypotheses naming what the stretch's inputs hold: the degrees and their inverse
  square roots are read by several later operations, and a stretch's fold is compared with its stage while those stay
  folded. The second piece is layer 0's messages and their aggregation, the third its update.
-/
import proofs.«174210_j74363063763024_1_alg».proof.Proof.RefOps
import proofs.«174210_j74363063763024_1_alg».proof.Proof.RSpec

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

local notation "𝕍" => Valuation τ sig (Elt Ideal)

/-- An operation whose one written buffer is in a list writes inside the list's buffers. -/
theorem sub_of_mem {op : HloOp τ sig (Elt Ideal)} {y : Ref sig .tc} {W : List (Ref sig .tc)}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

/-! ## The first piece in five stretches -/

section Stretches

variable {F : FTy → Type} [FloatOps F]

/-- Operations 1 … 4 of @main: the two id vectors. -/
abbrev s0a : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Operations 5 … 17 of @main: the in-degrees. -/
abbrev s0b : List (HloOp τ sig (Elt F)) :=
  [ StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_cst_0 (constant S_ .f32 0x3F800000#32),
    StableHlo.unary main_cst_0 main_v5 (broadcastInDim S1600000 ![] bcast_S_S1600000 : (⟨S_, .f32⟩ : BufTy).Contents (Elt F) → (⟨S1600000, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v3 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v8 (broadcastInDim S1600000 ![] bcast_S_S1600000 : (⟨S_, .i32⟩ : BufTy).Contents (Elt F) → (⟨S1600000, .i32⟩ : BufTy).Contents (Elt F)),
    StableHlo.binary main_v3 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.ternary main_v4 main_v11 main_v5 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Operations 18 … 28 of @main: the degree's test, its inverse square root and the zero. -/
abbrev s0c : List (HloOp τ sig (Elt F)) :=
  [ StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.sqrt : (⟨S100000, .f32⟩ : BufTy).Contents (Elt F) → (⟨S100000, .f32⟩ : BufTy).Contents (Elt F)),
    StableHlo.nullary main_cst_4 (constant S_ .f32 0x3F800000#32),
    StableHlo.unary main_cst_4 main_v18 (broadcastInDim S100000 ![] bcast_S_S100000 : (⟨S_, .f32⟩ : BufTy).Contents (Elt F) → (⟨S100000, .f32⟩ : BufTy).Contents (Elt F)),
    StableHlo.binary main_v18 main_v17 main_v19 (Host.divf : (⟨S100000, .f32⟩ : BufTy).Contents (Elt F) → (⟨S100000, .f32⟩ : BufTy).Contents (Elt F) → (⟨S100000, .f32⟩ : BufTy).Contents (Elt F)),
    StableHlo.nullary main_cst_5 (constant S_ .f32 0x00000000#32) ]

/-- Operations 29 … 31 of @main: the selection between them (the callee's three operations). -/
abbrev s0d : List (HloOp τ sig (Elt F)) :=
  [ StableHlo.TRef.unary (.of main_cst_5 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v14 : StableHlo.TRef sig ⟨S100000, .i1⟩) (.of main_v19 : StableHlo.TRef sig ⟨S100000, .f32⟩) (.of main_call0_v1 : StableHlo.TRef sig ⟨S100000, .f32⟩) (.of main_v20 : StableHlo.TRef sig ⟨S100000, .f32⟩) select ]

/-- Operations 32 … 51 of @main: the two gathers of the selection and the coefficients. -/
abbrev s0e : List (HloOp τ sig (Elt F)) :=
  [ StableHlo.nullary main_c_6 (constantI S_ 32 0#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_v1 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v23 (broadcastInDim S1600000 ![] bcast_S_S1600000 : (⟨S_, .i32⟩ : BufTy).Contents (Elt F) → (⟨S1600000, .i32⟩ : BufTy).Contents (Elt F)),
    StableHlo.binary main_v1 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v20 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_8 (constantI S_ 32 0#32),
    StableHlo.unary main_c_8 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v20 main_v33 main_v34 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v27 main_v34 main_v35 (mulf : (⟨S1600000, .f32⟩ : BufTy).Contents (Elt F) → (⟨S1600000, .f32⟩ : BufTy).Contents (Elt F) → (⟨S1600000, .f32⟩ : BufTy).Contents (Elt F)),
    StableHlo.binary main_v35 main_arg1 main_v36 (mulf : (⟨S1600000, .f32⟩ : BufTy).Contents (Elt F) → (⟨S1600000, .f32⟩ : BufTy).Contents (Elt F) → (⟨S1600000, .f32⟩ : BufTy).Contents (Elt F)) ]

theorem seg0_cut : (seg0 : List (HloOp τ sig (Elt F))) = s0a ++ (s0b ++ (s0c ++ (s0d ++ s0e))) := rfl

end Stretches

/-! ## What each piece writes, and what it keeps -/

/-- The buffers that the operations of `s0a` write. -/
abbrev s0a_W : List (Ref sig .tc) := [main_v0, main_v1, main_v2, main_v3]
theorem s0a_writes : (s0a : List (HloOp τ sig (Elt Ideal))).Forall fun op => op.writes ⊆ (s0a_W.map (Proc.devRef (τ := τ) .tc)).toFinset :=
  ⟨sub_of_mem (y := main_v0) rfl (by decide), sub_of_mem (y := main_v1) rfl (by decide), sub_of_mem (y := main_v2) rfl (by decide), sub_of_mem (y := main_v3) rfl (by decide)⟩
/-- A buffer that `s0a` does not write keeps its contents through it. -/
theorem s0a_keep (W : 𝕍) (r : Ref sig .tc) (h : r ∉ s0a_W) : after s0a W (Proc.devRef .tc r) = W (Proc.devRef .tc r) :=
  after_of_writes_sub s0a _ s0a_writes h

/-- The buffers that the operations of `s0b` write. -/
abbrev s0b_W : List (Ref sig .tc) := [main_cst, main_v4, main_cst_0, main_v5, main_c, main_v6, main_v7, main_c_1, main_v8, main_v9, main_v10, main_v11, main_v12]
theorem s0b_writes : (s0b : List (HloOp τ sig (Elt Ideal))).Forall fun op => op.writes ⊆ (s0b_W.map (Proc.devRef (τ := τ) .tc)).toFinset :=
  ⟨sub_of_mem (y := main_cst) rfl (by decide), sub_of_mem (y := main_v4) rfl (by decide), sub_of_mem (y := main_cst_0) rfl (by decide), sub_of_mem (y := main_v5) rfl (by decide), sub_of_mem (y := main_c) rfl (by decide), sub_of_mem (y := main_v6) rfl (by decide), sub_of_mem (y := main_v7) rfl (by decide), sub_of_mem (y := main_c_1) rfl (by decide), sub_of_mem (y := main_v8) rfl (by decide), sub_of_mem (y := main_v9) rfl (by decide), sub_of_mem (y := main_v10) rfl (by decide), sub_of_mem (y := main_v11) rfl (by decide), sub_of_mem (y := main_v12) rfl (by decide)⟩
/-- A buffer that `s0b` does not write keeps its contents through it. -/
theorem s0b_keep (W : 𝕍) (r : Ref sig .tc) (h : r ∉ s0b_W) : after s0b W (Proc.devRef .tc r) = W (Proc.devRef .tc r) :=
  after_of_writes_sub s0b _ s0b_writes h

/-- The buffers that the operations of `s0c` write. -/
abbrev s0c_W : List (Ref sig .tc) := [main_cst_2, main_v13, main_v14, main_cst_3, main_v15, main_v16, main_v17, main_cst_4, main_v18, main_v19, main_cst_5]
theorem s0c_writes : (s0c : List (HloOp τ sig (Elt Ideal))).Forall fun op => op.writes ⊆ (s0c_W.map (Proc.devRef (τ := τ) .tc)).toFinset :=
  ⟨sub_of_mem (y := main_cst_2) rfl (by decide), sub_of_mem (y := main_v13) rfl (by decide), sub_of_mem (y := main_v14) rfl (by decide), sub_of_mem (y := main_cst_3) rfl (by decide), sub_of_mem (y := main_v15) rfl (by decide), sub_of_mem (y := main_v16) rfl (by decide), sub_of_mem (y := main_v17) rfl (by decide), sub_of_mem (y := main_cst_4) rfl (by decide), sub_of_mem (y := main_v18) rfl (by decide), sub_of_mem (y := main_v19) rfl (by decide), sub_of_mem (y := main_cst_5) rfl (by decide)⟩
/-- A buffer that `s0c` does not write keeps its contents through it. -/
theorem s0c_keep (W : 𝕍) (r : Ref sig .tc) (h : r ∉ s0c_W) : after s0c W (Proc.devRef .tc r) = W (Proc.devRef .tc r) :=
  after_of_writes_sub s0c _ s0c_writes h

/-- The buffers that the operations of `s0d` write. -/
abbrev s0d_W : List (Ref sig .tc) := [main_call0_v0, main_call0_v1, main_v20]
theorem s0d_writes : (s0d : List (HloOp τ sig (Elt Ideal))).Forall fun op => op.writes ⊆ (s0d_W.map (Proc.devRef (τ := τ) .tc)).toFinset :=
  ⟨sub_of_mem (y := main_call0_v0) rfl (by decide), sub_of_mem (y := main_call0_v1) rfl (by decide), sub_of_mem (y := main_v20) rfl (by decide)⟩
/-- A buffer that `s0d` does not write keeps its contents through it. -/
theorem s0d_keep (W : 𝕍) (r : Ref sig .tc) (h : r ∉ s0d_W) : after s0d W (Proc.devRef .tc r) = W (Proc.devRef .tc r) :=
  after_of_writes_sub s0d _ s0d_writes h

/-- The buffers that the operations of `s0e` write. -/
abbrev s0e_W : List (Ref sig .tc) := [main_c_6, main_v21, main_v22, main_c_7, main_v23, main_v24, main_v25, main_v26, main_v27, main_c_8, main_v28, main_v29, main_c_9, main_v30, main_v31, main_v32, main_v33, main_v34, main_v35, main_v36]
theorem s0e_writes : (s0e : List (HloOp τ sig (Elt Ideal))).Forall fun op => op.writes ⊆ (s0e_W.map (Proc.devRef (τ := τ) .tc)).toFinset :=
  ⟨sub_of_mem (y := main_c_6) rfl (by decide), sub_of_mem (y := main_v21) rfl (by decide), sub_of_mem (y := main_v22) rfl (by decide), sub_of_mem (y := main_c_7) rfl (by decide), sub_of_mem (y := main_v23) rfl (by decide), sub_of_mem (y := main_v24) rfl (by decide), sub_of_mem (y := main_v25) rfl (by decide), sub_of_mem (y := main_v26) rfl (by decide), sub_of_mem (y := main_v27) rfl (by decide), sub_of_mem (y := main_c_8) rfl (by decide), sub_of_mem (y := main_v28) rfl (by decide), sub_of_mem (y := main_v29) rfl (by decide), sub_of_mem (y := main_c_9) rfl (by decide), sub_of_mem (y := main_v30) rfl (by decide), sub_of_mem (y := main_v31) rfl (by decide), sub_of_mem (y := main_v32) rfl (by decide), sub_of_mem (y := main_v33) rfl (by decide), sub_of_mem (y := main_v34) rfl (by decide), sub_of_mem (y := main_v35) rfl (by decide), sub_of_mem (y := main_v36) rfl (by decide)⟩
/-- A buffer that `s0e` does not write keeps its contents through it. -/
theorem s0e_keep (W : 𝕍) (r : Ref sig .tc) (h : r ∉ s0e_W) : after s0e W (Proc.devRef .tc r) = W (Proc.devRef .tc r) :=
  after_of_writes_sub s0e _ s0e_writes h

/-- The buffers that the operations of `seg0` write. -/
abbrev seg0_W : List (Ref sig .tc) := [main_v0, main_v1, main_v2, main_v3, main_cst, main_v4, main_cst_0, main_v5, main_c, main_v6, main_v7, main_c_1, main_v8, main_v9, main_v10, main_v11, main_v12, main_cst_2, main_v13, main_v14, main_cst_3, main_v15, main_v16, main_v17, main_cst_4, main_v18, main_v19, main_cst_5, main_call0_v0, main_call0_v1, main_v20, main_c_6, main_v21, main_v22, main_c_7, main_v23, main_v24, main_v25, main_v26, main_v27, main_c_8, main_v28, main_v29, main_c_9, main_v30, main_v31, main_v32, main_v33, main_v34, main_v35, main_v36]
theorem seg0_writes : (seg0 : List (HloOp τ sig (Elt Ideal))).Forall fun op => op.writes ⊆ (seg0_W.map (Proc.devRef (τ := τ) .tc)).toFinset :=
  ⟨sub_of_mem (y := main_v0) rfl (by decide), sub_of_mem (y := main_v1) rfl (by decide), sub_of_mem (y := main_v2) rfl (by decide), sub_of_mem (y := main_v3) rfl (by decide), sub_of_mem (y := main_cst) rfl (by decide), sub_of_mem (y := main_v4) rfl (by decide), sub_of_mem (y := main_cst_0) rfl (by decide), sub_of_mem (y := main_v5) rfl (by decide), sub_of_mem (y := main_c) rfl (by decide), sub_of_mem (y := main_v6) rfl (by decide), sub_of_mem (y := main_v7) rfl (by decide), sub_of_mem (y := main_c_1) rfl (by decide), sub_of_mem (y := main_v8) rfl (by decide), sub_of_mem (y := main_v9) rfl (by decide), sub_of_mem (y := main_v10) rfl (by decide), sub_of_mem (y := main_v11) rfl (by decide), sub_of_mem (y := main_v12) rfl (by decide), sub_of_mem (y := main_cst_2) rfl (by decide), sub_of_mem (y := main_v13) rfl (by decide), sub_of_mem (y := main_v14) rfl (by decide), sub_of_mem (y := main_cst_3) rfl (by decide), sub_of_mem (y := main_v15) rfl (by decide), sub_of_mem (y := main_v16) rfl (by decide), sub_of_mem (y := main_v17) rfl (by decide), sub_of_mem (y := main_cst_4) rfl (by decide), sub_of_mem (y := main_v18) rfl (by decide), sub_of_mem (y := main_v19) rfl (by decide), sub_of_mem (y := main_cst_5) rfl (by decide), sub_of_mem (y := main_call0_v0) rfl (by decide), sub_of_mem (y := main_call0_v1) rfl (by decide), sub_of_mem (y := main_v20) rfl (by decide), sub_of_mem (y := main_c_6) rfl (by decide), sub_of_mem (y := main_v21) rfl (by decide), sub_of_mem (y := main_v22) rfl (by decide), sub_of_mem (y := main_c_7) rfl (by decide), sub_of_mem (y := main_v23) rfl (by decide), sub_of_mem (y := main_v24) rfl (by decide), sub_of_mem (y := main_v25) rfl (by decide), sub_of_mem (y := main_v26) rfl (by decide), sub_of_mem (y := main_v27) rfl (by decide), sub_of_mem (y := main_c_8) rfl (by decide), sub_of_mem (y := main_v28) rfl (by decide), sub_of_mem (y := main_v29) rfl (by decide), sub_of_mem (y := main_c_9) rfl (by decide), sub_of_mem (y := main_v30) rfl (by decide), sub_of_mem (y := main_v31) rfl (by decide), sub_of_mem (y := main_v32) rfl (by decide), sub_of_mem (y := main_v33) rfl (by decide), sub_of_mem (y := main_v34) rfl (by decide), sub_of_mem (y := main_v35) rfl (by decide), sub_of_mem (y := main_v36) rfl (by decide)⟩
/-- A buffer that `seg0` does not write keeps its contents through it. -/
theorem seg0_keep (W : 𝕍) (r : Ref sig .tc) (h : r ∉ seg0_W) : after seg0 W (Proc.devRef .tc r) = W (Proc.devRef .tc r) :=
  after_of_writes_sub seg0 _ seg0_writes h

/-- The buffers that the operations of `seg1` write. -/
abbrev seg1_W : List (Ref sig .tc) := [main_c_10, main_v37, main_v38, main_c_11, main_v39, main_v40, main_v41, main_v42, main_v43, main_c_12, main_v44, main_v45, main_c_13, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_cst_14, main_v74, main_c_15, main_v75, main_v76, main_c_16, main_v77, main_v78, main_v79, main_v80, main_v81]
theorem seg1_writes : (seg1 : List (HloOp τ sig (Elt Ideal))).Forall fun op => op.writes ⊆ (seg1_W.map (Proc.devRef (τ := τ) .tc)).toFinset :=
  ⟨sub_of_mem (y := main_c_10) rfl (by decide), sub_of_mem (y := main_v37) rfl (by decide), sub_of_mem (y := main_v38) rfl (by decide), sub_of_mem (y := main_c_11) rfl (by decide), sub_of_mem (y := main_v39) rfl (by decide), sub_of_mem (y := main_v40) rfl (by decide), sub_of_mem (y := main_v41) rfl (by decide), sub_of_mem (y := main_v42) rfl (by decide), sub_of_mem (y := main_v43) rfl (by decide), sub_of_mem (y := main_c_12) rfl (by decide), sub_of_mem (y := main_v44) rfl (by decide), sub_of_mem (y := main_v45) rfl (by decide), sub_of_mem (y := main_c_13) rfl (by decide), sub_of_mem (y := main_v46) rfl (by decide), sub_of_mem (y := main_v47) rfl (by decide), sub_of_mem (y := main_v48) rfl (by decide), sub_of_mem (y := main_v49) rfl (by decide), sub_of_mem (y := main_v50) rfl (by decide), sub_of_mem (y := main_v51) rfl (by decide), sub_of_mem (y := main_v52) rfl (by decide), sub_of_mem (y := main_v53) rfl (by decide), sub_of_mem (y := main_v54) rfl (by decide), sub_of_mem (y := main_v55) rfl (by decide), sub_of_mem (y := main_v56) rfl (by decide), sub_of_mem (y := main_v57) rfl (by decide), sub_of_mem (y := main_v58) rfl (by decide), sub_of_mem (y := main_v59) rfl (by decide), sub_of_mem (y := main_v60) rfl (by decide), sub_of_mem (y := main_v61) rfl (by decide), sub_of_mem (y := main_v62) rfl (by decide), sub_of_mem (y := main_v63) rfl (by decide), sub_of_mem (y := main_v64) rfl (by decide), sub_of_mem (y := main_v65) rfl (by decide), sub_of_mem (y := main_v66) rfl (by decide), sub_of_mem (y := main_v67) rfl (by decide), sub_of_mem (y := main_v68) rfl (by decide), sub_of_mem (y := main_v69) rfl (by decide), sub_of_mem (y := main_v70) rfl (by decide), sub_of_mem (y := main_v71) rfl (by decide), sub_of_mem (y := main_v72) rfl (by decide), sub_of_mem (y := main_v73) rfl (by decide), sub_of_mem (y := main_cst_14) rfl (by decide), sub_of_mem (y := main_v74) rfl (by decide), sub_of_mem (y := main_c_15) rfl (by decide), sub_of_mem (y := main_v75) rfl (by decide), sub_of_mem (y := main_v76) rfl (by decide), sub_of_mem (y := main_c_16) rfl (by decide), sub_of_mem (y := main_v77) rfl (by decide), sub_of_mem (y := main_v78) rfl (by decide), sub_of_mem (y := main_v79) rfl (by decide), sub_of_mem (y := main_v80) rfl (by decide), sub_of_mem (y := main_v81) rfl (by decide)⟩
/-- A buffer that `seg1` does not write keeps its contents through it. -/
theorem seg1_keep (W : 𝕍) (r : Ref sig .tc) (h : r ∉ seg1_W) : after seg1 W (Proc.devRef .tc r) = W (Proc.devRef .tc r) :=
  after_of_writes_sub seg1 _ seg1_writes h

/-- The buffers that the operations of `seg2` write. -/
abbrev seg2_W : List (Ref sig .tc) := [main_v82, main_v83, main_v84, main_v85, main_v86, main_v87, main_v88, main_v89, main_v90, main_v91, main_cst_17, main_call1_cst, main_call1_v0, main_call1_v1, main_call1_v2, main_call1_v3, main_call1_v4, main_v92]
theorem seg2_writes : (seg2 : List (HloOp τ sig (Elt Ideal))).Forall fun op => op.writes ⊆ (seg2_W.map (Proc.devRef (τ := τ) .tc)).toFinset :=
  ⟨sub_of_mem (y := main_v82) rfl (by decide), sub_of_mem (y := main_v83) rfl (by decide), sub_of_mem (y := main_v84) rfl (by decide), sub_of_mem (y := main_v85) rfl (by decide), sub_of_mem (y := main_v86) rfl (by decide), sub_of_mem (y := main_v87) rfl (by decide), sub_of_mem (y := main_v88) rfl (by decide), sub_of_mem (y := main_v89) rfl (by decide), sub_of_mem (y := main_v90) rfl (by decide), sub_of_mem (y := main_v91) rfl (by decide), sub_of_mem (y := main_cst_17) rfl (by decide), sub_of_mem (y := main_call1_cst) rfl (by decide), sub_of_mem (y := main_call1_v0) rfl (by decide), sub_of_mem (y := main_call1_v1) rfl (by decide), sub_of_mem (y := main_call1_v2) rfl (by decide), sub_of_mem (y := main_call1_v3) rfl (by decide), sub_of_mem (y := main_call1_v4) rfl (by decide), sub_of_mem (y := main_v92) rfl (by decide)⟩
/-- A buffer that `seg2` does not write keeps its contents through it. -/
theorem seg2_keep (W : 𝕍) (r : Ref sig .tc) (h : r ∉ seg2_W) : after seg2 W (Proc.devRef .tc r) = W (Proc.devRef .tc r) :=
  after_of_writes_sub seg2 _ seg2_writes h

/-! ## What each piece computes

The heavy whole-array operations stay folded while a fold is compared with its stage: the comparison never looks inside them. -/

attribute [local irreducible] Host.gather Host.scatterAdd Host.divf Host.sqrt

/-- Whether a node's degree is positive. -/
def degPos (a0 : IVec S2x1600000 32) : IVec S100000 1 :=
  cmpf (F := Ideal) .ogt (RSpec.deg a0) (broadcastInDim S100000 ![] bcast_S_S100000 (constant (F := Ideal) S_ .f32 0x00000000#32))
/-- One over the square root of a node's degree raised to at least one. -/
def degInv (a0 : IVec S2x1600000 32) : FVec Ideal S100000 .f32 :=
  Host.divf (F := Ideal) (broadcastInDim S100000 ![] bcast_S_S100000 (constant (F := Ideal) S_ .f32 0x3F800000#32)) (Host.sqrt (F := Ideal) (maximumf (F := Ideal) (RSpec.deg a0) (broadcastInDim S100000 ![] bcast_S_S100000 (constant (F := Ideal) S_ .f32 0x3F800000#32))))

theorem s0a_frm (W : 𝕍) : after s0a W (main_v1 : DevRef τ sig) = RSpec.frm (W (main_arg0 : DevRef τ sig)) := by
  simp only [s0a]
  after_results_simp
  rfl

theorem s0a_dst (W : 𝕍) : after s0a W (main_v3 : DevRef τ sig) = RSpec.dst (W (main_arg0 : DevRef τ sig)) := by
  simp only [s0a]
  after_results_simp
  rfl

theorem s0b_deg (W : 𝕍) (a0 : IVec S2x1600000 32) (h3 : W (main_v3 : DevRef τ sig) = RSpec.dst a0) :
    after s0b W (main_v12 : DevRef τ sig) = RSpec.deg a0 := by
  simp only [s0b]
  after_results_simp
  rw [h3]
  rfl

theorem s0c_pos (W : 𝕍) (a0 : IVec S2x1600000 32) (h12 : W (main_v12 : DevRef τ sig) = RSpec.deg a0) :
    after s0c W (main_v14 : DevRef τ sig) = degPos a0 := by
  simp only [s0c]
  after_results_simp
  rw [h12]
  rfl

theorem s0c_inv (W : 𝕍) (a0 : IVec S2x1600000 32) (h12 : W (main_v12 : DevRef τ sig) = RSpec.deg a0) :
    after s0c W (main_v19 : DevRef τ sig) = degInv a0 := by
  simp only [s0c]
  after_results_simp
  rw [h12]
  rfl

theorem s0c_zero (W : 𝕍) : after s0c W (main_cst_5 : DevRef τ sig) = constant (F := Ideal) S_ .f32 0x00000000#32 := by
  simp only [s0c]
  after_results_simp

set_option maxRecDepth 200000 in
theorem s0d_sel (W : 𝕍) :
    after s0d W (main_v20 : DevRef τ sig)
      = select (W (main_v14 : DevRef τ sig) : IVec S100000 1) (W (main_v19 : DevRef τ sig) : FVec Ideal S100000 .f32)
          (broadcastInDim S100000 ![] bcast_S_S100000 (id (W (main_cst_5 : DevRef τ sig) : FVec Ideal S_ .f32))) := by
  simp only [s0d]
  after_results_simp
  rfl

theorem s0d_dis (W : 𝕍) (a0 : IVec S2x1600000 32) (h14 : W (main_v14 : DevRef τ sig) = degPos a0) (h19 : W (main_v19 : DevRef τ sig) = degInv a0)
    (h5 : W (main_cst_5 : DevRef τ sig) = constant (F := Ideal) S_ .f32 0x00000000#32) :
    after s0d W (main_v20 : DevRef τ sig) = RSpec.dis a0 := by
  rw [s0d_sel W, h14, h19, h5]
  rfl

set_option maxHeartbeats 2000000 in
theorem s0e_nrm (W : 𝕍) (a0 : IVec S2x1600000 32) (h1 : W (main_v1 : DevRef τ sig) = RSpec.frm a0) (h3 : W (main_v3 : DevRef τ sig) = RSpec.dst a0)
    (h20 : W (main_v20 : DevRef τ sig) = RSpec.dis a0) :
    after s0e W (main_v36 : DevRef τ sig) = RSpec.nrm a0 (W (main_arg1 : DevRef τ sig)) := by
  simp only [s0e]
  after_results_simp
  rw [h1, h3, h20]
  rfl

/-! ### The first piece, whole -/

theorem seg0_frm (W : 𝕍) : after seg0 W (main_v1 : DevRef τ sig) = RSpec.frm (W (main_arg0 : DevRef τ sig)) := by
  rw [seg0_cut]
  simp only [after_app]
  rw [s0e_keep _ main_v1 (by decide), s0d_keep _ main_v1 (by decide), s0c_keep _ main_v1 (by decide), s0b_keep _ main_v1 (by decide)]
  exact s0a_frm W

theorem seg0_dst (W : 𝕍) : after seg0 W (main_v3 : DevRef τ sig) = RSpec.dst (W (main_arg0 : DevRef τ sig)) := by
  rw [seg0_cut]
  simp only [after_app]
  rw [s0e_keep _ main_v3 (by decide), s0d_keep _ main_v3 (by decide), s0c_keep _ main_v3 (by decide), s0b_keep _ main_v3 (by decide)]
  exact s0a_dst W

theorem seg0_nrm (W : 𝕍) : after seg0 W (main_v36 : DevRef τ sig) = RSpec.nrm (W (main_arg0 : DevRef τ sig)) (W (main_arg1 : DevRef τ sig)) := by
  rw [seg0_cut]
  simp only [after_app]
  have e3a : after s0a W (main_v3 : DevRef τ sig) = RSpec.dst (W (main_arg0 : DevRef τ sig)) := s0a_dst W
  have e1a : after s0a W (main_v1 : DevRef τ sig) = RSpec.frm (W (main_arg0 : DevRef τ sig)) := s0a_frm W
  have e12 : after s0b (after s0a W) (main_v12 : DevRef τ sig) = RSpec.deg (W (main_arg0 : DevRef τ sig)) := s0b_deg _ _ e3a
  have e14 := s0c_pos _ _ e12
  have e19 := s0c_inv _ _ e12
  have e5 := s0c_zero (after s0b (after s0a W))
  have e20 := s0d_dis _ _ e14 e19 e5
  have e1 : after s0d (after s0c (after s0b (after s0a W))) (main_v1 : DevRef τ sig) = RSpec.frm (W (main_arg0 : DevRef τ sig)) := by
    rw [s0d_keep _ main_v1 (by decide), s0c_keep _ main_v1 (by decide), s0b_keep _ main_v1 (by decide)]; exact e1a
  have e3 : after s0d (after s0c (after s0b (after s0a W))) (main_v3 : DevRef τ sig) = RSpec.dst (W (main_arg0 : DevRef τ sig)) := by
    rw [s0d_keep _ main_v3 (by decide), s0c_keep _ main_v3 (by decide), s0b_keep _ main_v3 (by decide)]; exact e3a
  refine (s0e_nrm _ _ e1 e3 e20).trans ?_
  rw [s0d_keep _ main_arg1 (by decide), s0c_keep _ main_arg1 (by decide), s0b_keep _ main_arg1 (by decide), s0a_keep _ main_arg1 (by decide)]

/-! ### Layer 0 -/

set_option maxHeartbeats 4000000 in
/-- Layer 0's aggregated messages, from contents holding the id vectors, the coefficients and the layer's input features. -/
theorem seg1_agg (W : 𝕍) (a0 : IVec S2x1600000 32) (a1 : FVec Ideal S1600000 .f32)
    (h1 : W (main_v1 : DevRef τ sig) = RSpec.frm a0) (h3 : W (main_v3 : DevRef τ sig) = RSpec.dst a0) (h36 : W (main_v36 : DevRef τ sig) = RSpec.nrm a0 a1) :
    after seg1 W (main_v81 : DevRef τ sig)
      = RSpec.sct (RSpec.msg0 (RSpec.gat (W (main_arg2 : DevRef τ sig)) (RSpec.frm a0)) (RSpec.gat (W (main_arg2 : DevRef τ sig)) (RSpec.dst a0)) a0 a1
          (W (main_arg3 : DevRef τ sig)) (W (main_arg4 : DevRef τ sig)) (W (main_arg5 : DevRef τ sig)) (W (main_arg6 : DevRef τ sig))) (RSpec.dst a0) := by
  simp only [seg1]
  after_results_simp
  rw [h1, h3, h36]
  rfl

set_option maxHeartbeats 2000000 in
/-- Layer 0's update, from contents holding the aggregated messages and the layer's input features. -/
theorem seg2_upd (W : 𝕍) :
    after seg2 W (main_v92 : DevRef τ sig)
      = RSpec.upd0 (W (main_v81 : DevRef τ sig)) (W (main_arg2 : DevRef τ sig)) (W (main_arg3 : DevRef τ sig)) (W (main_arg4 : DevRef τ sig)) := by
  simp only [seg2]
  after_results_simp
  rfl

end Cert.ReferenceIdeal.RefRun

end
-- ==== Proof.RefSegB.lean ====
/-
  The reference program's second and third layers, read off its operation list piece by piece.

  Pieces 3 to 6 of the list are layer 1's messages with their aggregation, layer 1's update, and the same two for
  layer 2. For each piece: the buffers it writes, that every other buffer keeps its contents through it, and the one
  buffer read later as a stage function of the contents before the piece — the aggregated messages as the scatter-add
  of the layer's messages of the gathered rows, the updated features as the layer's update of the aggregated messages
  and the layer's input. The gathers, the scatter-adds and the host's division and square root stay folded while a
  piece's fold is compared with its stage.
-/
import proofs.«174210_j74363063763024_1_alg».proof.Proof.RefOps
import proofs.«174210_j74363063763024_1_alg».proof.Proof.RSpec

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

local notation "𝕍" => Valuation τ sig (Elt Ideal)

/-- An operation whose one written buffer is in a list writes inside the list's buffers. -/
theorem sub_of_memB {op : HloOp τ sig (Elt Ideal)} {y : Ref sig .tc} {W : List (Ref sig .tc)}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

/-! ## What each piece writes, and what it keeps -/

/-- The buffers that the operations of `seg3` write. -/
abbrev seg3_W : List (Ref sig .tc) := [main_c_18, main_v93, main_v94, main_c_19, main_v95, main_v96, main_v97, main_v98, main_v99, main_c_20, main_v100, main_v101, main_c_21, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_cst_22, main_v130, main_c_23, main_v131, main_v132, main_c_24, main_v133, main_v134, main_v135, main_v136, main_v137]
theorem seg3_writes : (seg3 : List (HloOp τ sig (Elt Ideal))).Forall fun op => op.writes ⊆ (seg3_W.map (Proc.devRef (τ := τ) .tc)).toFinset :=
  ⟨sub_of_memB (y := main_c_18) rfl (by decide), sub_of_memB (y := main_v93) rfl (by decide), sub_of_memB (y := main_v94) rfl (by decide), sub_of_memB (y := main_c_19) rfl (by decide), sub_of_memB (y := main_v95) rfl (by decide), sub_of_memB (y := main_v96) rfl (by decide), sub_of_memB (y := main_v97) rfl (by decide), sub_of_memB (y := main_v98) rfl (by decide), sub_of_memB (y := main_v99) rfl (by decide), sub_of_memB (y := main_c_20) rfl (by decide), sub_of_memB (y := main_v100) rfl (by decide), sub_of_memB (y := main_v101) rfl (by decide), sub_of_memB (y := main_c_21) rfl (by decide), sub_of_memB (y := main_v102) rfl (by decide), sub_of_memB (y := main_v103) rfl (by decide), sub_of_memB (y := main_v104) rfl (by decide), sub_of_memB (y := main_v105) rfl (by decide), sub_of_memB (y := main_v106) rfl (by decide), sub_of_memB (y := main_v107) rfl (by decide), sub_of_memB (y := main_v108) rfl (by decide), sub_of_memB (y := main_v109) rfl (by decide), sub_of_memB (y := main_v110) rfl (by decide), sub_of_memB (y := main_v111) rfl (by decide), sub_of_memB (y := main_v112) rfl (by decide), sub_of_memB (y := main_v113) rfl (by decide), sub_of_memB (y := main_v114) rfl (by decide), sub_of_memB (y := main_v115) rfl (by decide), sub_of_memB (y := main_v116) rfl (by decide), sub_of_memB (y := main_v117) rfl (by decide), sub_of_memB (y := main_v118) rfl (by decide), sub_of_memB (y := main_v119) rfl (by decide), sub_of_memB (y := main_v120) rfl (by decide), sub_of_memB (y := main_v121) rfl (by decide), sub_of_memB (y := main_v122) rfl (by decide), sub_of_memB (y := main_v123) rfl (by decide), sub_of_memB (y := main_v124) rfl (by decide), sub_of_memB (y := main_v125) rfl (by decide), sub_of_memB (y := main_v126) rfl (by decide), sub_of_memB (y := main_v127) rfl (by decide), sub_of_memB (y := main_v128) rfl (by decide), sub_of_memB (y := main_v129) rfl (by decide), sub_of_memB (y := main_cst_22) rfl (by decide), sub_of_memB (y := main_v130) rfl (by decide), sub_of_memB (y := main_c_23) rfl (by decide), sub_of_memB (y := main_v131) rfl (by decide), sub_of_memB (y := main_v132) rfl (by decide), sub_of_memB (y := main_c_24) rfl (by decide), sub_of_memB (y := main_v133) rfl (by decide), sub_of_memB (y := main_v134) rfl (by decide), sub_of_memB (y := main_v135) rfl (by decide), sub_of_memB (y := main_v136) rfl (by decide), sub_of_memB (y := main_v137) rfl (by decide)⟩
/-- A buffer that `seg3` does not write keeps its contents through it. -/
theorem seg3_keep (W : 𝕍) (r : Ref sig .tc) (h : r ∉ seg3_W) : after seg3 W (Proc.devRef .tc r) = W (Proc.devRef .tc r) :=
  after_of_writes_sub seg3 _ seg3_writes h

/-- The buffers that the operations of `seg4` write. -/
abbrev seg4_W : List (Ref sig .tc) := [main_v138, main_v139, main_v140, main_v141, main_v142, main_v143, main_v144, main_v145, main_v146, main_v147, main_cst_25, main_call2_cst, main_call2_v0, main_call2_v1, main_call2_v2, main_call2_v3, main_call2_v4, main_v148]
theorem seg4_writes : (seg4 : List (HloOp τ sig (Elt Ideal))).Forall fun op => op.writes ⊆ (seg4_W.map (Proc.devRef (τ := τ) .tc)).toFinset :=
  ⟨sub_of_memB (y := main_v138) rfl (by decide), sub_of_memB (y := main_v139) rfl (by decide), sub_of_memB (y := main_v140) rfl (by decide), sub_of_memB (y := main_v141) rfl (by decide), sub_of_memB (y := main_v142) rfl (by decide), sub_of_memB (y := main_v143) rfl (by decide), sub_of_memB (y := main_v144) rfl (by decide), sub_of_memB (y := main_v145) rfl (by decide), sub_of_memB (y := main_v146) rfl (by decide), sub_of_memB (y := main_v147) rfl (by decide), sub_of_memB (y := main_cst_25) rfl (by decide), sub_of_memB (y := main_call2_cst) rfl (by decide), sub_of_memB (y := main_call2_v0) rfl (by decide), sub_of_memB (y := main_call2_v1) rfl (by decide), sub_of_memB (y := main_call2_v2) rfl (by decide), sub_of_memB (y := main_call2_v3) rfl (by decide), sub_of_memB (y := main_call2_v4) rfl (by decide), sub_of_memB (y := main_v148) rfl (by decide)⟩
/-- A buffer that `seg4` does not write keeps its contents through it. -/
theorem seg4_keep (W : 𝕍) (r : Ref sig .tc) (h : r ∉ seg4_W) : after seg4 W (Proc.devRef .tc r) = W (Proc.devRef .tc r) :=
  after_of_writes_sub seg4 _ seg4_writes h

/-- The buffers that the operations of `seg5` write. -/
abbrev seg5_W : List (Ref sig .tc) := [main_c_26, main_v149, main_v150, main_c_27, main_v151, main_v152, main_v153, main_v154, main_v155, main_c_28, main_v156, main_v157, main_c_29, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_cst_30, main_v186, main_c_31, main_v187, main_v188, main_c_32, main_v189, main_v190, main_v191, main_v192, main_v193]
theorem seg5_writes : (seg5 : List (HloOp τ sig (Elt Ideal))).Forall fun op => op.writes ⊆ (seg5_W.map (Proc.devRef (τ := τ) .tc)).toFinset :=
  ⟨sub_of_memB (y := main_c_26) rfl (by decide), sub_of_memB (y := main_v149) rfl (by decide), sub_of_memB (y := main_v150) rfl (by decide), sub_of_memB (y := main_c_27) rfl (by decide), sub_of_memB (y := main_v151) rfl (by decide), sub_of_memB (y := main_v152) rfl (by decide), sub_of_memB (y := main_v153) rfl (by decide), sub_of_memB (y := main_v154) rfl (by decide), sub_of_memB (y := main_v155) rfl (by decide), sub_of_memB (y := main_c_28) rfl (by decide), sub_of_memB (y := main_v156) rfl (by decide), sub_of_memB (y := main_v157) rfl (by decide), sub_of_memB (y := main_c_29) rfl (by decide), sub_of_memB (y := main_v158) rfl (by decide), sub_of_memB (y := main_v159) rfl (by decide), sub_of_memB (y := main_v160) rfl (by decide), sub_of_memB (y := main_v161) rfl (by decide), sub_of_memB (y := main_v162) rfl (by decide), sub_of_memB (y := main_v163) rfl (by decide), sub_of_memB (y := main_v164) rfl (by decide), sub_of_memB (y := main_v165) rfl (by decide), sub_of_memB (y := main_v166) rfl (by decide), sub_of_memB (y := main_v167) rfl (by decide), sub_of_memB (y := main_v168) rfl (by decide), sub_of_memB (y := main_v169) rfl (by decide), sub_of_memB (y := main_v170) rfl (by decide), sub_of_memB (y := main_v171) rfl (by decide), sub_of_memB (y := main_v172) rfl (by decide), sub_of_memB (y := main_v173) rfl (by decide), sub_of_memB (y := main_v174) rfl (by decide), sub_of_memB (y := main_v175) rfl (by decide), sub_of_memB (y := main_v176) rfl (by decide), sub_of_memB (y := main_v177) rfl (by decide), sub_of_memB (y := main_v178) rfl (by decide), sub_of_memB (y := main_v179) rfl (by decide), sub_of_memB (y := main_v180) rfl (by decide), sub_of_memB (y := main_v181) rfl (by decide), sub_of_memB (y := main_v182) rfl (by decide), sub_of_memB (y := main_v183) rfl (by decide), sub_of_memB (y := main_v184) rfl (by decide), sub_of_memB (y := main_v185) rfl (by decide), sub_of_memB (y := main_cst_30) rfl (by decide), sub_of_memB (y := main_v186) rfl (by decide), sub_of_memB (y := main_c_31) rfl (by decide), sub_of_memB (y := main_v187) rfl (by decide), sub_of_memB (y := main_v188) rfl (by decide), sub_of_memB (y := main_c_32) rfl (by decide), sub_of_memB (y := main_v189) rfl (by decide), sub_of_memB (y := main_v190) rfl (by decide), sub_of_memB (y := main_v191) rfl (by decide), sub_of_memB (y := main_v192) rfl (by decide), sub_of_memB (y := main_v193) rfl (by decide)⟩
/-- A buffer that `seg5` does not write keeps its contents through it. -/
theorem seg5_keep (W : 𝕍) (r : Ref sig .tc) (h : r ∉ seg5_W) : after seg5 W (Proc.devRef .tc r) = W (Proc.devRef .tc r) :=
  after_of_writes_sub seg5 _ seg5_writes h

/-- The buffers that the operations of `seg6` write. -/
abbrev seg6_W : List (Ref sig .tc) := [main_v194, main_v195, main_v196, main_v197, main_v198, main_v199, main_v200, main_v201, main_v202, main_v203, main_cst_33, main_call3_cst, main_call3_v0, main_call3_v1, main_call3_v2, main_call3_v3, main_call3_v4, main_v204]
theorem seg6_writes : (seg6 : List (HloOp τ sig (Elt Ideal))).Forall fun op => op.writes ⊆ (seg6_W.map (Proc.devRef (τ := τ) .tc)).toFinset :=
  ⟨sub_of_memB (y := main_v194) rfl (by decide), sub_of_memB (y := main_v195) rfl (by decide), sub_of_memB (y := main_v196) rfl (by decide), sub_of_memB (y := main_v197) rfl (by decide), sub_of_memB (y := main_v198) rfl (by decide), sub_of_memB (y := main_v199) rfl (by decide), sub_of_memB (y := main_v200) rfl (by decide), sub_of_memB (y := main_v201) rfl (by decide), sub_of_memB (y := main_v202) rfl (by decide), sub_of_memB (y := main_v203) rfl (by decide), sub_of_memB (y := main_cst_33) rfl (by decide), sub_of_memB (y := main_call3_cst) rfl (by decide), sub_of_memB (y := main_call3_v0) rfl (by decide), sub_of_memB (y := main_call3_v1) rfl (by decide), sub_of_memB (y := main_call3_v2) rfl (by decide), sub_of_memB (y := main_call3_v3) rfl (by decide), sub_of_memB (y := main_call3_v4) rfl (by decide), sub_of_memB (y := main_v204) rfl (by decide)⟩
/-- A buffer that `seg6` does not write keeps its contents through it. -/
theorem seg6_keep (W : 𝕍) (r : Ref sig .tc) (h : r ∉ seg6_W) : after seg6 W (Proc.devRef .tc r) = W (Proc.devRef .tc r) :=
  after_of_writes_sub seg6 _ seg6_writes h

/-! ## What each piece computes -/

attribute [local irreducible] Host.gather Host.scatterAdd Host.divf Host.sqrt

set_option maxHeartbeats 4000000 in
/-- Layer 1's aggregated messages, from contents holding the id vectors, the coefficients and the layer's input features. -/
theorem seg3_agg (W : 𝕍) (a0 : IVec S2x1600000 32) (a1 : FVec Ideal S1600000 .f32)
    (h1 : W (main_v1 : DevRef τ sig) = RSpec.frm a0) (h3 : W (main_v3 : DevRef τ sig) = RSpec.dst a0) (h36 : W (main_v36 : DevRef τ sig) = RSpec.nrm a0 a1) :
    after seg3 W (main_v137 : DevRef τ sig)
      = RSpec.sct (RSpec.msg1 (RSpec.gat (W (main_v92 : DevRef τ sig)) (RSpec.frm a0)) (RSpec.gat (W (main_v92 : DevRef τ sig)) (RSpec.dst a0)) a0 a1
          (W (main_arg3 : DevRef τ sig)) (W (main_arg4 : DevRef τ sig)) (W (main_arg5 : DevRef τ sig)) (W (main_arg6 : DevRef τ sig))) (RSpec.dst a0) := by
  simp only [seg3]
  after_results_simp
  rw [h1, h3, h36]
  rfl

set_option maxHeartbeats 2000000 in
/-- Layer 1's update, from contents holding the aggregated messages and the layer's input features. -/
theorem seg4_upd (W : 𝕍) :
    after seg4 W (main_v148 : DevRef τ sig)
      = RSpec.upd1 (W (main_v137 : DevRef τ sig)) (W (main_v92 : DevRef τ sig)) (W (main_arg3 : DevRef τ sig)) (W (main_arg4 : DevRef τ sig)) := by
  simp only [seg4]
  after_results_simp
  rfl

set_option maxHeartbeats 4000000 in
/-- Layer 2's aggregated messages, from contents holding the id vectors, the coefficients and the layer's input features. -/
theorem seg5_agg (W : 𝕍) (a0 : IVec S2x1600000 32) (a1 : FVec Ideal S1600000 .f32)
    (h1 : W (main_v1 : DevRef τ sig) = RSpec.frm a0) (h3 : W (main_v3 : DevRef τ sig) = RSpec.dst a0) (h36 : W (main_v36 : DevRef τ sig) = RSpec.nrm a0 a1) :
    after seg5 W (main_v193 : DevRef τ sig)
      = RSpec.sct (RSpec.msg2 (RSpec.gat (W (main_v148 : DevRef τ sig)) (RSpec.frm a0)) (RSpec.gat (W (main_v148 : DevRef τ sig)) (RSpec.dst a0)) a0 a1
          (W (main_arg3 : DevRef τ sig)) (W (main_arg4 : DevRef τ sig)) (W (main_arg5 : DevRef τ sig)) (W (main_arg6 : DevRef τ sig))) (RSpec.dst a0) := by
  simp only [seg5]
  after_results_simp
  rw [h1, h3, h36]
  rfl

set_option maxHeartbeats 2000000 in
/-- Layer 2's update, from contents holding the aggregated messages and the layer's input features. -/
theorem seg6_upd (W : 𝕍) :
    after seg6 W (main_v204 : DevRef τ sig)
      = RSpec.upd2 (W (main_v193 : DevRef τ sig)) (W (main_v148 : DevRef τ sig)) (W (main_arg3 : DevRef τ sig)) (W (main_arg4 : DevRef τ sig)) := by
  simp only [seg6]
  after_results_simp
  rfl

end Cert.ReferenceIdeal.RefRun

end
-- ==== Proof.RefValue.lean ====
/-
  The value of the reference program's result, as the composition of its named stages.

  The operation list is read in eight consecutive pieces. At the end of each piece only a few buffers are read later:
  the two id vectors, the normalisation coefficients, the current node features and the arguments. For each piece, the
  contents of each such buffer after the piece are a stage function of the contents before it — the fold of the piece's
  operations read off at that buffer —, and a buffer the piece does not write keeps its contents. Chaining the eight
  pieces gives the result buffer as the three layers applied to the input features, concatenated with them, and
  leaves every argument as it was.
-/
import proofs.«174210_j74363063763024_1_alg».proof.Proof.RefSegA
import proofs.«174210_j74363063763024_1_alg».proof.Proof.RefSegB

noncomputable section

namespace Cert.ReferenceIdeal.RefRun

open Cert.ReferenceIdeal Cert.ReferenceIdeal.Gen Idealize.ShloMosaic Idealize.ShloMosaic.TcCoe Idealize.SL.Sem Idealize.ShloMosaic.StableHlo

local notation "𝕍" => Valuation τ sig (Elt Ideal)

/-! ## The last piece -/

/-- The buffers that the operations of `seg7` write. -/
abbrev seg7_W : List (Ref sig .tc) := [main_v205]
theorem seg7_writes : (seg7 : List (HloOp τ sig (Elt Ideal))).Forall fun op => op.writes ⊆ (seg7_W.map (Proc.devRef (τ := τ) .tc)).toFinset :=
  (sub_of_mem (y := main_v205) rfl (by decide))
/-- A buffer that `seg7` does not write keeps its contents through it. -/
theorem seg7_keep (W : 𝕍) (r : Ref sig .tc) (h : r ∉ seg7_W) : after seg7 W (Proc.devRef .tc r) = W (Proc.devRef .tc r) :=
  after_of_writes_sub seg7 _ seg7_writes h

theorem seg7_out (W : 𝕍) :
    after seg7 W (main_v205 : DevRef τ sig)
      = concatenate S100000x128 1 [⟨S100000x64, W (main_arg2 : DevRef τ sig)⟩, ⟨S100000x64, W (main_v204 : DevRef τ sig)⟩] concatenates_S100000x64_S100000x64_S100000x128_d1 := by
  simp only [seg7]
  after_results_simp

/-! ## The chain

`valK V` is the contents after the first `K` pieces from contents `V`; each lemma reads one buffer that is still read later. -/

/-- The node features after layer 0, layer 1 and layer 2, from the arguments' contents. -/
def feat0 (V : 𝕍) : FVec Ideal S100000x64 .f32 := RSpec.layer0 (V (main_arg2 : DevRef τ sig)) (V (main_arg0 : DevRef τ sig)) (V (main_arg1 : DevRef τ sig)) (V (main_arg3 : DevRef τ sig)) (V (main_arg4 : DevRef τ sig)) (V (main_arg5 : DevRef τ sig)) (V (main_arg6 : DevRef τ sig))
@[inherit_doc feat0]
def feat1 (V : 𝕍) : FVec Ideal S100000x64 .f32 := RSpec.layer1 (feat0 V) (V (main_arg0 : DevRef τ sig)) (V (main_arg1 : DevRef τ sig)) (V (main_arg3 : DevRef τ sig)) (V (main_arg4 : DevRef τ sig)) (V (main_arg5 : DevRef τ sig)) (V (main_arg6 : DevRef τ sig))
@[inherit_doc feat0]
def feat2 (V : 𝕍) : FVec Ideal S100000x64 .f32 := RSpec.layer2 (feat1 V) (V (main_arg0 : DevRef τ sig)) (V (main_arg1 : DevRef τ sig)) (V (main_arg3 : DevRef τ sig)) (V (main_arg4 : DevRef τ sig)) (V (main_arg5 : DevRef τ sig)) (V (main_arg6 : DevRef τ sig))

/-- The contents after the first piece. -/
def val1 (V : 𝕍) : 𝕍 := after seg0 V
theorem val1_main_v1 (V : 𝕍) : val1 V (main_v1 : DevRef τ sig) = RSpec.frm (V (main_arg0 : DevRef τ sig)) := seg0_frm V
theorem val1_main_v3 (V : 𝕍) : val1 V (main_v3 : DevRef τ sig) = RSpec.dst (V (main_arg0 : DevRef τ sig)) := seg0_dst V
theorem val1_main_v36 (V : 𝕍) : val1 V (main_v36 : DevRef τ sig) = RSpec.nrm (V (main_arg0 : DevRef τ sig)) (V (main_arg1 : DevRef τ sig)) := seg0_nrm V
theorem val1_main_arg2 (V : 𝕍) : val1 V (main_arg2 : DevRef τ sig) = V (main_arg2 : DevRef τ sig) := seg0_keep V main_arg2 (by decide)
theorem val1_main_arg3 (V : 𝕍) : val1 V (main_arg3 : DevRef τ sig) = V (main_arg3 : DevRef τ sig) := seg0_keep V main_arg3 (by decide)
theorem val1_main_arg4 (V : 𝕍) : val1 V (main_arg4 : DevRef τ sig) = V (main_arg4 : DevRef τ sig) := seg0_keep V main_arg4 (by decide)
theorem val1_main_arg5 (V : 𝕍) : val1 V (main_arg5 : DevRef τ sig) = V (main_arg5 : DevRef τ sig) := seg0_keep V main_arg5 (by decide)
theorem val1_main_arg6 (V : 𝕍) : val1 V (main_arg6 : DevRef τ sig) = V (main_arg6 : DevRef τ sig) := seg0_keep V main_arg6 (by decide)

/-- The contents after the first 2 pieces. -/
def val2 (V : 𝕍) : 𝕍 := after seg1 (val1 V)
theorem val2_main_v81 (V : 𝕍) : val2 V (main_v81 : DevRef τ sig) = RSpec.sct (RSpec.msg0 (RSpec.gat (V (main_arg2 : DevRef τ sig)) (RSpec.frm (V (main_arg0 : DevRef τ sig)))) (RSpec.gat (V (main_arg2 : DevRef τ sig)) (RSpec.dst (V (main_arg0 : DevRef τ sig)))) (V (main_arg0 : DevRef τ sig)) (V (main_arg1 : DevRef τ sig)) (V (main_arg3 : DevRef τ sig)) (V (main_arg4 : DevRef τ sig)) (V (main_arg5 : DevRef τ sig)) (V (main_arg6 : DevRef τ sig))) (RSpec.dst (V (main_arg0 : DevRef τ sig))) :=
  (seg1_agg (val1 V) (V (main_arg0 : DevRef τ sig)) (V (main_arg1 : DevRef τ sig)) (val1_main_v1 V) (val1_main_v3 V) (val1_main_v36 V)).trans
    (by rw [val1_main_arg2 V, val1_main_arg3 V, val1_main_arg4 V, val1_main_arg5 V, val1_main_arg6 V])
theorem val2_main_v1 (V : 𝕍) : val2 V (main_v1 : DevRef τ sig) = RSpec.frm (V (main_arg0 : DevRef τ sig)) :=
  (seg1_keep _ main_v1 (by decide)).trans (val1_main_v1 V)
theorem val2_main_v3 (V : 𝕍) : val2 V (main_v3 : DevRef τ sig) = RSpec.dst (V (main_arg0 : DevRef τ sig)) :=
  (seg1_keep _ main_v3 (by decide)).trans (val1_main_v3 V)
theorem val2_main_v36 (V : 𝕍) : val2 V (main_v36 : DevRef τ sig) = RSpec.nrm (V (main_arg0 : DevRef τ sig)) (V (main_arg1 : DevRef τ sig)) :=
  (seg1_keep _ main_v36 (by decide)).trans (val1_main_v36 V)
theorem val2_main_arg2 (V : 𝕍) : val2 V (main_arg2 : DevRef τ sig) = V (main_arg2 : DevRef τ sig) :=
  (seg1_keep _ main_arg2 (by decide)).trans (val1_main_arg2 V)
theorem val2_main_arg3 (V : 𝕍) : val2 V (main_arg3 : DevRef τ sig) = V (main_arg3 : DevRef τ sig) :=
  (seg1_keep _ main_arg3 (by decide)).trans (val1_main_arg3 V)
theorem val2_main_arg4 (V : 𝕍) : val2 V (main_arg4 : DevRef τ sig) = V (main_arg4 : DevRef τ sig) :=
  (seg1_keep _ main_arg4 (by decide)).trans (val1_main_arg4 V)
theorem val2_main_arg5 (V : 𝕍) : val2 V (main_arg5 : DevRef τ sig) = V (main_arg5 : DevRef τ sig) :=
  (seg1_keep _ main_arg5 (by decide)).trans (val1_main_arg5 V)
theorem val2_main_arg6 (V : 𝕍) : val2 V (main_arg6 : DevRef τ sig) = V (main_arg6 : DevRef τ sig) :=
  (seg1_keep _ main_arg6 (by decide)).trans (val1_main_arg6 V)

/-- The contents after the first 3 pieces. -/
def val3 (V : 𝕍) : 𝕍 := after seg2 (val2 V)
theorem val3_main_v92 (V : 𝕍) : val3 V (main_v92 : DevRef τ sig) = feat0 V :=
  (seg2_upd (val2 V)).trans
    (by rw [val2_main_v81 V, val2_main_arg2 V, val2_main_arg3 V, val2_main_arg4 V]; rfl)
theorem val3_main_v1 (V : 𝕍) : val3 V (main_v1 : DevRef τ sig) = RSpec.frm (V (main_arg0 : DevRef τ sig)) :=
  (seg2_keep _ main_v1 (by decide)).trans (val2_main_v1 V)
theorem val3_main_v3 (V : 𝕍) : val3 V (main_v3 : DevRef τ sig) = RSpec.dst (V (main_arg0 : DevRef τ sig)) :=
  (seg2_keep _ main_v3 (by decide)).trans (val2_main_v3 V)
theorem val3_main_v36 (V : 𝕍) : val3 V (main_v36 : DevRef τ sig) = RSpec.nrm (V (main_arg0 : DevRef τ sig)) (V (main_arg1 : DevRef τ sig)) :=
  (seg2_keep _ main_v36 (by decide)).trans (val2_main_v36 V)
theorem val3_main_arg2 (V : 𝕍) : val3 V (main_arg2 : DevRef τ sig) = V (main_arg2 : DevRef τ sig) :=
  (seg2_keep _ main_arg2 (by decide)).trans (val2_main_arg2 V)
theorem val3_main_arg3 (V : 𝕍) : val3 V (main_arg3 : DevRef τ sig) = V (main_arg3 : DevRef τ sig) :=
  (seg2_keep _ main_arg3 (by decide)).trans (val2_main_arg3 V)
theorem val3_main_arg4 (V : 𝕍) : val3 V (main_arg4 : DevRef τ sig) = V (main_arg4 : DevRef τ sig) :=
  (seg2_keep _ main_arg4 (by decide)).trans (val2_main_arg4 V)
theorem val3_main_arg5 (V : 𝕍) : val3 V (main_arg5 : DevRef τ sig) = V (main_arg5 : DevRef τ sig) :=
  (seg2_keep _ main_arg5 (by decide)).trans (val2_main_arg5 V)
theorem val3_main_arg6 (V : 𝕍) : val3 V (main_arg6 : DevRef τ sig) = V (main_arg6 : DevRef τ sig) :=
  (seg2_keep _ main_arg6 (by decide)).trans (val2_main_arg6 V)

/-- The contents after the first 4 pieces. -/
def val4 (V : 𝕍) : 𝕍 := after seg3 (val3 V)
theorem val4_main_v137 (V : 𝕍) : val4 V (main_v137 : DevRef τ sig) = RSpec.sct (RSpec.msg1 (RSpec.gat (feat0 V) (RSpec.frm (V (main_arg0 : DevRef τ sig)))) (RSpec.gat (feat0 V) (RSpec.dst (V (main_arg0 : DevRef τ sig)))) (V (main_arg0 : DevRef τ sig)) (V (main_arg1 : DevRef τ sig)) (V (main_arg3 : DevRef τ sig)) (V (main_arg4 : DevRef τ sig)) (V (main_arg5 : DevRef τ sig)) (V (main_arg6 : DevRef τ sig))) (RSpec.dst (V (main_arg0 : DevRef τ sig))) :=
  (seg3_agg (val3 V) (V (main_arg0 : DevRef τ sig)) (V (main_arg1 : DevRef τ sig)) (val3_main_v1 V) (val3_main_v3 V) (val3_main_v36 V)).trans
    (by rw [val3_main_v92 V, val3_main_arg3 V, val3_main_arg4 V, val3_main_arg5 V, val3_main_arg6 V])
theorem val4_main_v1 (V : 𝕍) : val4 V (main_v1 : DevRef τ sig) = RSpec.frm (V (main_arg0 : DevRef τ sig)) :=
  (seg3_keep _ main_v1 (by decide)).trans (val3_main_v1 V)
theorem val4_main_v3 (V : 𝕍) : val4 V (main_v3 : DevRef τ sig) = RSpec.dst (V (main_arg0 : DevRef τ sig)) :=
  (seg3_keep _ main_v3 (by decide)).trans (val3_main_v3 V)
theorem val4_main_v36 (V : 𝕍) : val4 V (main_v36 : DevRef τ sig) = RSpec.nrm (V (main_arg0 : DevRef τ sig)) (V (main_arg1 : DevRef τ sig)) :=
  (seg3_keep _ main_v36 (by decide)).trans (val3_main_v36 V)
theorem val4_main_v92 (V : 𝕍) : val4 V (main_v92 : DevRef τ sig) = feat0 V :=
  (seg3_keep _ main_v92 (by decide)).trans (val3_main_v92 V)
theorem val4_main_arg2 (V : 𝕍) : val4 V (main_arg2 : DevRef τ sig) = V (main_arg2 : DevRef τ sig) :=
  (seg3_keep _ main_arg2 (by decide)).trans (val3_main_arg2 V)
theorem val4_main_arg3 (V : 𝕍) : val4 V (main_arg3 : DevRef τ sig) = V (main_arg3 : DevRef τ sig) :=
  (seg3_keep _ main_arg3 (by decide)).trans (val3_main_arg3 V)
theorem val4_main_arg4 (V : 𝕍) : val4 V (main_arg4 : DevRef τ sig) = V (main_arg4 : DevRef τ sig) :=
  (seg3_keep _ main_arg4 (by decide)).trans (val3_main_arg4 V)
theorem val4_main_arg5 (V : 𝕍) : val4 V (main_arg5 : DevRef τ sig) = V (main_arg5 : DevRef τ sig) :=
  (seg3_keep _ main_arg5 (by decide)).trans (val3_main_arg5 V)
theorem val4_main_arg6 (V : 𝕍) : val4 V (main_arg6 : DevRef τ sig) = V (main_arg6 : DevRef τ sig) :=
  (seg3_keep _ main_arg6 (by decide)).trans (val3_main_arg6 V)

/-- The contents after the first 5 pieces. -/
def val5 (V : 𝕍) : 𝕍 := after seg4 (val4 V)
theorem val5_main_v148 (V : 𝕍) : val5 V (main_v148 : DevRef τ sig) = feat1 V :=
  (seg4_upd (val4 V)).trans
    (by rw [val4_main_v137 V, val4_main_v92 V, val4_main_arg3 V, val4_main_arg4 V]; rfl)
theorem val5_main_v1 (V : 𝕍) : val5 V (main_v1 : DevRef τ sig) = RSpec.frm (V (main_arg0 : DevRef τ sig)) :=
  (seg4_keep _ main_v1 (by decide)).trans (val4_main_v1 V)
theorem val5_main_v3 (V : 𝕍) : val5 V (main_v3 : DevRef τ sig) = RSpec.dst (V (main_arg0 : DevRef τ sig)) :=
  (seg4_keep _ main_v3 (by decide)).trans (val4_main_v3 V)
theorem val5_main_v36 (V : 𝕍) : val5 V (main_v36 : DevRef τ sig) = RSpec.nrm (V (main_arg0 : DevRef τ sig)) (V (main_arg1 : DevRef τ sig)) :=
  (seg4_keep _ main_v36 (by decide)).trans (val4_main_v36 V)
theorem val5_main_arg2 (V : 𝕍) : val5 V (main_arg2 : DevRef τ sig) = V (main_arg2 : DevRef τ sig) :=
  (seg4_keep _ main_arg2 (by decide)).trans (val4_main_arg2 V)
theorem val5_main_arg3 (V : 𝕍) : val5 V (main_arg3 : DevRef τ sig) = V (main_arg3 : DevRef τ sig) :=
  (seg4_keep _ main_arg3 (by decide)).trans (val4_main_arg3 V)
theorem val5_main_arg4 (V : 𝕍) : val5 V (main_arg4 : DevRef τ sig) = V (main_arg4 : DevRef τ sig) :=
  (seg4_keep _ main_arg4 (by decide)).trans (val4_main_arg4 V)
theorem val5_main_arg5 (V : 𝕍) : val5 V (main_arg5 : DevRef τ sig) = V (main_arg5 : DevRef τ sig) :=
  (seg4_keep _ main_arg5 (by decide)).trans (val4_main_arg5 V)
theorem val5_main_arg6 (V : 𝕍) : val5 V (main_arg6 : DevRef τ sig) = V (main_arg6 : DevRef τ sig) :=
  (seg4_keep _ main_arg6 (by decide)).trans (val4_main_arg6 V)

/-- The contents after the first 6 pieces. -/
def val6 (V : 𝕍) : 𝕍 := after seg5 (val5 V)
theorem val6_main_v193 (V : 𝕍) : val6 V (main_v193 : DevRef τ sig) = RSpec.sct (RSpec.msg2 (RSpec.gat (feat1 V) (RSpec.frm (V (main_arg0 : DevRef τ sig)))) (RSpec.gat (feat1 V) (RSpec.dst (V (main_arg0 : DevRef τ sig)))) (V (main_arg0 : DevRef τ sig)) (V (main_arg1 : DevRef τ sig)) (V (main_arg3 : DevRef τ sig)) (V (main_arg4 : DevRef τ sig)) (V (main_arg5 : DevRef τ sig)) (V (main_arg6 : DevRef τ sig))) (RSpec.dst (V (main_arg0 : DevRef τ sig))) :=
  (seg5_agg (val5 V) (V (main_arg0 : DevRef τ sig)) (V (main_arg1 : DevRef τ sig)) (val5_main_v1 V) (val5_main_v3 V) (val5_main_v36 V)).trans
    (by rw [val5_main_v148 V, val5_main_arg3 V, val5_main_arg4 V, val5_main_arg5 V, val5_main_arg6 V])
theorem val6_main_v148 (V : 𝕍) : val6 V (main_v148 : DevRef τ sig) = feat1 V :=
  (seg5_keep _ main_v148 (by decide)).trans (val5_main_v148 V)
theorem val6_main_arg2 (V : 𝕍) : val6 V (main_arg2 : DevRef τ sig) = V (main_arg2 : DevRef τ sig) :=
  (seg5_keep _ main_arg2 (by decide)).trans (val5_main_arg2 V)
theorem val6_main_arg3 (V : 𝕍) : val6 V (main_arg3 : DevRef τ sig) = V (main_arg3 : DevRef τ sig) :=
  (seg5_keep _ main_arg3 (by decide)).trans (val5_main_arg3 V)
theorem val6_main_arg4 (V : 𝕍) : val6 V (main_arg4 : DevRef τ sig) = V (main_arg4 : DevRef τ sig) :=
  (seg5_keep _ main_arg4 (by decide)).trans (val5_main_arg4 V)

/-- The contents after the first 7 pieces. -/
def val7 (V : 𝕍) : 𝕍 := after seg6 (val6 V)
theorem val7_main_v204 (V : 𝕍) : val7 V (main_v204 : DevRef τ sig) = feat2 V :=
  (seg6_upd (val6 V)).trans
    (by rw [val6_main_v193 V, val6_main_v148 V, val6_main_arg3 V, val6_main_arg4 V]; rfl)
theorem val7_main_arg2 (V : 𝕍) : val7 V (main_arg2 : DevRef τ sig) = V (main_arg2 : DevRef τ sig) :=
  (seg6_keep _ main_arg2 (by decide)).trans (val6_main_arg2 V)

/-- The result buffer after the whole list: the input features and layer 2's, side by side. -/
theorem out_eq (V : 𝕍) :
    after ops V (main_v205 : DevRef τ sig) = RSpec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [ops_cut]
  simp only [after_app]
  refine (seg7_out _).trans ?_
  rw [show after seg6 (after seg5 (after seg4 (after seg3 (after seg2 (after seg1 (after seg0 V)))))) = val7 V from rfl,
    val7_main_arg2 V, val7_main_v204 V]
  rfl

theorem arg0_eq (V : 𝕍) : after ops V (main_arg0 : DevRef τ sig) = V (main_arg0 : DevRef τ sig) := by
  rw [ops_cut]
  simp only [after_app]
  rw [seg7_keep _ main_arg0 (by decide), seg6_keep _ main_arg0 (by decide), seg5_keep _ main_arg0 (by decide), seg4_keep _ main_arg0 (by decide),
    seg3_keep _ main_arg0 (by decide), seg2_keep _ main_arg0 (by decide), seg1_keep _ main_arg0 (by decide), seg0_keep _ main_arg0 (by decide)]
theorem arg1_eq (V : 𝕍) : after ops V (main_arg1 : DevRef τ sig) = V (main_arg1 : DevRef τ sig) := by
  rw [ops_cut]
  simp only [after_app]
  rw [seg7_keep _ main_arg1 (by decide), seg6_keep _ main_arg1 (by decide), seg5_keep _ main_arg1 (by decide), seg4_keep _ main_arg1 (by decide),
    seg3_keep _ main_arg1 (by decide), seg2_keep _ main_arg1 (by decide), seg1_keep _ main_arg1 (by decide), seg0_keep _ main_arg1 (by decide)]
theorem arg2_eq (V : 𝕍) : after ops V (main_arg2 : DevRef τ sig) = V (main_arg2 : DevRef τ sig) := by
  rw [ops_cut]
  simp only [after_app]
  rw [seg7_keep _ main_arg2 (by decide), seg6_keep _ main_arg2 (by decide), seg5_keep _ main_arg2 (by decide), seg4_keep _ main_arg2 (by decide),
    seg3_keep _ main_arg2 (by decide), seg2_keep _ main_arg2 (by decide), seg1_keep _ main_arg2 (by decide), seg0_keep _ main_arg2 (by decide)]
theorem arg3_eq (V : 𝕍) : after ops V (main_arg3 : DevRef τ sig) = V (main_arg3 : DevRef τ sig) := by
  rw [ops_cut]
  simp only [after_app]
  rw [seg7_keep _ main_arg3 (by decide), seg6_keep _ main_arg3 (by decide), seg5_keep _ main_arg3 (by decide), seg4_keep _ main_arg3 (by decide),
    seg3_keep _ main_arg3 (by decide), seg2_keep _ main_arg3 (by decide), seg1_keep _ main_arg3 (by decide), seg0_keep _ main_arg3 (by decide)]
theorem arg4_eq (V : 𝕍) : after ops V (main_arg4 : DevRef τ sig) = V (main_arg4 : DevRef τ sig) := by
  rw [ops_cut]
  simp only [after_app]
  rw [seg7_keep _ main_arg4 (by decide), seg6_keep _ main_arg4 (by decide), seg5_keep _ main_arg4 (by decide), seg4_keep _ main_arg4 (by decide),
    seg3_keep _ main_arg4 (by decide), seg2_keep _ main_arg4 (by decide), seg1_keep _ main_arg4 (by decide), seg0_keep _ main_arg4 (by decide)]
theorem arg5_eq (V : 𝕍) : after ops V (main_arg5 : DevRef τ sig) = V (main_arg5 : DevRef τ sig) := by
  rw [ops_cut]
  simp only [after_app]
  rw [seg7_keep _ main_arg5 (by decide), seg6_keep _ main_arg5 (by decide), seg5_keep _ main_arg5 (by decide), seg4_keep _ main_arg5 (by decide),
    seg3_keep _ main_arg5 (by decide), seg2_keep _ main_arg5 (by decide), seg1_keep _ main_arg5 (by decide), seg0_keep _ main_arg5 (by decide)]
theorem arg6_eq (V : 𝕍) : after ops V (main_arg6 : DevRef τ sig) = V (main_arg6 : DevRef τ sig) := by
  rw [ops_cut]
  simp only [after_app]
  rw [seg7_keep _ main_arg6 (by decide), seg6_keep _ main_arg6 (by decide), seg5_keep _ main_arg6 (by decide), seg4_keep _ main_arg6 (by decide),
    seg3_keep _ main_arg6 (by decide), seg2_keep _ main_arg6 (by decide), seg1_keep _ main_arg6 (by decide), seg0_keep _ main_arg6 (by decide)]

/-- On every device, from any memory with zero counters: every weakly fair execution of @main terminates with the result
    buffer at the composition of the stages applied to the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v205) = RSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v205).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_fold m ρ)

end Cert.ReferenceIdeal.RefRun

end
-- ==== Proof.BridgeReads.lean ====
/-
  The layout operations through which the two programs hand a layer's parameters to its dense stages, each read at an
  index given by coordinates.

  A layer's weight matrix is one matrix `W[L]` of a stack of three. One program cuts the matrix out of the stack,
  drops the leading unit axis and transposes it; the other transposes every matrix of the stack first, then cuts and
  drops. Either way the entry at `(k, c)` is `W[L, c, k]`. A layer's bias is one row `b[L]` of three: cut out, cast to
  a vector, and then either broadcast to one row and down all the rows, or cast back to one row; the entry at column
  `c` is `b[L, c]`. The edges' coefficients form a vector that one program makes a column by a broadcast and then
  broadcasts along the features, and the other makes a column by a cast; the entry at edge `e` is the vector's.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«174210_j74363063763024_1_alg».proof.Proof.LibKeepdims

noncomputable section

namespace Cert.Bridge

open Idealize.ShloMosaic Idealize.ShloMosaic.ValueIdx

variable {α : Type}

/-! ## One matrix cut out of a stack -/

/-- A stack `[n, a, b]` cut to its matrix number `o` reads, at `(u, i, j)`, the stack at `(L, i, j)` with `L = o`. -/
theorem slice3_axis0_apply {n a b : ℕ} (o : ℕ) (X : (⟨3, ![n, a, b]⟩ : Shape).Idx → α)
    (h : (⟨3, ![n, a, b]⟩ : Shape).Slices ![o, 0, 0] ⟨3, ![1, a, b]⟩)
    (u : Fin 1) (i : Fin a) (j : Fin b) (L : Fin n) (hL : L.val = o) :
    extractStridedSlice ⟨3, ![1, a, b]⟩ ![o, 0, 0] X h (ix3 u i j) = X (ix3 L i j) :=
  extractStridedSlice_apply _ _ _ _ _ (fun ax => by
    match ax with
    | ⟨0, _⟩ =>
      have hu : u.val = 0 := by omega
      show L.val = o + u.val
      rw [hu, hL, Nat.add_zero]
    | ⟨1, _⟩ => exact (Nat.zero_add _).symm
    | ⟨2, _⟩ => exact (Nat.zero_add _).symm)

/-- Cut, drop the unit axis, transpose: the entry at `(k, c)` is `W[L, c, k]`. -/
theorem weight_cut_then_transposed {n a : ℕ} (o : ℕ) (W : (⟨3, ![n, a, a]⟩ : Shape).Idx → α)
    (h1 : (⟨3, ![n, a, a]⟩ : Shape).Slices ![o, 0, 0] ⟨3, ![1, a, a]⟩)
    (h2 : (⟨3, ![1, a, a]⟩ : Shape).ShapeCasts ⟨2, ![a, a]⟩)
    (h3 : (⟨2, ![a, a]⟩ : Shape).Transposes [1, 0] ⟨2, ![a, a]⟩)
    (L : Fin n) (hL : L.val = o) (k c : Fin a) :
    transpose ⟨2, ![a, a]⟩ [1, 0] (shapeCast ⟨2, ![a, a]⟩ (extractStridedSlice ⟨3, ![1, a, a]⟩ ![o, 0, 0] W h1) h2) h3 (ix2 k c)
      = W (ix3 L c k) :=
  (transpose_ix2_apply _ h3 k c).trans
    ((shapeCast_1ab_ab_apply _ h2 c k).trans (slice3_axis0_apply o W h1 0 c k L hL))

/-- Transpose every matrix of the stack, cut, drop the unit axis: the entry at `(k, c)` is `W[L, c, k]` again. -/
theorem weight_transposed_then_cut {n a : ℕ} (o : ℕ) (W : (⟨3, ![n, a, a]⟩ : Shape).Idx → α)
    (ht : (⟨3, ![n, a, a]⟩ : Shape).Transposes [0, 2, 1] ⟨3, ![n, a, a]⟩)
    (hs : (⟨3, ![n, a, a]⟩ : Shape).Slices ![o, 0, 0] ⟨3, ![1, a, a]⟩)
    (hc : (⟨3, ![1, a, a]⟩ : Shape).ShapeCasts ⟨2, ![a, a]⟩)
    (L : Fin n) (hL : L.val = o) (k c : Fin a) :
    shapeCast ⟨2, ![a, a]⟩ (extractStridedSlice ⟨3, ![1, a, a]⟩ ![o, 0, 0] (transpose ⟨3, ![n, a, a]⟩ [0, 2, 1] W ht) hs) hc (ix2 k c)
      = W (ix3 L c k) :=
  (shapeCast_1ab_ab_apply _ hc k c).trans
    ((slice3_axis0_apply o _ hs 0 k c L hL).trans (transpose_ix3_021_apply W ht L k c))

/-! ## Broadcasts between a vector, a row, a column and a matrix -/

/-- A vector `[b]` broadcast to one row `[1, b]` reads, at `(u, c)`, the vector at `c`. -/
theorem bcast_vec_row_apply (v : (⟨1, ![64]⟩ : Shape).Idx → α)
    (h : (⟨1, ![64]⟩ : Shape).BroadcastsInDim ⟨2, ![1, 64]⟩ (![1] : Fin 1 → Fin (⟨2, ![1, 64]⟩ : Shape).rank))
    (u : Fin 1) (c : Fin 64) : broadcastInDim ⟨2, ![1, 64]⟩ ![1] h v (ix2 u c) = v (ix1 c) :=
  broadcastInDim_apply _ h v _ _ fun ax => by
    match ax with
    | ⟨0, _⟩ => rfl

/-- One row `[1, 64]` broadcast down `R` rows reads, at `(r, c)`, the row at `(0, c)`. -/
theorem bcast_row_apply {R : ℕ} (v : (⟨2, ![1, 64]⟩ : Shape).Idx → α)
    (h : (⟨2, ![1, 64]⟩ : Shape).BroadcastsInDim ⟨2, ![R, 64]⟩ (![0, 1] : Fin 2 → Fin (⟨2, ![R, 64]⟩ : Shape).rank))
    (r : Fin R) (c : Fin 64) : broadcastInDim ⟨2, ![R, 64]⟩ ![0, 1] h v (ix2 r c) = v (ix2 (0 : Fin 1) c) :=
  broadcastInDim_apply _ h v _ _ fun ax => by
    match ax with
    | ⟨0, _⟩ => rfl
    | ⟨1, _⟩ => rfl

/-- A vector `[R]` broadcast to a column `[R, 1]` reads, at `(r, u)`, the vector at `r`. -/
theorem bcast_vec_col_apply {R : ℕ} (v : (⟨1, ![R]⟩ : Shape).Idx → α)
    (h : (⟨1, ![R]⟩ : Shape).BroadcastsInDim ⟨2, ![R, 1]⟩ (![0] : Fin 1 → Fin (⟨2, ![R, 1]⟩ : Shape).rank))
    (r : Fin R) (u : Fin 1) : broadcastInDim ⟨2, ![R, 1]⟩ ![0] h v (ix2 r u) = v (ix1 r) :=
  broadcastInDim_apply _ h v _ _ fun ax => by
    match ax with
    | ⟨0, _⟩ =>
      show r.val = if R = 1 then 0 else r.val
      split
      · have := r.isLt; omega
      · rfl

/-- A column `[R, 1]` broadcast along 64 features reads, at `(r, c)`, the column at `(r, 0)`. -/
theorem bcast_col_apply {R : ℕ} (v : (⟨2, ![R, 1]⟩ : Shape).Idx → α)
    (h : (⟨2, ![R, 1]⟩ : Shape).BroadcastsInDim ⟨2, ![R, 64]⟩ (![0, 1] : Fin 2 → Fin (⟨2, ![R, 64]⟩ : Shape).rank))
    (r : Fin R) (c : Fin 64) : broadcastInDim ⟨2, ![R, 64]⟩ ![0, 1] h v (ix2 r c) = v (ix2 r (0 : Fin 1)) :=
  broadcastInDim_apply _ h v _ _ fun ax => by
    match ax with
    | ⟨0, _⟩ =>
      show r.val = if R = 1 then 0 else r.val
      split
      · have := r.isLt; omega
      · rfl
    | ⟨1, _⟩ => rfl

/-! ## A layer's bias row -/

/-- Cut row `o`, cast to a vector, broadcast to one row and then down `R` rows: at `(r, c)` it is `b[L, c]`. -/
theorem bias_broadcast_apply {n R : ℕ} (o : ℕ) (b : (⟨2, ![n, 64]⟩ : Shape).Idx → α)
    (hs : (⟨2, ![n, 64]⟩ : Shape).Slices ![o, 0] ⟨2, ![1, 64]⟩)
    (hc : (⟨2, ![1, 64]⟩ : Shape).ShapeCasts ⟨1, ![64]⟩)
    (h1 : (⟨1, ![64]⟩ : Shape).BroadcastsInDim ⟨2, ![1, 64]⟩ (![1] : Fin 1 → Fin (⟨2, ![1, 64]⟩ : Shape).rank))
    (h2 : (⟨2, ![1, 64]⟩ : Shape).BroadcastsInDim ⟨2, ![R, 64]⟩ (![0, 1] : Fin 2 → Fin (⟨2, ![R, 64]⟩ : Shape).rank))
    (L : Fin n) (hL : L.val = o) (r : Fin R) (c : Fin 64) :
    broadcastInDim ⟨2, ![R, 64]⟩ ![0, 1] h2
        (broadcastInDim ⟨2, ![1, 64]⟩ ![1] h1 (shapeCast ⟨1, ![64]⟩ (extractStridedSlice ⟨2, ![1, 64]⟩ ![o, 0] b hs) hc)) (ix2 r c)
      = b (ix2 L c) :=
  (bcast_row_apply _ h2 r c).trans
    ((bcast_vec_row_apply _ h1 0 c).trans
      ((shapeCast_1a_a_apply _ hc c).trans (slice2_axis0_apply o b hs 0 c L (by rw [hL]; rfl))))

/-- Cut row `o`, cast to a vector, cast back to one row: at `(0, c)` it is `b[L, c]`. -/
theorem bias_recast_apply {n : ℕ} (o : ℕ) (b : (⟨2, ![n, 64]⟩ : Shape).Idx → α)
    (hs : (⟨2, ![n, 64]⟩ : Shape).Slices ![o, 0] ⟨2, ![1, 64]⟩)
    (hc : (⟨2, ![1, 64]⟩ : Shape).ShapeCasts ⟨1, ![64]⟩)
    (hc' : (⟨1, ![64]⟩ : Shape).ShapeCasts ⟨2, ![1, 64]⟩)
    (L : Fin n) (hL : L.val = o) (c : Fin 64) :
    shapeCast ⟨2, ![1, 64]⟩ (shapeCast ⟨1, ![64]⟩ (extractStridedSlice ⟨2, ![1, 64]⟩ ![o, 0] b hs) hc) hc' (ix2 (0 : Fin 1) c)
      = b (ix2 L c) :=
  (shapeCast_a_1a_apply _ hc' 0 c).trans
    ((shapeCast_1a_a_apply _ hc c).trans (slice2_axis0_apply o b hs 0 c L (by rw [hL]; rfl)))

/-! ## The edges' coefficients -/

/-- The coefficient vector made a column by a broadcast and broadcast along the features reads, at `(e, c)`, the vector at `e`. -/
theorem coeff_broadcast_apply {R : ℕ} (v : (⟨1, ![R]⟩ : Shape).Idx → α)
    (h1 : (⟨1, ![R]⟩ : Shape).BroadcastsInDim ⟨2, ![R, 1]⟩ (![0] : Fin 1 → Fin (⟨2, ![R, 1]⟩ : Shape).rank))
    (h2 : (⟨2, ![R, 1]⟩ : Shape).BroadcastsInDim ⟨2, ![R, 64]⟩ (![0, 1] : Fin 2 → Fin (⟨2, ![R, 64]⟩ : Shape).rank))
    (e : Fin R) (c : Fin 64) :
    broadcastInDim ⟨2, ![R, 64]⟩ ![0, 1] h2 (broadcastInDim ⟨2, ![R, 1]⟩ ![0] h1 v) (ix2 e c) = v (ix1 e) :=
  (bcast_col_apply _ h2 e c).trans (bcast_vec_col_apply v h1 e 0)

end Cert.Bridge

end
-- ==== Proof.BridgeCore.lean ====
/-
  The two dense stages of a layer as the host spells them, over arbitrary arrays, are the specification's functions.

  The host writes a layer's messages as a product of arrays,
      coefficients ⊙ ((xj · W₁ + bias₁) + ((xj ⊙ xi) · W₂ + bias₂)),
  where the coefficient array repeats one column along the features and each bias array repeats one row down the
  edges, and a node's update as a select between `y` and `slope ⊙ y` on the test `y ≥ 0`, with
  `y = agg + (x · W₁ + bias₁)`. Read at an entry `(e, c)`, a matrix product is the sum over `k` of `left[e,k] * right[k,c]`,
  every other operation acts entry by entry, and the repeated column and rows are read back at `(e, 0)` and `(0, c)`:
  that is the specification's message and update, entry by entry. No law of arithmetic is used beyond the agreement
  of the rectifier's two tests at zero.
-/
import proofs.«174210_j74363063763024_1_alg».proof.Proof.Spec
import proofs.«174210_j74363063763024_1_alg».proof.Proof.LibMatmulSum

noncomputable section

namespace Cert.Bridge

open Idealize.ShloMosaic Idealize.ShloMosaic.ValueIdx

variable {R : ℕ}

/-- The messages: the host's product of arrays is the specification's `msg`. -/
theorem msg_core (D : DotDims ⟨2, ![R, 64]⟩ ⟨2, ![64, 64]⟩ ⟨2, ![R, 64]⟩)
    (hr : D.contr.rank = 1) (hs : D.contr.size ⟨0, by omega⟩ = 64)
    (hl0 : ∀ (i : (⟨2, ![R, 64]⟩ : Shape).Idx) (q : D.contr.Idx), (D.lhsIdx i q 0).val = (i 0).val)
    (hl1 : ∀ (i : (⟨2, ![R, 64]⟩ : Shape).Idx) (q : D.contr.Idx), (D.lhsIdx i q 1).val = (q ⟨0, by omega⟩).val)
    (hr0 : ∀ (i : (⟨2, ![R, 64]⟩ : Shape).Idx) (q : D.contr.Idx), (D.rhsIdx i q 0).val = (q ⟨0, by omega⟩).val)
    (hr1 : ∀ (i : (⟨2, ![R, 64]⟩ : Shape).Idx) (q : D.contr.Idx), (D.rhsIdx i q 1).val = (i 1).val)
    (xj xi NW B1 B2 : FVec Ideal ⟨2, ![R, 64]⟩ .f32) (W1 W2 : FVec Ideal ⟨2, ![64, 64]⟩ .f32)
    (nc : FVec Ideal ⟨2, ![R, 1]⟩ .f32) (b1 b2 : FVec Ideal ⟨2, ![1, 64]⟩ .f32)
    (hN : ∀ (e : Fin R) (c : Fin 64), NW (ix2 e c) = nc (ix2 e (0 : Fin 1)))
    (hB1 : ∀ (e : Fin R) (c : Fin 64), B1 (ix2 e c) = b1 (ix2 (0 : Fin 1) c))
    (hB2 : ∀ (e : Fin R) (c : Fin 64), B2 (ix2 e c) = b2 (ix2 (0 : Fin 1) c)) :
    mulf NW (addf (addf (FloatOps.dotGeneral D none .single xj W1) B1)
        (addf (FloatOps.dotGeneral D none .single (mulf xj xi) W2) B2))
      = Cert.EdgeConv.msg xj xi nc W1 b1 W2 b2 := by
  funext i
  obtain ⟨e, c, rfl⟩ : ∃ (e : Fin R) (c : Fin 64), i = ix2 e c := ⟨i 0, i 1, eq_ix2 i⟩
  rw [Cert.EdgeConv.msg_ix2, mulf_apply, addf_apply, addf_apply, addf_apply, hN, hB1, hB2,
    Cert.GraphConv.dotGeneral_sum D none .single hr hs hl0 hl1 hr0 hr1,
    Cert.GraphConv.dotGeneral_sum D none .single hr hs hl0 hl1 hr0 hr1, Cert.Gcn.linear_ix2, Cert.Gcn.linear_ix2]
  rfl

/-- The update: the host's select on `y ≥ 0` is the specification's `upd`. -/
theorem upd_core (D : DotDims ⟨2, ![R, 64]⟩ ⟨2, ![64, 64]⟩ ⟨2, ![R, 64]⟩)
    (hr : D.contr.rank = 1) (hs : D.contr.size ⟨0, by omega⟩ = 64)
    (hl0 : ∀ (i : (⟨2, ![R, 64]⟩ : Shape).Idx) (q : D.contr.Idx), (D.lhsIdx i q 0).val = (i 0).val)
    (hl1 : ∀ (i : (⟨2, ![R, 64]⟩ : Shape).Idx) (q : D.contr.Idx), (D.lhsIdx i q 1).val = (q ⟨0, by omega⟩).val)
    (hr0 : ∀ (i : (⟨2, ![R, 64]⟩ : Shape).Idx) (q : D.contr.Idx), (D.rhsIdx i q 0).val = (q ⟨0, by omega⟩).val)
    (hr1 : ∀ (i : (⟨2, ![R, 64]⟩ : Shape).Idx) (q : D.contr.Idx), (D.rhsIdx i q 1).val = (i 1).val)
    (agg x B Z S : FVec Ideal ⟨2, ![R, 64]⟩ .f32) (W : FVec Ideal ⟨2, ![64, 64]⟩ .f32) (b : FVec Ideal ⟨2, ![1, 64]⟩ .f32)
    (hB : ∀ (e : Fin R) (c : Fin 64), B (ix2 e c) = b (ix2 (0 : Fin 1) c))
    (hZ : ∀ i, Z i = Cert.EdgeConv.zeroW) (hS : ∀ i, S i = Cert.EdgeConv.slopeW) :
    select (cmpf .oge (addf agg (addf (FloatOps.dotGeneral D none .single x W) B)) Z)
        (addf agg (addf (FloatOps.dotGeneral D none .single x W) B))
        (mulf S (addf agg (addf (FloatOps.dotGeneral D none .single x W) B)))
      = Cert.EdgeConv.upd agg x W b := by
  funext i
  obtain ⟨e, c, rfl⟩ : ∃ (e : Fin R) (c : Fin 64), i = ix2 e c := ⟨i 0, i 1, eq_ix2 i⟩
  rw [Cert.EdgeConv.upd_ix2, ← Cert.EdgeConv.leaky_ge, select_apply, cmpf_apply, Ideal.cmpf_def, mulf_apply, hZ, hS,
    addf_apply, addf_apply, hB, Cert.GraphConv.dotGeneral_sum D none .single hr hs hl0 hl1 hr0 hr1, Cert.Gcn.linear_ix2]
  rfl

end Cert.Bridge

end
-- ==== Proof.Bridge.lean ====
/-
  The reference program's stages are the kernel program's stages, as functions of the argument arrays.

  The edge ids, the degrees, the normalisation coefficients, the row gather and the row scatter-add are spelt alike in
  the two programs, operation for operation. A layer's dense stages differ only in how the parameters reach them. The
  weight matrix `W[L]` is cut out of its stack and transposed by one program, while the other transposes the whole
  stack and then cuts: both read `W[L, c, k]` at `(k, c)`, so the two 64-by-64 matrices are equal. The bias row `b[L]`
  is broadcast down the rows by one program and kept as one row by the other: both read `b[L, c]` at column `c`.
  The coefficients are broadcast along the features by one program and kept as one column by the other: both read the
  coefficient of edge `e`. With these readings the reference's messages and update, which are products, sums and a
  select of whole arrays, are the specification's `msg` and `upd` at the other program's operands; a layer is the update
  of the scatter-add of the messages of the gathered rows, and the result is the input beside the third layer's output.
-/
import proofs.«174210_j74363063763024_1_alg».proof.Proof.RSpec
import proofs.«174210_j74363063763024_1_alg».proof.Proof.KSpec
import proofs.«174210_j74363063763024_1_alg».proof.Proof.BridgeReads
import proofs.«174210_j74363063763024_1_alg».proof.Proof.BridgeCore

noncomputable section

namespace Cert.Bridge

open Idealize.ShloMosaic Idealize.ShloMosaic.ValueIdx

variable [Cert.KernelIdeal.Facts] [Cert.ReferenceIdeal.Facts]

/-! ## The stages the two programs spell alike -/

theorem frm_eq (a0 : IVec ReferenceIdeal.S2x1600000 32) : ReferenceIdeal.RSpec.frm a0 = KernelIdeal.KSpec.frm a0 := rfl

theorem dst_eq (a0 : IVec ReferenceIdeal.S2x1600000 32) : ReferenceIdeal.RSpec.dst a0 = KernelIdeal.KSpec.dst a0 := rfl

theorem nrm_eq (a0 : IVec ReferenceIdeal.S2x1600000 32) (a1 : FVec Ideal ReferenceIdeal.S1600000 .f32) :
    ReferenceIdeal.RSpec.nrm a0 a1 = KernelIdeal.KSpec.nrm a0 a1 := rfl

theorem gat_eq (x : FVec Ideal ReferenceIdeal.S100000x64 .f32) (v : IVec ReferenceIdeal.S1600000 32) :
    ReferenceIdeal.RSpec.gat x v = KernelIdeal.KSpec.gat x v := rfl

theorem sct_eq (u : FVec Ideal ReferenceIdeal.S1600000x64 .f32) (v : IVec ReferenceIdeal.S1600000 32) :
    ReferenceIdeal.RSpec.sct u v = KernelIdeal.KSpec.sct u v := rfl

/-- The ids, the coefficients, the gather and the scatter-add are the same functions in the two programs. -/
theorem shared (a0 : IVec ReferenceIdeal.S2x1600000 32) (a1 : FVec Ideal ReferenceIdeal.S1600000 .f32) (x : FVec Ideal ReferenceIdeal.S100000x64 .f32)
    (u : FVec Ideal ReferenceIdeal.S1600000x64 .f32) (v : IVec ReferenceIdeal.S1600000 32) :
    ReferenceIdeal.RSpec.frm a0 = KernelIdeal.KSpec.frm a0 ∧ ReferenceIdeal.RSpec.dst a0 = KernelIdeal.KSpec.dst a0
      ∧ ReferenceIdeal.RSpec.nrm a0 a1 = KernelIdeal.KSpec.nrm a0 a1 ∧ ReferenceIdeal.RSpec.gat x v = KernelIdeal.KSpec.gat x v
      ∧ ReferenceIdeal.RSpec.sct u v = KernelIdeal.KSpec.sct u v :=
  ⟨frm_eq a0, dst_eq a0, nrm_eq a0 a1, gat_eq x v, sct_eq u v⟩

/-! ## The matrix-product records: one contracted axis of extent 64, rows from the left operand, columns from the right -/

theorem dotE_rank : (ReferenceIdeal.dot_S1600000x64_S64x64_S1600000x64_1_0_0_1_n_n).contr.rank = 1 := rfl
theorem dotE_size : (ReferenceIdeal.dot_S1600000x64_S64x64_S1600000x64_1_0_0_1_n_n).contr.size ⟨0, by rw [dotE_rank]; exact Nat.one_pos⟩ = 64 := rfl
theorem dotE_l0 (i : ReferenceIdeal.S1600000x64.Idx) (q : (ReferenceIdeal.dot_S1600000x64_S64x64_S1600000x64_1_0_0_1_n_n).contr.Idx) :
    ((ReferenceIdeal.dot_S1600000x64_S64x64_S1600000x64_1_0_0_1_n_n).lhsIdx i q 0).val = (i 0).val := rfl
theorem dotE_l1 (i : ReferenceIdeal.S1600000x64.Idx) (q : (ReferenceIdeal.dot_S1600000x64_S64x64_S1600000x64_1_0_0_1_n_n).contr.Idx) :
    ((ReferenceIdeal.dot_S1600000x64_S64x64_S1600000x64_1_0_0_1_n_n).lhsIdx i q 1).val = (q ⟨0, by rw [dotE_rank]; exact Nat.one_pos⟩).val := rfl
theorem dotE_r0 (i : ReferenceIdeal.S1600000x64.Idx) (q : (ReferenceIdeal.dot_S1600000x64_S64x64_S1600000x64_1_0_0_1_n_n).contr.Idx) :
    ((ReferenceIdeal.dot_S1600000x64_S64x64_S1600000x64_1_0_0_1_n_n).rhsIdx i q 0).val = (q ⟨0, by rw [dotE_rank]; exact Nat.one_pos⟩).val := rfl
theorem dotE_r1 (i : ReferenceIdeal.S1600000x64.Idx) (q : (ReferenceIdeal.dot_S1600000x64_S64x64_S1600000x64_1_0_0_1_n_n).contr.Idx) :
    ((ReferenceIdeal.dot_S1600000x64_S64x64_S1600000x64_1_0_0_1_n_n).rhsIdx i q 1).val = (i 1).val := rfl

theorem dotN_rank : (ReferenceIdeal.dot_S100000x64_S64x64_S100000x64_1_0_0_1_n_n).contr.rank = 1 := rfl
theorem dotN_size : (ReferenceIdeal.dot_S100000x64_S64x64_S100000x64_1_0_0_1_n_n).contr.size ⟨0, by rw [dotN_rank]; exact Nat.one_pos⟩ = 64 := rfl
theorem dotN_l0 (i : ReferenceIdeal.S100000x64.Idx) (q : (ReferenceIdeal.dot_S100000x64_S64x64_S100000x64_1_0_0_1_n_n).contr.Idx) :
    ((ReferenceIdeal.dot_S100000x64_S64x64_S100000x64_1_0_0_1_n_n).lhsIdx i q 0).val = (i 0).val := rfl
theorem dotN_l1 (i : ReferenceIdeal.S100000x64.Idx) (q : (ReferenceIdeal.dot_S100000x64_S64x64_S100000x64_1_0_0_1_n_n).contr.Idx) :
    ((ReferenceIdeal.dot_S100000x64_S64x64_S100000x64_1_0_0_1_n_n).lhsIdx i q 1).val = (q ⟨0, by rw [dotN_rank]; exact Nat.one_pos⟩).val := rfl
theorem dotN_r0 (i : ReferenceIdeal.S100000x64.Idx) (q : (ReferenceIdeal.dot_S100000x64_S64x64_S100000x64_1_0_0_1_n_n).contr.Idx) :
    ((ReferenceIdeal.dot_S100000x64_S64x64_S100000x64_1_0_0_1_n_n).rhsIdx i q 0).val = (q ⟨0, by rw [dotN_rank]; exact Nat.one_pos⟩).val := rfl
theorem dotN_r1 (i : ReferenceIdeal.S100000x64.Idx) (q : (ReferenceIdeal.dot_S100000x64_S64x64_S100000x64_1_0_0_1_n_n).contr.Idx) :
    ((ReferenceIdeal.dot_S100000x64_S64x64_S100000x64_1_0_0_1_n_n).rhsIdx i q 1).val = (i 1).val := rfl

/-! ## The coefficients and the rectifier's two constants -/

/-- The coefficient of edge `e`, read from the array broadcast along the features and from the one-column matrix. -/
theorem coeff_eq (a0 : IVec ReferenceIdeal.S2x1600000 32) (a1 : FVec Ideal ReferenceIdeal.S1600000 .f32) (e : Fin 1600000) (c : Fin 64) :
    ReferenceIdeal.RSpec.nrmWide a0 a1 (ix2 e c) = KernelIdeal.KSpec.nrmCol a0 a1 (ix2 e (0 : Fin 1)) := by
  unfold ReferenceIdeal.RSpec.nrmWide KernelIdeal.KSpec.nrmCol
  rw [← nrm_eq a0 a1]
  generalize ReferenceIdeal.RSpec.nrm a0 a1 = v
  exact (coeff_broadcast_apply v _ _ e c).trans (Cert.LibKeepdims.shapeCast_a_a1_apply v _ e 0).symm

/-- The zero the rectifier compares with, broadcast over the nodes, is the specification's zero at every entry. -/
theorem zero_read (i : ReferenceIdeal.S100000x64.Idx) :
    broadcastInDim ReferenceIdeal.S100000x64 ![] ReferenceIdeal.Facts₀.bcast_S_S100000x64 (constant (F := Ideal) ReferenceIdeal.S_ .f32 0x00000000#32) i
      = Cert.EdgeConv.zeroW :=
  broadcastInDim_scalar_apply _ _ i

/-- The slope, broadcast over the nodes, is the specification's slope at every entry. -/
theorem slope_read (i : ReferenceIdeal.S100000x64.Idx) :
    broadcastInDim ReferenceIdeal.S100000x64 ![] ReferenceIdeal.Facts₀.bcast_S_S100000x64 (id (constant (F := Ideal) ReferenceIdeal.S_ .f32 0x3C23D70A#32)) i
      = Cert.EdgeConv.slopeW :=
  broadcastInDim_scalar_apply _ _ i

/-! ## Layer 0 -/

/-- Layer 0's weight matrix is the same matrix in the two programs: entry `(k, c)` is `W[0, c, k]`. -/
theorem wT0_eq (W : FVec Ideal ReferenceIdeal.S3x64x64 .f32) : ReferenceIdeal.RSpec.wT0 W = KernelIdeal.KSpec.wT0 W := by
  funext i
  obtain ⟨k, c, rfl⟩ : ∃ (k c : Fin 64), i = ix2 k c := ⟨i 0, i 1, eq_ix2 i⟩
  unfold ReferenceIdeal.RSpec.wT0 KernelIdeal.KSpec.wT0 KernelIdeal.KSpec.trW
  exact (weight_cut_then_transposed 0 W _ _ _ (0 : Fin 3) rfl k c).trans
    (weight_transposed_then_cut 0 W _ _ _ (0 : Fin 3) rfl k c).symm

/-- Layer 0's bias broadcast down the edges reads, at `(e, c)`, the other program's bias row at `(0, c)`: both are `b[0, c]`. -/
theorem bias0_edges (b : FVec Ideal ReferenceIdeal.S3x64 .f32) (e : Fin 1600000) (c : Fin 64) :
    broadcastInDim ReferenceIdeal.S1600000x64 ![0, 1] ReferenceIdeal.Facts₀.bcast_S1x64_S1600000x64_0_1 (ReferenceIdeal.RSpec.bRow0 b) (ix2 e c)
      = KernelIdeal.KSpec.bRow0 b (ix2 (0 : Fin 1) c) := by
  unfold ReferenceIdeal.RSpec.bRow0 KernelIdeal.KSpec.bRow0
  exact (bias_broadcast_apply 0 b _ _ _ _ (0 : Fin 3) rfl e c).trans (bias_recast_apply 0 b _ _ _ (0 : Fin 3) rfl c).symm

/-- The same down the nodes. -/
theorem bias0_nodes (b : FVec Ideal ReferenceIdeal.S3x64 .f32) (r : Fin 100000) (c : Fin 64) :
    broadcastInDim ReferenceIdeal.S100000x64 ![0, 1] ReferenceIdeal.Facts₀.bcast_S1x64_S100000x64_0_1 (ReferenceIdeal.RSpec.bRow0 b) (ix2 r c)
      = KernelIdeal.KSpec.bRow0 b (ix2 (0 : Fin 1) c) := by
  unfold ReferenceIdeal.RSpec.bRow0 KernelIdeal.KSpec.bRow0
  exact (bias_broadcast_apply 0 b _ _ _ _ (0 : Fin 3) rfl r c).trans (bias_recast_apply 0 b _ _ _ (0 : Fin 3) rfl c).symm

/-- Layer 0's messages in the reference's spelling are the specification's messages at the kernel program's operands. -/
theorem msg_bridge0 (xj xi : FVec Ideal ReferenceIdeal.S1600000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.msg0 xj xi a0 a1 a3 a4 a5 a6
      = Cert.EdgeConv.msg (R := 1600000) xj xi (KernelIdeal.KSpec.nrmCol a0 a1) (KernelIdeal.KSpec.wT0 a3) (KernelIdeal.KSpec.bRow0 a4)
          (KernelIdeal.KSpec.wT0 a5) (KernelIdeal.KSpec.bRow0 a6) := by
  rw [← wT0_eq a3, ← wT0_eq a5]
  unfold ReferenceIdeal.RSpec.msg0
  exact msg_core _ dotE_rank dotE_size dotE_l0 dotE_l1 dotE_r0 dotE_r1 xj xi _ _ _ _ _ _ _ _
    (fun e c => coeff_eq a0 a1 e c) (fun e c => bias0_edges a4 e c) (fun e c => bias0_edges a6 e c)

/-- Layer 0's update in the reference's spelling is the specification's update at the kernel program's operands. -/
theorem upd_bridge0 (agg x : FVec Ideal ReferenceIdeal.S100000x64 .f32) (a3 : FVec Ideal ReferenceIdeal.S3x64x64 .f32) (a4 : FVec Ideal ReferenceIdeal.S3x64 .f32) :
    ReferenceIdeal.RSpec.upd0 agg x a3 a4
      = Cert.EdgeConv.upd (R := 100000) agg x (KernelIdeal.KSpec.wT0 a3) (KernelIdeal.KSpec.bRow0 a4) := by
  rw [← wT0_eq a3]
  unfold ReferenceIdeal.RSpec.upd0 ReferenceIdeal.RSpec.leakyHost
  exact upd_core _ dotN_rank dotN_size dotN_l0 dotN_l1 dotN_r0 dotN_r1 agg x _ _ _ _ _
    (fun r c => bias0_nodes a4 r c) zero_read slope_read

/-- Layer 0 of the reference is layer 0 of the kernel program. -/
theorem layer_bridge0 (x : FVec Ideal ReferenceIdeal.S100000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.layer0 x a0 a1 a3 a4 a5 a6 = KernelIdeal.KSpec.layer0 x a0 a1 a3 a4 a5 a6 := by
  unfold ReferenceIdeal.RSpec.layer0 KernelIdeal.KSpec.layer0
  rw [upd_bridge0, msg_bridge0]
  rfl

/-! ## Layer 1 -/

/-- Layer 1's weight matrix is the same matrix in the two programs: entry `(k, c)` is `W[1, c, k]`. -/
theorem wT1_eq (W : FVec Ideal ReferenceIdeal.S3x64x64 .f32) : ReferenceIdeal.RSpec.wT1 W = KernelIdeal.KSpec.wT1 W := by
  funext i
  obtain ⟨k, c, rfl⟩ : ∃ (k c : Fin 64), i = ix2 k c := ⟨i 0, i 1, eq_ix2 i⟩
  unfold ReferenceIdeal.RSpec.wT1 KernelIdeal.KSpec.wT1 KernelIdeal.KSpec.trW
  exact (weight_cut_then_transposed 1 W _ _ _ (1 : Fin 3) rfl k c).trans
    (weight_transposed_then_cut 1 W _ _ _ (1 : Fin 3) rfl k c).symm

/-- Layer 1's bias broadcast down the edges reads, at `(e, c)`, the other program's bias row at `(0, c)`: both are `b[1, c]`. -/
theorem bias1_edges (b : FVec Ideal ReferenceIdeal.S3x64 .f32) (e : Fin 1600000) (c : Fin 64) :
    broadcastInDim ReferenceIdeal.S1600000x64 ![0, 1] ReferenceIdeal.Facts₀.bcast_S1x64_S1600000x64_0_1 (ReferenceIdeal.RSpec.bRow1 b) (ix2 e c)
      = KernelIdeal.KSpec.bRow1 b (ix2 (0 : Fin 1) c) := by
  unfold ReferenceIdeal.RSpec.bRow1 KernelIdeal.KSpec.bRow1
  exact (bias_broadcast_apply 1 b _ _ _ _ (1 : Fin 3) rfl e c).trans (bias_recast_apply 1 b _ _ _ (1 : Fin 3) rfl c).symm

/-- The same down the nodes. -/
theorem bias1_nodes (b : FVec Ideal ReferenceIdeal.S3x64 .f32) (r : Fin 100000) (c : Fin 64) :
    broadcastInDim ReferenceIdeal.S100000x64 ![0, 1] ReferenceIdeal.Facts₀.bcast_S1x64_S100000x64_0_1 (ReferenceIdeal.RSpec.bRow1 b) (ix2 r c)
      = KernelIdeal.KSpec.bRow1 b (ix2 (0 : Fin 1) c) := by
  unfold ReferenceIdeal.RSpec.bRow1 KernelIdeal.KSpec.bRow1
  exact (bias_broadcast_apply 1 b _ _ _ _ (1 : Fin 3) rfl r c).trans (bias_recast_apply 1 b _ _ _ (1 : Fin 3) rfl c).symm

/-- Layer 1's messages in the reference's spelling are the specification's messages at the kernel program's operands. -/
theorem msg_bridge1 (xj xi : FVec Ideal ReferenceIdeal.S1600000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.msg1 xj xi a0 a1 a3 a4 a5 a6
      = Cert.EdgeConv.msg (R := 1600000) xj xi (KernelIdeal.KSpec.nrmCol a0 a1) (KernelIdeal.KSpec.wT1 a3) (KernelIdeal.KSpec.bRow1 a4)
          (KernelIdeal.KSpec.wT1 a5) (KernelIdeal.KSpec.bRow1 a6) := by
  rw [← wT1_eq a3, ← wT1_eq a5]
  unfold ReferenceIdeal.RSpec.msg1
  exact msg_core _ dotE_rank dotE_size dotE_l0 dotE_l1 dotE_r0 dotE_r1 xj xi _ _ _ _ _ _ _ _
    (fun e c => coeff_eq a0 a1 e c) (fun e c => bias1_edges a4 e c) (fun e c => bias1_edges a6 e c)

/-- Layer 1's update in the reference's spelling is the specification's update at the kernel program's operands. -/
theorem upd_bridge1 (agg x : FVec Ideal ReferenceIdeal.S100000x64 .f32) (a3 : FVec Ideal ReferenceIdeal.S3x64x64 .f32) (a4 : FVec Ideal ReferenceIdeal.S3x64 .f32) :
    ReferenceIdeal.RSpec.upd1 agg x a3 a4
      = Cert.EdgeConv.upd (R := 100000) agg x (KernelIdeal.KSpec.wT1 a3) (KernelIdeal.KSpec.bRow1 a4) := by
  rw [← wT1_eq a3]
  unfold ReferenceIdeal.RSpec.upd1 ReferenceIdeal.RSpec.leakyHost
  exact upd_core _ dotN_rank dotN_size dotN_l0 dotN_l1 dotN_r0 dotN_r1 agg x _ _ _ _ _
    (fun r c => bias1_nodes a4 r c) zero_read slope_read

/-- Layer 1 of the reference is layer 1 of the kernel program. -/
theorem layer_bridge1 (x : FVec Ideal ReferenceIdeal.S100000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.layer1 x a0 a1 a3 a4 a5 a6 = KernelIdeal.KSpec.layer1 x a0 a1 a3 a4 a5 a6 := by
  unfold ReferenceIdeal.RSpec.layer1 KernelIdeal.KSpec.layer1
  rw [upd_bridge1, msg_bridge1]
  rfl

/-! ## Layer 2 -/

/-- Layer 2's weight matrix is the same matrix in the two programs: entry `(k, c)` is `W[2, c, k]`. -/
theorem wT2_eq (W : FVec Ideal ReferenceIdeal.S3x64x64 .f32) : ReferenceIdeal.RSpec.wT2 W = KernelIdeal.KSpec.wT2 W := by
  funext i
  obtain ⟨k, c, rfl⟩ : ∃ (k c : Fin 64), i = ix2 k c := ⟨i 0, i 1, eq_ix2 i⟩
  unfold ReferenceIdeal.RSpec.wT2 KernelIdeal.KSpec.wT2 KernelIdeal.KSpec.trW
  exact (weight_cut_then_transposed 2 W _ _ _ (2 : Fin 3) rfl k c).trans
    (weight_transposed_then_cut 2 W _ _ _ (2 : Fin 3) rfl k c).symm

/-- Layer 2's bias broadcast down the edges reads, at `(e, c)`, the other program's bias row at `(0, c)`: both are `b[2, c]`. -/
theorem bias2_edges (b : FVec Ideal ReferenceIdeal.S3x64 .f32) (e : Fin 1600000) (c : Fin 64) :
    broadcastInDim ReferenceIdeal.S1600000x64 ![0, 1] ReferenceIdeal.Facts₀.bcast_S1x64_S1600000x64_0_1 (ReferenceIdeal.RSpec.bRow2 b) (ix2 e c)
      = KernelIdeal.KSpec.bRow2 b (ix2 (0 : Fin 1) c) := by
  unfold ReferenceIdeal.RSpec.bRow2 KernelIdeal.KSpec.bRow2
  exact (bias_broadcast_apply 2 b _ _ _ _ (2 : Fin 3) rfl e c).trans (bias_recast_apply 2 b _ _ _ (2 : Fin 3) rfl c).symm

/-- The same down the nodes. -/
theorem bias2_nodes (b : FVec Ideal ReferenceIdeal.S3x64 .f32) (r : Fin 100000) (c : Fin 64) :
    broadcastInDim ReferenceIdeal.S100000x64 ![0, 1] ReferenceIdeal.Facts₀.bcast_S1x64_S100000x64_0_1 (ReferenceIdeal.RSpec.bRow2 b) (ix2 r c)
      = KernelIdeal.KSpec.bRow2 b (ix2 (0 : Fin 1) c) := by
  unfold ReferenceIdeal.RSpec.bRow2 KernelIdeal.KSpec.bRow2
  exact (bias_broadcast_apply 2 b _ _ _ _ (2 : Fin 3) rfl r c).trans (bias_recast_apply 2 b _ _ _ (2 : Fin 3) rfl c).symm

/-- Layer 2's messages in the reference's spelling are the specification's messages at the kernel program's operands. -/
theorem msg_bridge2 (xj xi : FVec Ideal ReferenceIdeal.S1600000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.msg2 xj xi a0 a1 a3 a4 a5 a6
      = Cert.EdgeConv.msg (R := 1600000) xj xi (KernelIdeal.KSpec.nrmCol a0 a1) (KernelIdeal.KSpec.wT2 a3) (KernelIdeal.KSpec.bRow2 a4)
          (KernelIdeal.KSpec.wT2 a5) (KernelIdeal.KSpec.bRow2 a6) := by
  rw [← wT2_eq a3, ← wT2_eq a5]
  unfold ReferenceIdeal.RSpec.msg2
  exact msg_core _ dotE_rank dotE_size dotE_l0 dotE_l1 dotE_r0 dotE_r1 xj xi _ _ _ _ _ _ _ _
    (fun e c => coeff_eq a0 a1 e c) (fun e c => bias2_edges a4 e c) (fun e c => bias2_edges a6 e c)

/-- Layer 2's update in the reference's spelling is the specification's update at the kernel program's operands. -/
theorem upd_bridge2 (agg x : FVec Ideal ReferenceIdeal.S100000x64 .f32) (a3 : FVec Ideal ReferenceIdeal.S3x64x64 .f32) (a4 : FVec Ideal ReferenceIdeal.S3x64 .f32) :
    ReferenceIdeal.RSpec.upd2 agg x a3 a4
      = Cert.EdgeConv.upd (R := 100000) agg x (KernelIdeal.KSpec.wT2 a3) (KernelIdeal.KSpec.bRow2 a4) := by
  rw [← wT2_eq a3]
  unfold ReferenceIdeal.RSpec.upd2 ReferenceIdeal.RSpec.leakyHost
  exact upd_core _ dotN_rank dotN_size dotN_l0 dotN_l1 dotN_r0 dotN_r1 agg x _ _ _ _ _
    (fun r c => bias2_nodes a4 r c) zero_read slope_read

/-- Layer 2 of the reference is layer 2 of the kernel program. -/
theorem layer_bridge2 (x : FVec Ideal ReferenceIdeal.S100000x64 .f32) (a0 : IVec ReferenceIdeal.S2x1600000 32) (a1 : FVec Ideal ReferenceIdeal.S1600000 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.layer2 x a0 a1 a3 a4 a5 a6 = KernelIdeal.KSpec.layer2 x a0 a1 a3 a4 a5 a6 := by
  unfold ReferenceIdeal.RSpec.layer2 KernelIdeal.KSpec.layer2
  rw [upd_bridge2, msg_bridge2]
  rfl

/-! ## The result -/

/-- The reference's second result is the kernel program's: the input features beside the third layer's output. -/
theorem out_bridge (a0 : IVec ReferenceIdeal.S2x1600000 32) (a1 : FVec Ideal ReferenceIdeal.S1600000 .f32) (a2 : FVec Ideal ReferenceIdeal.S100000x64 .f32)
    (a3 : FVec Ideal ReferenceIdeal.S3x64x64 .f32) (a4 : FVec Ideal ReferenceIdeal.S3x64 .f32) (a5 : FVec Ideal ReferenceIdeal.S3x64x64 .f32) (a6 : FVec Ideal ReferenceIdeal.S3x64 .f32) :
    ReferenceIdeal.RSpec.out a0 a1 a2 a3 a4 a5 a6 = KernelIdeal.KSpec.out a0 a1 a2 a3 a4 a5 a6 := by
  unfold ReferenceIdeal.RSpec.out KernelIdeal.KSpec.out
  rw [layer_bridge0, layer_bridge1, layer_bridge2]

end Cert.Bridge

end
-- ==== Proof.lean ====
/-
  The certificate: a three-layer message-passing network on a graph of 100000 nodes and 1600000 edges, its dense
  stages computed by two kernels per layer, against the same network written with host operations only.

  Frames. The two kernel programs' frames are the generated frame certificates. The reference has no kernel: its
  frame is its run (its @main as one list of host operations) with the result dropped.

  Idealization. The ideal pass rewrote nothing, so there is nothing to preserve.

  Values at the ideal instance. Both programs compute, from the same arguments, the input features beside the third
  layer's features. A layer is: gather the source and target rows of the features along the edges; the message of an
  edge is its normalisation coefficient times the sum of an affine map of the source row and an affine map of the
  entrywise product of the two rows; add each message into its target's row; update every node by the leaky rectifier
  of its aggregated messages plus an affine map of its own row. The kernel program reads the ids, the degrees, the
  coefficients, the gathers and the scatter-adds with the very host operations the reference uses, so those stages
  are one function on both sides; the two dense stages are the kernels' on one side and host matrix products on the
  other, and agree entry by entry: a matrix product is the same finite sum whichever unit forms it and whichever way
  the weight matrix was transposed and sliced, a change of float format is the identity, and the rectifier's test
  y > 0 against y ≥ 0 differs only at y = 0, where slope * 0 = 0. No step uses distributivity or cancellation, so the
  finiteness of the inputs is never opened.
-/
import proofs.«174210_j74363063763024_1_alg».proof.Defs
import proofs.«174210_j74363063763024_1_alg».proof.Proof.Gen.Kernel
import proofs.«174210_j74363063763024_1_alg».proof.Proof.Gen.Kernel.Frame
import proofs.«174210_j74363063763024_1_alg».proof.Proof.Gen.KernelIdeal
import proofs.«174210_j74363063763024_1_alg».proof.Proof.Gen.KernelIdeal.Frame
import proofs.«174210_j74363063763024_1_alg».proof.Proof.Gen.ReferenceIdeal
import proofs.«174210_j74363063763024_1_alg».proof.Proof.Gen.Pre_finite_inputs
import proofs.«174210_j74363063763024_1_alg».proof.Proof.KRun
import proofs.«174210_j74363063763024_1_alg».proof.Proof.KChain
import proofs.«174210_j74363063763024_1_alg».proof.Proof.Region0
import proofs.«174210_j74363063763024_1_alg».proof.Proof.Region1
import proofs.«174210_j74363063763024_1_alg».proof.Proof.Region2
import proofs.«174210_j74363063763024_1_alg».proof.Proof.Region3
import proofs.«174210_j74363063763024_1_alg».proof.Proof.Region4
import proofs.«174210_j74363063763024_1_alg».proof.Proof.Region5
import proofs.«174210_j74363063763024_1_alg».proof.Proof.RefValue
import proofs.«174210_j74363063763024_1_alg».proof.Proof.Bridge
import Idealize.ShloMosaic.Adequacy
import Idealize.ShloMosaic.Init

noncomputable section

namespace Cert.Proof

open Idealize.ShloMosaic Idealize.SL.Sem

/-! The programs' stated side conditions, witnessed by the generated facts. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the input features unchanged and with the stage functions' composition of the arguments in
    the result buffer: the kernel program by its run and the reading of its buffers boundary by boundary, the
    reference by its run; the two compositions are one function of arguments that agree. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg2)),
    fun c => Cert.KernelIdeal.KSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.KRun.run_out (F := Ideal) m ρ)
    obtain ⟨hv, h0, h1, h2, h3, h4, h5, h6⟩ := h c
    exact ⟨h2, hv.trans (Cert.KernelIdeal.KChain.W15_v157 m ρ c Cert.KernelIdeal.RegionValue.final0 Cert.KernelIdeal.RegionValue.final1 Cert.KernelIdeal.RegionValue.final2
      Cert.KernelIdeal.RegionValue.final3 Cert.KernelIdeal.RegionValue.final4 Cert.KernelIdeal.RegionValue.final5), h0, h1, h2, h3, h4, h5, h6⟩
  · refine (θ_run Cert.ReferenceIdeal.defs _ _).mono (fun r h c => ?_) (Cert.ReferenceIdeal.RefRun.run m' ρ')
    obtain ⟨hv, h0, h1, h2, h3, h4, h5, h6⟩ := h c
    obtain ⟨e0, e1, e2, e3, e4, e5, e6⟩ := hagree c
    refine ⟨h2.trans e2, hv.trans ?_, h0, h1, h2, h3, h4, h5, h6⟩
    rw [e0, e1, e2, e3, e4, e5, e6]
    exact Cert.Bridge.out_bridge _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
